-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x65 : Shape := ⟨4, ![16, 64, 64, 65]⟩
abbrev S64x64x1x3x3 : Shape := ⟨5, ![64, 64, 1, 3, 3]⟩
abbrev S1x1x1x576 : Shape := ⟨4, ![1, 1, 1, 576]⟩
abbrev S65x1 : Shape := ⟨2, ![65, 1]⟩
abbrev S_ : Shape := ⟨0, ![]⟩

class Facts : Prop where
  bcast_S_S16x64x64x65 : S_.BroadcastsInDim S16x64x64x65 (![] : Fin 0 → Fin S16x64x64x65.rank)
  reducesTo_S16x64x64x65_S_d0_1_2_3 : S16x64x64x65.ReducesTo [0, 1, 2, 3] S_
  h_S_ : 0 < S_.numel
  bcast_S_S64x64x1x3x3 : S_.BroadcastsInDim S64x64x1x3x3 (![] : Fin 0 → Fin S64x64x1x3x3.rank)
  reducesTo_S64x64x1x3x3_S_d0_1_2_3_4 : S64x64x1x3x3.ReducesTo [0, 1, 2, 3, 4] S_
  bcast_S_S1x1x1x576 : S_.BroadcastsInDim S1x1x1x576 (![] : Fin 0 → Fin S1x1x1x576.rank)
  reducesTo_S1x1x1x576_S_d0_1_2_3 : S1x1x1x576.ReducesTo [0, 1, 2, 3] S_
  bcast_S_S65x1 : S_.BroadcastsInDim S65x1 (![] : Fin 0 → Fin S65x1.rank)
  reducesTo_S65x1_S_d0_1 : S65x1.ReducesTo [0, 1] S_

variable [Facts]

def fn_part1 {F : FTy → Type} [FloatOps F] (main_v13 : IVec S_ 1) (main_v16 : IVec S65x1 1) : IVec S_ 1 :=
  let main_c_5 : IVec S_ 1 := constantI S_ 1 1#1
  let main_v17 : IVec S_ 1 := (fun x v => Host.reduce IntOp.andi x v reducesTo_S65x1_S_d0_1 h_S_) main_v16 main_c_5
  let main_v18 : IVec S_ 1 := andi main_v13 main_v17
  main_v18

def fn {F : FTy → Type} [FloatOps F] (main_arg0 : FVec F S16x64x64x65 .f32) (main_arg1 : FVec F S64x64x1x3x3 .f32) (main_arg2 : FVec F S1x1x1x576 .f32) (main_arg3 : FVec F S65x1 .f32) : IVec S_ 1 :=
  let main_v0 : FVec F S16x64x64x65 .f32 := Host.absf main_arg0
  let main_cst : FVec F S_ .f32 := constant S_ .f32 0x7F800000#32
  let main_v1 : FVec F S16x64x64x65 .f32 := broadcastInDim S16x64x64x65 ![] bcast_S_S16x64x64x65 main_cst
  let main_v2 : IVec S16x64x64x65 1 := cmpf .olt main_v0 main_v1
  let main_c : IVec S_ 1 := constantI S_ 1 1#1
  let main_v3 : IVec S_ 1 := (fun x v => Host.reduce IntOp.andi x v reducesTo_S16x64x64x65_S_d0_1_2_3 h_S_) main_v2 main_c
  let main_v4 : FVec F S64x64x1x3x3 .f32 := Host.absf main_arg1
  let main_cst_0 : FVec F S_ .f32 := constant S_ .f32 0x7F800000#32
  let main_v5 : FVec F S64x64x1x3x3 .f32 := broadcastInDim S64x64x1x3x3 ![] bcast_S_S64x64x1x3x3 main_cst_0
  let main_v6 : IVec S64x64x1x3x3 1 := cmpf .olt main_v4 main_v5
  let main_c_1 : IVec S_ 1 := constantI S_ 1 1#1
  let main_v7 : IVec S_ 1 := (fun x v => Host.reduce IntOp.andi x v reducesTo_S64x64x1x3x3_S_d0_1_2_3_4 h_S_) main_v6 main_c_1
  let main_v8 : IVec S_ 1 := andi main_v3 main_v7
  let main_v9 : FVec F S1x1x1x576 .f32 := Host.absf main_arg2
  let main_cst_2 : FVec F S_ .f32 := constant S_ .f32 0x7F800000#32
  let main_v10 : FVec F S1x1x1x576 .f32 := broadcastInDim S1x1x1x576 ![] bcast_S_S1x1x1x576 main_cst_2
  let main_v11 : IVec S1x1x1x576 1 := cmpf .olt main_v9 main_v10
  let main_c_3 : IVec S_ 1 := constantI S_ 1 1#1
  let main_v12 : IVec S_ 1 := (fun x v => Host.reduce IntOp.andi x v reducesTo_S1x1x1x576_S_d0_1_2_3 h_S_) main_v11 main_c_3
  let main_v13 : IVec S_ 1 := andi main_v8 main_v12
  let main_v14 : FVec F S65x1 .f32 := Host.absf main_arg3
  let main_cst_4 : FVec F S_ .f32 := constant S_ .f32 0x7F800000#32
  let main_v15 : FVec F S65x1 .f32 := broadcastInDim S65x1 ![] bcast_S_S65x1 main_cst_4
  let main_v16 : IVec S65x1 1 := cmpf .olt main_v14 main_v15
  fn_part1 (F := F) main_v13 main_v16
-- ==== Kernel.lean ====
abbrev S16x64x64x65 : Shape := ⟨4, ![16, 64, 64, 65]⟩
abbrev S64x64x1x3x3 : Shape := ⟨5, ![64, 64, 1, 3, 3]⟩
abbrev S1x1x1x576 : Shape := ⟨4, ![1, 1, 1, 576]⟩
abbrev S65x1 : Shape := ⟨2, ![65, 1]⟩
abbrev S_ : Shape := ⟨0, ![]⟩
abbrev S16x66x66x65 : Shape := ⟨4, ![16, 66, 66, 65]⟩
abbrev S16x64x64x1 : Shape := ⟨4, ![16, 64, 64, 1]⟩
abbrev S16x64x64x64 : Shape := ⟨4, ![16, 64, 64, 64]⟩
abbrev S16x64x64x576 : Shape := ⟨4, ![16, 64, 64, 576]⟩
abbrev S16x64x64x577 : Shape := ⟨4, ![16, 64, 64, 577]⟩
abbrev S16x4096x577 : Shape := ⟨3, ![16, 4096, 577]⟩
abbrev S64x1x64x1x3x3 : Shape := ⟨6, ![64, 1, 64, 1, 3, 3]⟩
abbrev S64x4x64x1x3x3 : Shape := ⟨6, ![64, 4, 64, 1, 3, 3]⟩
abbrev S64x4x64x1x9 : Shape := ⟨5, ![64, 4, 64, 1, 9]⟩
abbrev S4x64x1x64x9 : Shape := ⟨5, ![4, 64, 1, 64, 9]⟩
abbrev S4x64x1x576 : Shape := ⟨4, ![4, 64, 1, 576]⟩
abbrev S4x1x1x576 : Shape := ⟨4, ![4, 1, 1, 576]⟩
abbrev S4x65x1x576 : Shape := ⟨4, ![4, 65, 1, 576]⟩
abbrev S4x65x576 : Shape := ⟨3, ![4, 65, 576]⟩
abbrev S1x65x1 : Shape := ⟨3, ![1, 65, 1]⟩
abbrev S4x65x1 : Shape := ⟨3, ![4, 65, 1]⟩
abbrev S4x65x577 : Shape := ⟨3, ![4, 65, 577]⟩
abbrev S577x4x65 : Shape := ⟨3, ![577, 4, 65]⟩
abbrev S577x260 : Shape := ⟨2, ![577, 260]⟩
abbrev S16x4x64x64x65 : Shape := ⟨5, ![16, 4, 64, 64, 65]⟩
abbrev S1x4096x577 : Shape := ⟨3, ![1, 4096, 577]⟩
abbrev S1x4x64x64x65 : Shape := ⟨5, ![1, 4, 64, 64, 65]⟩
abbrev S4096x577 : Shape := ⟨2, ![4096, 577]⟩
abbrev S4096x260 : Shape := ⟨2, ![4096, 260]⟩
abbrev S4096x65 : Shape := ⟨2, ![4096, 65]⟩
abbrev S4096x64 : Shape := ⟨2, ![4096, 64]⟩
abbrev S4096 : Shape := ⟨1, ![4096]⟩
abbrev S4096x1 : Shape := ⟨2, ![4096, 1]⟩
abbrev S64x64x65 : Shape := ⟨3, ![64, 64, 65]⟩
abbrev S1x1x64x64x65 : Shape := ⟨5, ![1, 1, 64, 64, 65]⟩

abbrev nBuf : Space → Nat
  | .hbm => 113
  | .vmem => 5
  | .smem => 0
  | _ => 0

abbrev bufTy : (tb : Table) → Fin (tcTables nBuf tb) → BufTy
  | .hbm, ⟨0, _⟩ => ⟨S16x64x64x65, .f32⟩
  | .hbm, ⟨1, _⟩ => ⟨S64x64x1x3x3, .f32⟩
  | .hbm, ⟨2, _⟩ => ⟨S1x1x1x576, .f32⟩
  | .hbm, ⟨3, _⟩ => ⟨S65x1, .f32⟩
  | .hbm, ⟨4, _⟩ => ⟨S_, .i32⟩
  | .hbm, ⟨5, _⟩ => ⟨S_, .f32⟩
  | .hbm, ⟨6, _⟩ => ⟨S16x66x66x65, .f32⟩
  | .hbm, ⟨7, _⟩ => ⟨S_, .f32⟩
  | .hbm, ⟨8, _⟩ => ⟨S16x64x64x1, .f32⟩
  | .hbm, ⟨9, _⟩ => ⟨S16x64x64x65, .f32⟩
  | .hbm, ⟨10, _⟩ => ⟨S16x64x64x1, .f32⟩
  | .hbm, ⟨11, _⟩ => ⟨S_, .f32⟩
  | .hbm, ⟨12, _⟩ => ⟨S16x64x64x1, .f32⟩
  | .hbm, ⟨13, _⟩ => ⟨S16x64x64x1, .f32⟩
  | .hbm, ⟨14, _⟩ => ⟨S16x64x64x1, .f32⟩
  | .hbm, ⟨15, _⟩ => ⟨S16x64x64x1, .f32⟩
  | .hbm, ⟨16, _⟩ => ⟨S16x64x64x64, .f32⟩
  | .hbm, ⟨17, _⟩ => ⟨S16x64x64x65, .f32⟩
  | .hbm, ⟨18, _⟩ => ⟨S16x64x64x1, .f32⟩
  | .hbm, ⟨19, _⟩ => ⟨S_, .f32⟩
  | .hbm, ⟨20, _⟩ => ⟨S16x64x64x1, .f32⟩
  | .hbm, ⟨21, _⟩ => ⟨S16x64x64x1, .f32⟩
  | .hbm, ⟨22, _⟩ => ⟨S16x64x64x1, .f32⟩
  | .hbm, ⟨23, _⟩ => ⟨S16x64x64x1, .f32⟩
  | .hbm, ⟨24, _⟩ => ⟨S16x64x64x64, .f32⟩
  | .hbm, ⟨25, _⟩ => ⟨S16x64x64x65, .f32⟩
  | .hbm, ⟨26, _⟩ => ⟨S16x64x64x1, .f32⟩
  | .hbm, ⟨27, _⟩ => ⟨S_, .f32⟩
  | .hbm, ⟨28, _⟩ => ⟨S16x64x64x1, .f32⟩
  | .hbm, ⟨29, _⟩ => ⟨S16x64x64x1, .f32⟩
  | .hbm, ⟨30, _⟩ => ⟨S16x64x64x1, .f32⟩
  | .hbm, ⟨31, _⟩ => ⟨S16x64x64x1, .f32⟩
  | .hbm, ⟨32, _⟩ => ⟨S16x64x64x64, .f32⟩
  | .hbm, ⟨33, _⟩ => ⟨S16x64x64x65, .f32⟩
  | .hbm, ⟨34, _⟩ => ⟨S16x64x64x1, .f32⟩
  | .hbm, ⟨35, _⟩ => ⟨S_, .f32⟩
  | .hbm, ⟨36, _⟩ => ⟨S16x64x64x1, .f32⟩
  | .hbm, ⟨37, _⟩ => ⟨S16x64x64x1, .f32⟩
  | .hbm, ⟨38, _⟩ => ⟨S16x64x64x1, .f32⟩
  | .hbm, ⟨39, _⟩ => ⟨S16x64x64x1, .f32⟩
  | .hbm, ⟨40, _⟩ => ⟨S16x64x64x64, .f32⟩
  | .hbm, ⟨41, _⟩ => ⟨S16x64x64x65, .f32⟩
  | .hbm, ⟨42, _⟩ => ⟨S16x64x64x1, .f32⟩
  | .hbm, ⟨43, _⟩ => ⟨S_, .f32⟩
  | .hbm, ⟨44, _⟩ => ⟨S16x64x64x1, .f32⟩
  | .hbm, ⟨45, _⟩ => ⟨S16x64x64x1, .f32⟩
  | .hbm, ⟨46, _⟩ => ⟨S16x64x64x1, .f32⟩
  | .hbm, ⟨47, _⟩ => ⟨S16x64x64x1, .f32⟩
  | .hbm, ⟨48, _⟩ => ⟨S16x64x64x64, .f32⟩
  | .hbm, ⟨49, _⟩ => ⟨S16x64x64x65, .f32⟩
  | .hbm, ⟨50, _⟩ => ⟨S16x64x64x1, .f32⟩
  | .hbm, ⟨51, _⟩ => ⟨S_, .f32⟩
  | .hbm, ⟨52, _⟩ => ⟨S16x64x64x1, .f32⟩
  | .hbm, ⟨53, _⟩ => ⟨S16x64x64x1, .f32⟩
  | .hbm, ⟨54, _⟩ => ⟨S16x64x64x1, .f32⟩
  | .hbm, ⟨55, _⟩ => ⟨S16x64x64x1, .f32⟩
  | .hbm, ⟨56, _⟩ => ⟨S16x64x64x64, .f32⟩
  | .hbm, ⟨57, _⟩ => ⟨S16x64x64x65, .f32⟩
  | .hbm, ⟨58, _⟩ => ⟨S16x64x64x1, .f32⟩
  | .hbm, ⟨59, _⟩ => ⟨S_, .f32⟩
  | .hbm, ⟨60, _⟩ => ⟨S16x64x64x1, .f32⟩
  | .hbm, ⟨61, _⟩ => ⟨S16x64x64x1, .f32⟩
  | .hbm, ⟨62, _⟩ => ⟨S16x64x64x1, .f32⟩
  | .hbm, ⟨63, _⟩ => ⟨S16x64x64x1, .f32⟩
  | .hbm, ⟨64, _⟩ => ⟨S16x64x64x64, .f32⟩
  | .hbm, ⟨65, _⟩ => ⟨S16x64x64x65, .f32⟩
  | .hbm, ⟨66, _⟩ => ⟨S16x64x64x1, .f32⟩
  | .hbm, ⟨67, _⟩ => ⟨S_, .f32⟩
  | .hbm, ⟨68, _⟩ => ⟨S16x64x64x1, .f32⟩
  | .hbm, ⟨69, _⟩ => ⟨S16x64x64x1, .f32⟩
  | .hbm, ⟨70, _⟩ => ⟨S16x64x64x1, .f32⟩
  | .hbm, ⟨71, _⟩ => ⟨S16x64x64x1, .f32⟩
  | .hbm, ⟨72, _⟩ => ⟨S16x64x64x64, .f32⟩
  | .hbm, ⟨73, _⟩ => ⟨S16x64x64x65, .f32⟩
  | .hbm, ⟨74, _⟩ => ⟨S16x64x64x1, .f32⟩
  | .hbm, ⟨75, _⟩ => ⟨S_, .f32⟩
  | .hbm, ⟨76, _⟩ => ⟨S16x64x64x1, .f32⟩
  | .hbm, ⟨77, _⟩ => ⟨S16x64x64x1, .f32⟩
  | .hbm, ⟨78, _⟩ => ⟨S16x64x64x1, .f32⟩
  | .hbm, ⟨79, _⟩ => ⟨S16x64x64x1, .f32⟩
  | .hbm, ⟨80, _⟩ => ⟨S16x64x64x64, .f32⟩
  | .hbm, ⟨81, _⟩ => ⟨S_, .f32⟩
  | .hbm, ⟨82, _⟩ => ⟨S16x64x64x1, .f32⟩
  | .hbm, ⟨83, _⟩ => ⟨S16x64x64x1, .f32⟩
  | .hbm, ⟨84, _⟩ => ⟨S16x64x64x1, .f32⟩
  | .hbm, ⟨85, _⟩ => ⟨S16x64x64x576, .f32⟩
  | .hbm, ⟨86, _⟩ => ⟨S16x64x64x577, .f32⟩
  | .hbm, ⟨87, _⟩ => ⟨S16x64x64x577, .bf16⟩
  | .hbm, ⟨88, _⟩ => ⟨S16x4096x577, .bf16⟩
  | .hbm, ⟨89, _⟩ => ⟨S64x64x1x3x3, .f32⟩
  | .hbm, ⟨90, _⟩ => ⟨S64x64x1x3x3, .f32⟩
  | .hbm, ⟨91, _⟩ => ⟨S64x64x1x3x3, .f32⟩
  | .hbm, ⟨92, _⟩ => ⟨S64x64x1x3x3, .f32⟩
  | .hbm, ⟨93, _⟩ => ⟨S64x64x1x3x3, .f32⟩
  | .hbm, ⟨94, _⟩ => ⟨S64x64x1x3x3, .f32⟩
  | .hbm, ⟨95, _⟩ => ⟨S64x1x64x1x3x3, .f32⟩
  | .hbm, ⟨96, _⟩ => ⟨S64x1x64x1x3x3, .f32⟩
  | .hbm, ⟨97, _⟩ => ⟨S64x1x64x1x3x3, .f32⟩
  | .hbm, ⟨98, _⟩ => ⟨S64x1x64x1x3x3, .f32⟩
  | .hbm, ⟨99, _⟩ => ⟨S64x4x64x1x3x3, .f32⟩
  | .hbm, ⟨100, _⟩ => ⟨S64x4x64x1x9, .f32⟩
  | .hbm, ⟨101, _⟩ => ⟨S4x64x1x64x9, .f32⟩
  | .hbm, ⟨102, _⟩ => ⟨S4x64x1x576, .f32⟩
  | .hbm, ⟨103, _⟩ => ⟨S4x1x1x576, .f32⟩
  | .hbm, ⟨104, _⟩ => ⟨S4x65x1x576, .f32⟩
  | .hbm, ⟨105, _⟩ => ⟨S4x65x576, .f32⟩
  | .hbm, ⟨106, _⟩ => ⟨S1x65x1, .f32⟩
  | .hbm, ⟨107, _⟩ => ⟨S4x65x1, .f32⟩
  | .hbm, ⟨108, _⟩ => ⟨S4x65x577, .f32⟩
  | .hbm, ⟨109, _⟩ => ⟨S577x4x65, .f32⟩
  | .hbm, ⟨110, _⟩ => ⟨S577x260, .f32⟩
  | .hbm, ⟨111, _⟩ => ⟨S577x260, .bf16⟩
  | .hbm, ⟨112, _⟩ => ⟨S16x4x64x64x65, .f32⟩
  | .local _ .vmem, ⟨0, _⟩ => ⟨S1x4096x577, .bf16⟩
  | .local _ .vmem, ⟨1, _⟩ => ⟨S1x4096x577, .bf16⟩
  | .local _ .vmem, ⟨2, _⟩ => ⟨S577x260, .bf16⟩
  | .local _ .vmem, ⟨3, _⟩ => ⟨S1x4x64x64x65, .f32⟩
  | .local _ .vmem, ⟨4, _⟩ => ⟨S1x4x64x64x65, .f32⟩
  | _, _ => ⟨S16x64x64x65, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_call2_v0 : Ref sig .tc := ⟨.hbm, 89, rfl⟩
abbrev main_v73 : Ref sig .tc := ⟨.hbm, 90, rfl⟩
abbrev main_call3_v0 : Ref sig .tc := ⟨.hbm, 91, rfl⟩
abbrev main_v74 : Ref sig .tc := ⟨.hbm, 92, rfl⟩
abbrev main_call4_v0 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x4096x577 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S577x260 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4x64x64x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x64x64x65_S16x66x66x65_000_110_110_000 : S16x64x64x65.Pads (![0, 1, 1, 0] : Fin 4 → Nat) ![0, 1, 1, 0] ![0, 0, 0, 0] S16x66x66x65
  h_S_ : 0 < S_.numel
  bcast_S_S16x64x64x1 : S_.BroadcastsInDim S16x64x64x1 (![] : Fin 0 → Fin S16x64x64x1.rank)
  slices_S16x66x66x65_S16x64x64x65_0_0_0_0 : S16x66x66x65.Slices ![0, 0, 0, 0] S16x64x64x65
  slices_S16x64x64x65_S16x64x64x1_0_0_0_0 : S16x64x64x65.Slices ![0, 0, 0, 0] S16x64x64x1
  slices_S16x64x64x65_S16x64x64x64_0_0_0_1 : S16x64x64x65.Slices ![0, 0, 0, 1] S16x64x64x64
  slices_S16x66x66x65_S16x64x64x65_0_0_1_0 : S16x66x66x65.Slices ![0, 0, 1, 0] S16x64x64x65
  slices_S16x66x66x65_S16x64x64x65_0_0_2_0 : S16x66x66x65.Slices ![0, 0, 2, 0] S16x64x64x65
  slices_S16x66x66x65_S16x64x64x65_0_1_0_0 : S16x66x66x65.Slices ![0, 1, 0, 0] S16x64x64x65
  slices_S16x66x66x65_S16x64x64x65_0_1_1_0 : S16x66x66x65.Slices ![0, 1, 1, 0] S16x64x64x65
  slices_S16x66x66x65_S16x64x64x65_0_1_2_0 : S16x66x66x65.Slices ![0, 1, 2, 0] S16x64x64x65
  slices_S16x66x66x65_S16x64x64x65_0_2_0_0 : S16x66x66x65.Slices ![0, 2, 0, 0] S16x64x64x65
  slices_S16x66x66x65_S16x64x64x65_0_2_1_0 : S16x66x66x65.Slices ![0, 2, 1, 0] S16x64x64x65
  slices_S16x66x66x65_S16x64x64x65_0_2_2_0 : S16x66x66x65.Slices ![0, 2, 2, 0] S16x64x64x65
  concatenates_S16x64x64x64_S16x64x64x64_S16x64x64x64_S16x64x64x64_S16x64x64x64_S16x64x64x64_S16x64x64x64_S16x64x64x64_S16x64x64x64_S16x64x64x576_d3 : Shape.Concatenates [S16x64x64x64, S16x64x64x64, S16x64x64x64, S16x64x64x64, S16x64x64x64, S16x64x64x64, S16x64x64x64, S16x64x64x64, S16x64x64x64] S16x64x64x576 3
  concatenates_S16x64x64x1_S16x64x64x576_S16x64x64x577_d3 : Shape.Concatenates [S16x64x64x1, S16x64x64x576] S16x64x64x577 3
  bitsLt_bf16_f32 : FTy.bits .bf16 < FTy.bits .f32
  shapeCasts_S16x64x64x577_S16x4096x577 : S16x64x64x577.ShapeCasts S16x4096x577
  transposes_S64x64x1x3x3_S64x64x1x3x3_0_1_2_4_3 : S64x64x1x3x3.Transposes [0, 1, 2, 4, 3] S64x64x1x3x3
  bcast_S64x64x1x3x3_S64x1x64x1x3x3_0_2_3_4_5 : S64x64x1x3x3.BroadcastsInDim S64x1x64x1x3x3 (![0, 2, 3, 4, 5] : Fin 5 → Fin S64x1x64x1x3x3.rank)
  concatenates_S64x1x64x1x3x3_S64x1x64x1x3x3_S64x1x64x1x3x3_S64x1x64x1x3x3_S64x4x64x1x3x3_d1 : Shape.Concatenates [S64x1x64x1x3x3, S64x1x64x1x3x3, S64x1x64x1x3x3, S64x1x64x1x3x3] S64x4x64x1x3x3 1
  shapeCasts_S64x4x64x1x3x3_S64x4x64x1x9 : S64x4x64x1x3x3.ShapeCasts S64x4x64x1x9
  transposes_S64x4x64x1x9_S4x64x1x64x9_1_0_3_2_4 : S64x4x64x1x9.Transposes [1, 0, 3, 2, 4] S4x64x1x64x9
  shapeCasts_S4x64x1x64x9_S4x64x1x576 : S4x64x1x64x9.ShapeCasts S4x64x1x576
  bcast_S1x1x1x576_S4x1x1x576_0_1_2_3 : S1x1x1x576.BroadcastsInDim S4x1x1x576 (![0, 1, 2, 3] : Fin 4 → Fin S4x1x1x576.rank)
  concatenates_S4x1x1x576_S4x64x1x576_S4x65x1x576_d1 : Shape.Concatenates [S4x1x1x576, S4x64x1x576] S4x65x1x576 1
  shapeCasts_S4x65x1x576_S4x65x576 : S4x65x1x576.ShapeCasts S4x65x576
  bcast_S65x1_S1x65x1_1_2 : S65x1.BroadcastsInDim S1x65x1 (![1, 2] : Fin 2 → Fin S1x65x1.rank)
  bcast_S1x65x1_S4x65x1_0_1_2 : S1x65x1.BroadcastsInDim S4x65x1 (![0, 1, 2] : Fin 3 → Fin S4x65x1.rank)
  concatenates_S4x65x1_S4x65x576_S4x65x577_d2 : Shape.Concatenates [S4x65x1, S4x65x576] S4x65x577 2
  transposes_S4x65x577_S577x4x65_2_0_1 : S4x65x577.Transposes [2, 0, 1] S577x4x65
  shapeCasts_S577x4x65_S577x260 : S577x4x65.ShapeCasts S577x260
  inb_S1x4096x577_S1x4096x577_0_0_0 : ∀ a, (![0, 0, 0] : Fin 3 → Nat) a + S1x4096x577.size a ≤ S1x4096x577.size a
  h_S1x4096x577 : 0 < S1x4096x577.numel
  shapeCasts_S1x4096x577_S4096x577 : S1x4096x577.ShapeCasts S4096x577
  inb_S577x260_S577x260_0_0 : ∀ a, (![0, 0] : Fin 2 → Nat) a + S577x260.size a ≤ S577x260.size a
  h_S577x260 : 0 < S577x260.numel
  shapeCasts_S577x260_S577x260 : S577x260.ShapeCasts S577x260
  slices_S4096x260_o0_0_S4096x65 : S4096x260.Slices ![0, 0] S4096x65
  slices_S4096x65_o0_1_S4096x64 : S4096x65.Slices ![0, 1] S4096x64
  reduces_S4096x64_S4096 : S4096x64.Reduces [1] S4096
  shapeCasts_S4096_S4096x1 : S4096.ShapeCasts S4096x1
  concatenates_S4096x1_S4096x64_S4096x65_d1 : Shape.Concatenates [S4096x1, S4096x64] S4096x65 1
  shapeCasts_S4096x65_S64x64x65 : S4096x65.ShapeCasts S64x64x65
  inb_S1x4x64x64x65_S1x1x64x64x65_0_0_0_0_0 : ∀ a, (![0, 0, 0, 0, 0] : Fin 5 → Nat) a + S1x1x64x64x65.size a ≤ S1x4x64x64x65.size a
  h_S1x1x64x64x65 : 0 < S1x1x64x64x65.numel
  shapeCasts_S1x1x64x64x65_S64x64x65 : S1x1x64x64x65.ShapeCasts S64x64x65
  shapeCasts_S64x64x65_S1x1x64x64x65 : S64x64x65.ShapeCasts S1x1x64x64x65
  slices_S4096x260_o0_65_S4096x65 : S4096x260.Slices ![0, 65] S4096x65
  inb_S1x4x64x64x65_S1x1x64x64x65_0_1_0_0_0 : ∀ a, (![0, 1, 0, 0, 0] : Fin 5 → Nat) a + S1x1x64x64x65.size a ≤ S1x4x64x64x65.size a
  slices_S4096x260_o0_130_S4096x65 : S4096x260.Slices ![0, 130] S4096x65
  inb_S1x4x64x64x65_S1x1x64x64x65_0_2_0_0_0 : ∀ a, (![0, 2, 0, 0, 0] : Fin 5 → Nat) a + S1x1x64x64x65.size a ≤ S1x4x64x64x65.size a
  slices_S4096x260_o0_195_S4096x65 : S4096x260.Slices ![0, 195] S4096x65
  inb_S1x4x64x64x65_S1x1x64x64x65_0_3_0_0_0 : ∀ a, (![0, 3, 0, 0, 0] : Fin 5 → Nat) a + S1x1x64x64x65.size a ≤ S1x4x64x64x65.size a
  dot_S4096x577_S577x260_S4096x260_1_0_0_1_n_n_wf : DotDims.WF S4096x577 S577x260 S4096x260 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x577.size a ≤ S16x4096x577.size a
  hwx0_0 : ∀ i : grid0.Coords, EltTy.bits .bf16 = 32 ∨ (Rect.block (s := S16x4096x577) S1x4096x577.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S577x260.size a ≤ S577x260.size a
  hwx0_1 : ∀ i : grid0.Coords, EltTy.bits .bf16 = 32 ∨ (Rect.block (s := S577x260) S577x260.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x64x64x65.size a ≤ S16x4x64x64x65.size a
  hwx0_2 : ∀ i : grid0.Coords, EltTy.bits .f32 = 32 ∨ (Rect.block (s := S16x4x64x64x65) S1x4x64x64x65.size (cc0_transform_2 i) (hinb0_2 i)).WholeWords (EltTy.packing .f32)

variable [Facts₀]

def dot_S4096x577_S577x260_S4096x260_1_0_0_1_n_n : DotDims S4096x577 S577x260 S4096x260 where
  lhsContracting := [1]
  rhsContracting := [0]
  lhsNonContracting := [0]
  rhsNonContracting := [1]
  lhsBatch := []
  rhsBatch := []
  wf := dot_S4096x577_S577x260_S4096x260_1_0_0_1_n_n_wf

abbrev win0_0 : Pipeline.Window sig grid0 :=
  Pipeline.Window.ofSpec (Memref.whole main_v71) S1x4096x577.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v92) S577x260.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v93) S1x4x64x64x65.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x64x64x65 : Shape := ⟨4, ![16, 64, 64, 65]⟩
abbrev S64x64x1x3x3 : Shape := ⟨5, ![64, 64, 1, 3, 3]⟩
abbrev S1x1x1x576 : Shape := ⟨4, ![1, 1, 1, 576]⟩
abbrev S65x1 : Shape := ⟨2, ![65, 1]⟩
abbrev S16x65x64x64 : Shape := ⟨4, ![16, 65, 64, 64]⟩
abbrev S_ : Shape := ⟨0, ![]⟩
abbrev S16x65x66x66 : Shape := ⟨4, ![16, 65, 66, 66]⟩
abbrev S16x65x1x64x64 : Shape := ⟨5, ![16, 65, 1, 64, 64]⟩
abbrev S16x65x9x64x64 : Shape := ⟨5, ![16, 65, 9, 64, 64]⟩
abbrev S16x585x4096 : Shape := ⟨3, ![16, 585, 4096]⟩
abbrev S16x4096x585 : Shape := ⟨3, ![16, 4096, 585]⟩
abbrev S16x4096x9 : Shape := ⟨3, ![16, 4096, 9]⟩
abbrev S16x4096 : Shape := ⟨2, ![16, 4096]⟩
abbrev S16x4096x1 : Shape := ⟨3, ![16, 4096, 1]⟩
abbrev S16x4096x576 : Shape := ⟨3, ![16, 4096, 576]⟩
abbrev S16x4096x64x9 : Shape := ⟨4, ![16, 4096, 64, 9]⟩
abbrev S16x4096x9x64 : Shape := ⟨4, ![16, 4096, 9, 64]⟩
abbrev S16x4096x577 : Shape := ⟨3, ![16, 4096, 577]⟩
abbrev S64x1x64x1x3x3 : Shape := ⟨6, ![64, 1, 64, 1, 3, 3]⟩
abbrev S64x4x64x1x3x3 : Shape := ⟨6, ![64, 4, 64, 1, 3, 3]⟩
abbrev S64x4x64x1x9 : Shape := ⟨5, ![64, 4, 64, 1, 9]⟩
abbrev S4x64x1x64x9 : Shape := ⟨5, ![4, 64, 1, 64, 9]⟩
abbrev S4x64x1x576 : Shape := ⟨4, ![4, 64, 1, 576]⟩
abbrev S4x1x1x576 : Shape := ⟨4, ![4, 1, 1, 576]⟩
abbrev S1x1x576 : Shape := ⟨3, ![1, 1, 576]⟩
abbrev S1x0x576 : Shape := ⟨3, ![1, 0, 576]⟩
abbrev S4x65x1x576 : Shape := ⟨4, ![4, 65, 1, 576]⟩
abbrev S4x65x576 : Shape := ⟨3, ![4, 65, 576]⟩
abbrev S1x65x1 : Shape := ⟨3, ![1, 65, 1]⟩
abbrev S4x65x1 : Shape := ⟨3, ![4, 65, 1]⟩
abbrev S4x65x577 : Shape := ⟨3, ![4, 65, 577]⟩
abbrev S4x65x16x4096 : Shape := ⟨4, ![4, 65, 16, 4096]⟩
abbrev S4x16x4096x65 : Shape := ⟨4, ![4, 16, 4096, 65]⟩
abbrev S4x16x4096x64 : Shape := ⟨4, ![4, 16, 4096, 64]⟩
abbrev S4x16x4096 : Shape := ⟨3, ![4, 16, 4096]⟩
abbrev S4x16x4096x1 : Shape := ⟨4, ![4, 16, 4096, 1]⟩
abbrev S16x4x4096x65 : Shape := ⟨4, ![16, 4, 4096, 65]⟩
abbrev S16x4x64x64x65 : Shape := ⟨5, ![16, 4, 64, 64, 65]⟩

abbrev nBuf : Space → Nat
  | .hbm => 106
  | .vmem => 0
  | .smem => 0
  | _ => 0

abbrev bufTy : (tb : Table) → Fin (tcTables nBuf tb) → BufTy
  | .hbm, ⟨0, _⟩ => ⟨S16x64x64x65, .f32⟩
  | .hbm, ⟨1, _⟩ => ⟨S64x64x1x3x3, .f32⟩
  | .hbm, ⟨2, _⟩ => ⟨S1x1x1x576, .f32⟩
  | .hbm, ⟨3, _⟩ => ⟨S65x1, .f32⟩
  | .hbm, ⟨4, _⟩ => ⟨S16x65x64x64, .f32⟩
  | .hbm, ⟨5, _⟩ => ⟨S_, .i32⟩
  | .hbm, ⟨6, _⟩ => ⟨S_, .f32⟩
  | .hbm, ⟨7, _⟩ => ⟨S16x65x66x66, .f32⟩
  | .hbm, ⟨8, _⟩ => ⟨S16x65x64x64, .f32⟩
  | .hbm, ⟨9, _⟩ => ⟨S16x65x64x64, .f32⟩
  | .hbm, ⟨10, _⟩ => ⟨S16x65x64x64, .f32⟩
  | .hbm, ⟨11, _⟩ => ⟨S16x65x64x64, .f32⟩
  | .hbm, ⟨12, _⟩ => ⟨S16x65x64x64, .f32⟩
  | .hbm, ⟨13, _⟩ => ⟨S16x65x64x64, .f32⟩
  | .hbm, ⟨14, _⟩ => ⟨S16x65x64x64, .f32⟩
  | .hbm, ⟨15, _⟩ => ⟨S16x65x64x64, .f32⟩
  | .hbm, ⟨16, _⟩ => ⟨S16x65x64x64, .f32⟩
  | .hbm, ⟨17, _⟩ => ⟨S16x65x1x64x64, .f32⟩
  | .hbm, ⟨18, _⟩ => ⟨S16x65x1x64x64, .f32⟩
  | .hbm, ⟨19, _⟩ => ⟨S16x65x1x64x64, .f32⟩
  | .hbm, ⟨20, _⟩ => ⟨S16x65x1x64x64, .f32⟩
  | .hbm, ⟨21, _⟩ => ⟨S16x65x1x64x64, .f32⟩
  | .hbm, ⟨22, _⟩ => ⟨S16x65x1x64x64, .f32⟩
  | .hbm, ⟨23, _⟩ => ⟨S16x65x1x64x64, .f32⟩
  | .hbm, ⟨24, _⟩ => ⟨S16x65x1x64x64, .f32⟩
  | .hbm, ⟨25, _⟩ => ⟨S16x65x1x64x64, .f32⟩
  | .hbm, ⟨26, _⟩ => ⟨S16x65x9x64x64, .f32⟩
  | .hbm, ⟨27, _⟩ => ⟨S16x585x4096, .f32⟩
  | .hbm, ⟨28, _⟩ => ⟨S16x4096x585, .f32⟩
  | .hbm, ⟨29, _⟩ => ⟨S16x4096x9, .f32⟩
  | .hbm, ⟨30, _⟩ => ⟨S_, .f32⟩
  | .hbm, ⟨31, _⟩ => ⟨S_, .f32⟩
  | .hbm, ⟨32, _⟩ => ⟨S16x4096x9, .f32⟩
  | .hbm, ⟨33, _⟩ => ⟨S16x4096x9, .f32⟩
  | .hbm, ⟨34, _⟩ => ⟨S16x4096x9, .f32⟩
  | .hbm, ⟨35, _⟩ => ⟨S_, .f32⟩
  | .hbm, ⟨36, _⟩ => ⟨S16x4096, .f32⟩
  | .hbm, ⟨37, _⟩ => ⟨S16x4096x1, .f32⟩
  | .hbm, ⟨38, _⟩ => ⟨S_, .f32⟩
  | .hbm, ⟨39, _⟩ => ⟨S16x4096x1, .f32⟩
  | .hbm, ⟨40, _⟩ => ⟨S16x4096x1, .f32⟩
  | .hbm, ⟨41, _⟩ => ⟨S16x4096x1, .f32⟩
  | .hbm, ⟨42, _⟩ => ⟨S16x4096x576, .f32⟩
  | .hbm, ⟨43, _⟩ => ⟨S16x4096x64x9, .f32⟩
  | .hbm, ⟨44, _⟩ => ⟨S16x4096x9x64, .f32⟩
  | .hbm, ⟨45, _⟩ => ⟨S16x4096x576, .f32⟩
  | .hbm, ⟨46, _⟩ => ⟨S16x4096x577, .f32⟩
  | .hbm, ⟨47, _⟩ => ⟨S64x64x1x3x3, .f32⟩
  | .hbm, ⟨48, _⟩ => ⟨S64x64x1x3x3, .f32⟩
  | .hbm, ⟨49, _⟩ => ⟨S64x64x1x3x3, .f32⟩
  | .hbm, ⟨50, _⟩ => ⟨S64x64x1x3x3, .f32⟩
  | .hbm, ⟨51, _⟩ => ⟨S64x64x1x3x3, .f32⟩
  | .hbm, ⟨52, _⟩ => ⟨S64x64x1x3x3, .f32⟩
  | .hbm, ⟨53, _⟩ => ⟨S64x1x64x1x3x3, .f32⟩
  | .hbm, ⟨54, _⟩ => ⟨S64x1x64x1x3x3, .f32⟩
  | .hbm, ⟨55, _⟩ => ⟨S64x1x64x1x3x3, .f32⟩
  | .hbm, ⟨56, _⟩ => ⟨S64x1x64x1x3x3, .f32⟩
  | .hbm, ⟨57, _⟩ => ⟨S64x4x64x1x3x3, .f32⟩
  | .hbm, ⟨58, _⟩ => ⟨S64x4x64x1x9, .f32⟩
  | .hbm, ⟨59, _⟩ => ⟨S4x64x1x64x9, .f32⟩
  | .hbm, ⟨60, _⟩ => ⟨S4x64x1x576, .f32⟩
  | .hbm, ⟨61, _⟩ => ⟨S4x1x1x576, .f32⟩
  | .hbm, ⟨62, _⟩ => ⟨S1x1x1x576, .f32⟩
  | .hbm, ⟨63, _⟩ => ⟨S1x1x576, .f32⟩
  | .hbm, ⟨64, _⟩ => ⟨S1x1x576, .f32⟩
  | .hbm, ⟨65, _⟩ => ⟨S1x0x576, .f32⟩
  | .hbm, ⟨66, _⟩ => ⟨S1x1x576, .f32⟩
  | .hbm, ⟨67, _⟩ => ⟨S1x1x1x576, .f32⟩
  | .hbm, ⟨68, _⟩ => ⟨S1x1x576, .f32⟩
  | .hbm, ⟨69, _⟩ => ⟨S1x1x576, .f32⟩
  | .hbm, ⟨70, _⟩ => ⟨S1x0x576, .f32⟩
  | .hbm, ⟨71, _⟩ => ⟨S1x1x576, .f32⟩
  | .hbm, ⟨72, _⟩ => ⟨S1x1x1x576, .f32⟩
  | .hbm, ⟨73, _⟩ => ⟨S1x1x576, .f32⟩
  | .hbm, ⟨74, _⟩ => ⟨S1x1x576, .f32⟩
  | .hbm, ⟨75, _⟩ => ⟨S1x0x576, .f32⟩
  | .hbm, ⟨76, _⟩ => ⟨S1x1x576, .f32⟩
  | .hbm, ⟨77, _⟩ => ⟨S1x1x1x576, .f32⟩
  | .hbm, ⟨78, _⟩ => ⟨S1x1x576, .f32⟩
  | .hbm, ⟨79, _⟩ => ⟨S1x1x576, .f32⟩
  | .hbm, ⟨80, _⟩ => ⟨S1x0x576, .f32⟩
  | .hbm, ⟨81, _⟩ => ⟨S1x1x576, .f32⟩
  | .hbm, ⟨82, _⟩ => ⟨S1x1x1x576, .f32⟩
  | .hbm, ⟨83, _⟩ => ⟨S1x1x1x576, .f32⟩
  | .hbm, ⟨84, _⟩ => ⟨S1x1x1x576, .f32⟩
  | .hbm, ⟨85, _⟩ => ⟨S1x1x1x576, .f32⟩
  | .hbm, ⟨86, _⟩ => ⟨S4x1x1x576, .f32⟩
  | .hbm, ⟨87, _⟩ => ⟨S4x65x1x576, .f32⟩
  | .hbm, ⟨88, _⟩ => ⟨S4x65x576, .f32⟩
  | .hbm, ⟨89, _⟩ => ⟨S1x65x1, .f32⟩
  | .hbm, ⟨90, _⟩ => ⟨S4x65x1, .f32⟩
  | .hbm, ⟨91, _⟩ => ⟨S4x65x577, .f32⟩
  | .hbm, ⟨92, _⟩ => ⟨S4x65x16x4096, .f32⟩
  | .hbm, ⟨93, _⟩ => ⟨S4x16x4096x65, .f32⟩
  | .hbm, ⟨94, _⟩ => ⟨S4x16x4096x64, .f32⟩
  | .hbm, ⟨95, _⟩ => ⟨S4x16x4096x64, .f32⟩
  | .hbm, ⟨96, _⟩ => ⟨S_, .f32⟩
  | .hbm, ⟨97, _⟩ => ⟨S4x16x4096, .f32⟩
  | .hbm, ⟨98, _⟩ => ⟨S4x16x4096x1, .f32⟩
  | .hbm, ⟨99, _⟩ => ⟨S_, .f32⟩
  | .hbm, ⟨100, _⟩ => ⟨S4x16x4096x1, .f32⟩
  | .hbm, ⟨101, _⟩ => ⟨S4x16x4096x1, .f32⟩
  | .hbm, ⟨102, _⟩ => ⟨S4x16x4096x1, .f32⟩
  | .hbm, ⟨103, _⟩ => ⟨S4x16x4096x65, .f32⟩
  | .hbm, ⟨104, _⟩ => ⟨S16x4x4096x65, .f32⟩
  | .hbm, ⟨105, _⟩ => ⟨S16x4x64x64x65, .f32⟩
  | _, _ => ⟨S16x64x64x65, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call2_v0 : Ref sig .tc := ⟨.hbm, 47, rfl⟩
abbrev main_v39 : Ref sig .tc := ⟨.hbm, 48, rfl⟩
abbrev main_call3_v0 : Ref sig .tc := ⟨.hbm, 49, rfl⟩
abbrev main_v40 : Ref sig .tc := ⟨.hbm, 50, rfl⟩
abbrev main_call4_v0 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_call5_v0 : Ref sig .tc := ⟨.hbm, 64, rfl⟩
abbrev main_call5_v1 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call6_v0 : Ref sig .tc := ⟨.hbm, 69, rfl⟩
abbrev main_call6_v1 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_call7_v0 : Ref sig .tc := ⟨.hbm, 74, rfl⟩
abbrev main_call7_v1 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call8_v0 : Ref sig .tc := ⟨.hbm, 79, rfl⟩
abbrev main_call8_v1 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_2 : Ref sig .tc := ⟨.hbm, 96, rfl⟩
abbrev main_v77 : Ref sig .tc := ⟨.hbm, 97, rfl⟩
abbrev main_v78 : Ref sig .tc := ⟨.hbm, 98, rfl⟩
abbrev main_cst_3 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩

abbrev nD : Nat := 1
abbrev τ : Topo := Topo.v7x

variable {F : FTy → Type} [FloatOps F]

class Facts₀ : Prop where
  transposes_S16x64x64x65_S16x65x64x64_0_3_1_2 : S16x64x64x65.Transposes [0, 3, 1, 2] S16x65x64x64
  pads_S16x65x64x64_S16x65x66x66_000_000_110_110 : S16x65x64x64.Pads (![0, 0, 1, 1] : Fin 4 → Nat) ![0, 0, 1, 1] ![0, 0, 0, 0] S16x65x66x66
  h_S_ : 0 < S_.numel
  slices_S16x65x66x66_S16x65x64x64_0_0_0_0 : S16x65x66x66.Slices ![0, 0, 0, 0] S16x65x64x64
  slices_S16x65x66x66_S16x65x64x64_0_0_0_1 : S16x65x66x66.Slices ![0, 0, 0, 1] S16x65x64x64
  slices_S16x65x66x66_S16x65x64x64_0_0_0_2 : S16x65x66x66.Slices ![0, 0, 0, 2] S16x65x64x64
  slices_S16x65x66x66_S16x65x64x64_0_0_1_0 : S16x65x66x66.Slices ![0, 0, 1, 0] S16x65x64x64
  slices_S16x65x66x66_S16x65x64x64_0_0_1_1 : S16x65x66x66.Slices ![0, 0, 1, 1] S16x65x64x64
  slices_S16x65x66x66_S16x65x64x64_0_0_1_2 : S16x65x66x66.Slices ![0, 0, 1, 2] S16x65x64x64
  slices_S16x65x66x66_S16x65x64x64_0_0_2_0 : S16x65x66x66.Slices ![0, 0, 2, 0] S16x65x64x64
  slices_S16x65x66x66_S16x65x64x64_0_0_2_1 : S16x65x66x66.Slices ![0, 0, 2, 1] S16x65x64x64
  slices_S16x65x66x66_S16x65x64x64_0_0_2_2 : S16x65x66x66.Slices ![0, 0, 2, 2] S16x65x64x64
  bcast_S16x65x64x64_S16x65x1x64x64_0_1_3_4 : S16x65x64x64.BroadcastsInDim S16x65x1x64x64 (![0, 1, 3, 4] : Fin 4 → Fin S16x65x1x64x64.rank)
  concatenates_S16x65x1x64x64_S16x65x1x64x64_S16x65x1x64x64_S16x65x1x64x64_S16x65x1x64x64_S16x65x1x64x64_S16x65x1x64x64_S16x65x1x64x64_S16x65x1x64x64_S16x65x9x64x64_d2 : Shape.Concatenates [S16x65x1x64x64, S16x65x1x64x64, S16x65x1x64x64, S16x65x1x64x64, S16x65x1x64x64, S16x65x1x64x64, S16x65x1x64x64, S16x65x1x64x64, S16x65x1x64x64] S16x65x9x64x64 2
  shapeCasts_S16x65x9x64x64_S16x585x4096 : S16x65x9x64x64.ShapeCasts S16x585x4096
  transposes_S16x585x4096_S16x4096x585_0_2_1 : S16x585x4096.Transposes [0, 2, 1] S16x4096x585
  slices_S16x4096x585_S16x4096x9_0_0_0 : S16x4096x585.Slices ![0, 0, 0] S16x4096x9
  bcast_S_S16x4096x9 : S_.BroadcastsInDim S16x4096x9 (![] : Fin 0 → Fin S16x4096x9.rank)
  reducesTo_S16x4096x9_S16x4096_d2 : S16x4096x9.ReducesTo [2] S16x4096
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  slices_S16x4096x585_S16x4096x576_0_0_9 : S16x4096x585.Slices ![0, 0, 9] S16x4096x576
  shapeCasts_S16x4096x576_S16x4096x64x9 : S16x4096x576.ShapeCasts S16x4096x64x9
  transposes_S16x4096x64x9_S16x4096x9x64_0_1_3_2 : S16x4096x64x9.Transposes [0, 1, 3, 2] S16x4096x9x64
  shapeCasts_S16x4096x9x64_S16x4096x576 : S16x4096x9x64.ShapeCasts S16x4096x576
  concatenates_S16x4096x1_S16x4096x576_S16x4096x577_d2 : Shape.Concatenates [S16x4096x1, S16x4096x576] S16x4096x577 2
  transposes_S64x64x1x3x3_S64x64x1x3x3_0_1_2_4_3 : S64x64x1x3x3.Transposes [0, 1, 2, 4, 3] S64x64x1x3x3
  bcast_S64x64x1x3x3_S64x1x64x1x3x3_0_2_3_4_5 : S64x64x1x3x3.BroadcastsInDim S64x1x64x1x3x3 (![0, 2, 3, 4, 5] : Fin 5 → Fin S64x1x64x1x3x3.rank)
  concatenates_S64x1x64x1x3x3_S64x1x64x1x3x3_S64x1x64x1x3x3_S64x1x64x1x3x3_S64x4x64x1x3x3_d1 : Shape.Concatenates [S64x1x64x1x3x3, S64x1x64x1x3x3, S64x1x64x1x3x3, S64x1x64x1x3x3] S64x4x64x1x3x3 1
  shapeCasts_S64x4x64x1x3x3_S64x4x64x1x9 : S64x4x64x1x3x3.ShapeCasts S64x4x64x1x9
  transposes_S64x4x64x1x9_S4x64x1x64x9_1_0_3_2_4 : S64x4x64x1x9.Transposes [1, 0, 3, 2, 4] S4x64x1x64x9
  shapeCasts_S4x64x1x64x9_S4x64x1x576 : S4x64x1x64x9.ShapeCasts S4x64x1x576
  bcast_S1x1x1x576_S4x1x1x576_0_1_2_3 : S1x1x1x576.BroadcastsInDim S4x1x1x576 (![0, 1, 2, 3] : Fin 4 → Fin S4x1x1x576.rank)
  slices_S4x1x1x576_S1x1x1x576_0_0_0_0 : S4x1x1x576.Slices ![0, 0, 0, 0] S1x1x1x576
  shapeCasts_S1x1x1x576_S1x1x576 : S1x1x1x576.ShapeCasts S1x1x576
  slices_S1x1x576_S1x1x576_0_0_0 : S1x1x576.Slices ![0, 0, 0] S1x1x576
  slices_S1x1x576_S1x0x576_0_0_0 : S1x1x576.Slices ![0, 0, 0] S1x0x576
  concatenates_S1x1x576_S1x0x576_S1x1x576_d1 : Shape.Concatenates [S1x1x576, S1x0x576] S1x1x576 1
  slices_S4x1x1x576_S1x1x1x576_1_0_0_0 : S4x1x1x576.Slices ![1, 0, 0, 0] S1x1x1x576
  slices_S4x1x1x576_S1x1x1x576_2_0_0_0 : S4x1x1x576.Slices ![2, 0, 0, 0] S1x1x1x576
  slices_S4x1x1x576_S1x1x1x576_3_0_0_0 : S4x1x1x576.Slices ![3, 0, 0, 0] S1x1x1x576
  bcast_S1x1x576_S1x1x1x576_1_2_3 : S1x1x576.BroadcastsInDim S1x1x1x576 (![1, 2, 3] : Fin 3 → Fin S1x1x1x576.rank)
  concatenates_S1x1x1x576_S1x1x1x576_S1x1x1x576_S1x1x1x576_S4x1x1x576_d0 : Shape.Concatenates [S1x1x1x576, S1x1x1x576, S1x1x1x576, S1x1x1x576] S4x1x1x576 0
  concatenates_S4x1x1x576_S4x64x1x576_S4x65x1x576_d1 : Shape.Concatenates [S4x1x1x576, S4x64x1x576] S4x65x1x576 1
  shapeCasts_S4x65x1x576_S4x65x576 : S4x65x1x576.ShapeCasts S4x65x576
  bcast_S65x1_S1x65x1_1_2 : S65x1.BroadcastsInDim S1x65x1 (![1, 2] : Fin 2 → Fin S1x65x1.rank)
  bcast_S1x65x1_S4x65x1_0_1_2 : S1x65x1.BroadcastsInDim S4x65x1 (![0, 1, 2] : Fin 3 → Fin S4x65x1.rank)
  concatenates_S4x65x1_S4x65x576_S4x65x577_d2 : Shape.Concatenates [S4x65x1, S4x65x576] S4x65x577 2
  transposes_S4x65x16x4096_S4x16x4096x65_0_2_3_1 : S4x65x16x4096.Transposes [0, 2, 3, 1] S4x16x4096x65
  slices_S4x16x4096x65_S4x16x4096x64_0_0_0_1 : S4x16x4096x65.Slices ![0, 0, 0, 1] S4x16x4096x64
  reducesTo_S4x16x4096x64_S4x16x4096_d3 : S4x16x4096x64.ReducesTo [3] S4x16x4096
  bcast_S4x16x4096_S4x16x4096x1_0_1_2 : S4x16x4096.BroadcastsInDim S4x16x4096x1 (![0, 1, 2] : Fin 3 → Fin S4x16x4096x1.rank)
  bcast_S_S4x16x4096x1 : S_.BroadcastsInDim S4x16x4096x1 (![] : Fin 0 → Fin S4x16x4096x1.rank)
  concatenates_S4x16x4096x1_S4x16x4096x64_S4x16x4096x65_d3 : Shape.Concatenates [S4x16x4096x1, S4x16x4096x64] S4x16x4096x65 3
  transposes_S4x16x4096x65_S16x4x4096x65_1_0_2_3 : S4x16x4096x65.Transposes [1, 0, 2, 3] S16x4x4096x65
  shapeCasts_S16x4x4096x65_S16x4x64x64x65 : S16x4x4096x65.ShapeCasts S16x4x64x64x65
  dot_S4x65x577_S16x4096x577_S4x65x16x4096_2_2_01_01_n_n_wf : DotDims.WF S4x65x577 S16x4096x577 S4x65x16x4096 [2] [2] [0, 1] [0, 1] [] []

variable [Facts₀]

def dot_S4x65x577_S16x4096x577_S4x65x16x4096_2_2_01_01_n_n : DotDims S4x65x577 S16x4096x577 S4x65x16x4096 where
  lhsContracting := [2]
  rhsContracting := [2]
  lhsNonContracting := [0, 1]
  rhsNonContracting := [0, 1]
  lhsBatch := []
  rhsBatch := []
  wf := dot_S4x65x577_S16x4096x577_S4x65x16x4096_2_2_01_01_n_n_wf

class Facts : Prop extends Facts₀ where

variable [Facts]
-- ==== Proof.KHost.lean ====
/-
  The host side of the kernel program read at machine words, up to its one pipelined region.

  The program first runs 104 tensor operations (pads, slices, products, two concatenations of
  several operands, transposes, reshapes, roundings to bf16) and then enters the region. This file
  fixes the contents `V` every buffer has when the region is entered — the fold of those
  operations over the launch memory —, shows that the program up to the region is that fold,
  that none of the operations writes one of the four argument arrays, and reads a window's
  block at a grid point off `V`. It ends with the step from the region's final state to the
  claim that the four argument arrays end as they were launched.
-/
import proofs.«127918_j12824772346234_1_alg».proof.Proof.Gen.Kernel.Launch
import proofs.«127918_j12824772346234_1_alg».proof.Proof.Gen.Kernel.Skeleton
import proofs.«127918_j12824772346234_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The contents of core `c`'s buffers when the region is entered: the launch memory after the seven
    stretches of host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- No host operation leaves a buffer at undetermined contents: each writes its result from its operands. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program up to the region is the seven stretches of host operations followed by the region's entry, so
    the region finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option maxHeartbeats 40000000 in
/-- No host operation writes the first argument array: every operation writes its own result buffer, and none of
    those is an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))
set_option maxHeartbeats 40000000 in
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))
set_option maxHeartbeats 40000000 in
/-- Nor the third. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))
set_option maxHeartbeats 40000000 in
/-- Nor the fourth. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-! ## The windows' blocks -/

/-- Window `w`'s block at grid point `t`: the rectangle of its array the point's index map selects, read off the
    contents the region finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point — whether the point fetched it or an earlier one
    did and the index has not moved since —, for any proof data over the arrays of `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input (the whole weight matrix, fetched at the first point only) likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the region's final state to the argument arrays -/

/-- A run that ends with every buffer outside the pipeline's three arrays at what the region found leaves the four
    argument arrays as launched: none of them is an array of the pipeline, and none is written before the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The staging buffers the body is called with -/

/-- One staging buffer of the output window, through which its contents are stated (which one does not matter once the
    stores cover it). -/
abbrev VO0_2 : View sig .tc .vmem S1x4x64x64x65 .f32 := (Memref.whole cc0_stg2_0 : Memref sig .tc .vmem S1x4x64x64x65 .f32).view
/-- Each window's current staging buffer at point `t`, and that it is a whole buffer. -/
abbrev ms0_0 (t : Fin cfg0.N) : Memref sig .tc .vmem S1x4096x577 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S577x260 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x64x64x65 .f32 := win0_2.stage (cfg0.slots t 2)
abbrev hs0_2 (t : Fin cfg0.N) : (ms0_2 t).IsWhole := hstage0_2 ((cfg0.slots t 2).cast nbuf0_2)

end Cert.Kernel.Fr

end
-- ==== Proof.KRun.lean ====
/-
  The kernel body as a run on any three whole staging buffers.

  The body loads its two inputs whole, and for each of the four slabs of its output block loads the slab (the value is not
  used) and stores a payload over it. The statement below is the body's triple: from the two input buffers at their
  contents and the output buffer at any contents, it runs to a state with the inputs unchanged and the output buffer
  holding what it held overwritten by four pieces, one per slab. The pieces are not written out: they are whatever the
  symbolic run of the body produces, kept as the first component of a subtype.
-/
import proofs.«127918_j12824772346234_1_alg».proof.Proof.KHost

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's four stores leave in the output's staging buffer (last first), with the proof that on whole
    staging buffers — the inputs' at contents `x0`, `x1`, the output's at anything — the body runs to the
    continuation holding the inputs as they were and the output buffer with those pieces written. -/
noncomputable def kernelRun0_A (c : Dev nD) (i : grid0.Coords) (arg1 : Memref sig .tc .vmem S1x4096x577 .bf16) (harg1 : arg1.IsWhole) (arg2 : Memref sig .tc .vmem S577x260 .bf16) (harg2 : arg2.IsWhole) (arg3 : Memref sig .tc .vmem S1x4x64x64x65 .f32) (harg3 : arg3.IsWhole)
    (x0 : Vec F S1x4096x577 .bf16) (x1 : Vec F S577x260 .bf16) :
    { L2 : List (View.Piece (Elt F) S1x4x64x64x65 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__matmul_combine_kernel i arg1 harg1 arg2 harg2 arg3 harg3) K } := by
  refine ⟨?_, fun E K => ?run⟩
  case run =>
    simp only [cc0__matmul_combine_kernel_eq_skeleton]; unfold cc0__matmul_combine_kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Kernel.Fr

end
-- ==== Proof.KFrame.lean ====
/-
  The run of the kernel program read at machine words to the end of its region, and the frame claim.

  From the body's triple on whole staging buffers: the four pieces its stores leave tile the output block, so the
  output's staging buffer after the body is those pieces read back (whatever the buffer held before); this gives what
  the output holds after each grid point, the proof data of the pipeline (each input's buffer at its block, the
  output's at the pieces), the body's obligation at a generic point, and by the pipeline's run theorem the final
  state: every array of the pipeline at what the proof data computes, every other buffer as the region found it — in
  particular the four argument arrays as launched.
-/
import proofs.«127918_j12824772346234_1_alg».proof.Proof.KRun

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces tile the output block: four stores of one slab `[1,1,64,64,65]` each, at the four positions of the
    second axis of `[1,4,64,64,65]`; so every index of the block lies in one of them. -/
theorem cover0_A_2 (c : Dev nD) (i : grid0.Coords) (arg1 : Memref sig .tc .vmem S1x4096x577 .bf16) (harg1 : arg1.IsWhole) (arg2 : Memref sig .tc .vmem S577x260 .bf16) (harg2 : arg2.IsWhole) (arg3 : Memref sig .tc .vmem S1x4x64x64x65 .f32) (harg3 : arg3.IsWhole)
    (x0 : Vec F S1x4096x577 .bf16) (x1 : Vec F S577x260 .bf16) (y : S1x4x64x64x65.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x1x64x64x65.size (by sl_kernel_rfl) y

/-- What the run leaves in the output's staging buffer: its pieces read back over arbitrary contents. -/
def out0_A_2 (c : Dev nD) (i : grid0.Coords) (arg1 : Memref sig .tc .vmem S1x4096x577 .bf16) (harg1 : arg1.IsWhole) (arg2 : Memref sig .tc .vmem S577x260 .bf16) (harg2 : arg2.IsWhole) (arg3 : Memref sig .tc .vmem S1x4x64x64x65 .f32) (harg3 : arg3.IsWhole)
    (x0 : Vec F S1x4096x577 .bf16) (x1 : Vec F S577x260 .bf16) : Vec F S1x4x64x64x65 .f32 :=
  VO0_2.read (Elt F) (VO0_2.writes (Elt F) VO0_2.junk (kernelRun0_A c i arg1 harg1 arg2 harg2 arg3 harg3 x0 x1).1)

/-! ## What the output holds after each point -/

/-- The output's staging buffer after the body at point `t`: the run's contents at the point's buffers and input blocks. -/
def outsAt0 (c : Dev nD) (t : Fin cfg0.N) : Vec F S1x4x64x64x65 .f32 :=
  out0_A_2 c (grid0.coords t) (ms0_0 t) (hs0_0 t) (ms0_1 t) (hs0_1 t) (ms0_2 t) (hs0_2 t) (iblk m c 0 t) (iblk m c 1 t)

/-! ## The pipeline's proof data -/

/-- The proof data of the pipeline on core `c`: the arrays as the region finds them; after the body at point `t` each
    input's buffer at its block and the output's at `outsAt0`; the invariant is the rest of the core's scoped memory and
    its generator register, which the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

/-- The proof data's arrays are the contents the region finds (by projection, so that the fold `V` is never evaluated). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' buffers hold their blocks, so the body's triple applies; the invariant passes
    through unread; the core owes nothing throughout; the output buffer ends at the pieces read back, because they
    cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this statement, which takes unfolding
-- plain definitions in a metavariable's type
set_option backward.isDefEq.respectTransparency.types false in
/-- For any values, from any memory with zero counters: every weakly fair execution of the program on the TensorCores
    terminates, and every final state has every array of the pipeline at what the proof data computes and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance: the program terminates without fault and the four argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KIHost.lean ====
/-
  The host side of the idealized kernel program, up to its one pipelined region.

  The program first runs 104 tensor operations (pads, slices, products, two concatenations of
  several operands, transposes, reshapes, roundings to bf16) and then enters the region. This file
  fixes the contents `V` every buffer has when the region is entered — the fold of those
  operations over the launch memory —, shows that the program up to the region is that fold,
  that none of the operations writes one of the four argument arrays, and reads a window's
  block at a grid point off `V`. It ends with the step from the region's final state to the
  claim that the four argument arrays end as they were launched.
-/
import proofs.«127918_j12824772346234_1_alg».proof.Proof.Gen.KernelIdeal.Launch
import proofs.«127918_j12824772346234_1_alg».proof.Proof.Gen.KernelIdeal.Skeleton
import proofs.«127918_j12824772346234_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The contents of core `c`'s buffers when the region is entered: the launch memory after the seven
    stretches of host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

/-- No host operation leaves a buffer at undetermined contents: each writes its result from its operands. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 40000000 in
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

/-- The program up to the region is the seven stretches of host operations followed by the region's entry, so
    the region finds the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option maxHeartbeats 40000000 in
/-- No host operation writes the first argument array: every operation writes its own result buffer, and none of
    those is an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))
set_option maxHeartbeats 40000000 in
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))
set_option maxHeartbeats 40000000 in
/-- Nor the third. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))
set_option maxHeartbeats 40000000 in
/-- Nor the fourth. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil,
      List.append_nil, List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-! ## The windows' blocks -/

/-- Window `w`'s block at grid point `t`: the rectangle of its array the point's index map selects, read off the
    contents the region finds. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input's staging buffer holds its block at every point — whether the point fetched it or an earlier one
    did and the index has not moved since —, for any proof data over the arrays of `V` whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input (the whole weight matrix, fetched at the first point only) likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## From the region's final state to the argument arrays -/

/-- A run that ends with every buffer outside the pipeline's three arrays at what the region found leaves the four
    argument arrays as launched: none of them is an array of the pipeline, and none is written before the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The staging buffers the body is called with -/

/-- One staging buffer of the output window, through which its contents are stated (which one does not matter once the
    stores cover it). -/
abbrev VO0_2 : View sig .tc .vmem S1x4x64x64x65 .f32 := (Memref.whole cc0_stg2_0 : Memref sig .tc .vmem S1x4x64x64x65 .f32).view
/-- Each window's current staging buffer at point `t`, and that it is a whole buffer. -/
abbrev ms0_0 (t : Fin cfg0.N) : Memref sig .tc .vmem S1x4096x577 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S577x260 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x64x64x65 .f32 := win0_2.stage (cfg0.slots t 2)
abbrev hs0_2 (t : Fin cfg0.N) : (ms0_2 t).IsWhole := hstage0_2 ((cfg0.slots t 2).cast nbuf0_2)

end Cert.KernelIdeal.Fr

end
-- ==== Proof.KIRun.lean ====
/-
  The kernel body as a run on any three whole staging buffers.

  The body loads its two inputs whole, and for each of the four slabs of its output block loads the slab (the value is not
  used) and stores a payload over it. The statement below is the body's triple: from the two input buffers at their
  contents and the output buffer at any contents, it runs to a state with the inputs unchanged and the output buffer
  holding what it held overwritten by four pieces, one per slab. The pieces are not written out: they are whatever the
  symbolic run of the body produces, kept as the first component of a subtype.
-/
import proofs.«127918_j12824772346234_1_alg».proof.Proof.KIHost

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's four stores leave in the output's staging buffer (last first), with the proof that on whole
    staging buffers — the inputs' at contents `x0`, `x1`, the output's at anything — the body runs to the
    continuation holding the inputs as they were and the output buffer with those pieces written. -/
noncomputable def kernelRun0_A (c : Dev nD) (i : grid0.Coords) (arg1 : Memref sig .tc .vmem S1x4096x577 .bf16) (harg1 : arg1.IsWhole) (arg2 : Memref sig .tc .vmem S577x260 .bf16) (harg2 : arg2.IsWhole) (arg3 : Memref sig .tc .vmem S1x4x64x64x65 .f32) (harg3 : arg3.IsWhole)
    (x0 : Vec F S1x4096x577 .bf16) (x1 : Vec F S577x260 .bf16) :
    { L2 : List (View.Piece (Elt F) S1x4x64x64x65 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2)) -∗ K ⟨⟩))
          ⊢ wp frame (wpE (defs₀ (F := F)) Variants.none c none) E (cc0__matmul_combine_kernel i arg1 harg1 arg2 harg2 arg3 harg3) K } := by
  refine ⟨?_, fun E K => ?run⟩
  case run =>
    simp only [cc0__matmul_combine_kernel_eq_skeleton]; unfold cc0__matmul_combine_kernel_skel
    simp only [k0_part1_eq_skeleton]
    unfold owns
    iintro ⟨⟨%f0, %hf0, H0⟩, ⟨%f1, %hf1, H1⟩, ⟨%d2, %f2, -, H2⟩, Hk⟩
    obtain rfl := harg1.eq_unread hf0
    obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.KernelIdeal.Fr

end
-- ==== Proof.KIFrame.lean ====
/-
  The run of the idealized kernel program to the end of its region, and the frame claim.

  From the body's triple on whole staging buffers: the four pieces its stores leave tile the output block, so the
  output's staging buffer after the body is those pieces read back (whatever the buffer held before); this gives what
  the output holds after each grid point, the proof data of the pipeline (each input's buffer at its block, the
  output's at the pieces), the body's obligation at a generic point, and by the pipeline's run theorem the final
  state: every array of the pipeline at what the proof data computes, every other buffer as the region found it — in
  particular the four argument arrays as launched.
-/
import proofs.«127918_j12824772346234_1_alg».proof.Proof.KIRun

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run's pieces tile the output block: four stores of one slab `[1,1,64,64,65]` each, at the four positions of the
    second axis of `[1,4,64,64,65]`; so every index of the block lies in one of them. -/
theorem cover0_A_2 (c : Dev nD) (i : grid0.Coords) (arg1 : Memref sig .tc .vmem S1x4096x577 .bf16) (harg1 : arg1.IsWhole) (arg2 : Memref sig .tc .vmem S577x260 .bf16) (harg2 : arg2.IsWhole) (arg3 : Memref sig .tc .vmem S1x4x64x64x65 .f32) (harg3 : arg3.IsWhole)
    (x0 : Vec F S1x4096x577 .bf16) (x1 : Vec F S577x260 .bf16) (y : S1x4x64x64x65.Idx) :
    ∃ pc ∈ (kernelRun0_A c i arg1 harg1 arg2 harg2 arg3 harg3 x0 x1).1, y ∈ pc.1.set :=
  View.cover_of_tiledL (kernelRun0_A c i arg1 harg1 arg2 harg2 arg3 harg3 x0 x1).1 S1x1x64x64x65.size (by sl_kernel_rfl) y

/-- What the run leaves in the output's staging buffer: its pieces read back over arbitrary contents. -/
def out0_A_2 (c : Dev nD) (i : grid0.Coords) (arg1 : Memref sig .tc .vmem S1x4096x577 .bf16) (harg1 : arg1.IsWhole) (arg2 : Memref sig .tc .vmem S577x260 .bf16) (harg2 : arg2.IsWhole) (arg3 : Memref sig .tc .vmem S1x4x64x64x65 .f32) (harg3 : arg3.IsWhole)
    (x0 : Vec F S1x4096x577 .bf16) (x1 : Vec F S577x260 .bf16) : Vec F S1x4x64x64x65 .f32 :=
  VO0_2.read (Elt F) (VO0_2.writes (Elt F) VO0_2.junk (kernelRun0_A c i arg1 harg1 arg2 harg2 arg3 harg3 x0 x1).1)

/-! ## What the output holds after each point -/

/-- The output's staging buffer after the body at point `t`: the run's contents at the point's buffers and input blocks. -/
def outsAt0 (c : Dev nD) (t : Fin cfg0.N) : Vec F S1x4x64x64x65 .f32 :=
  out0_A_2 c (grid0.coords t) (ms0_0 t) (hs0_0 t) (ms0_1 t) (hs0_1 t) (ms0_2 t) (hs0_2 t) (iblk m c 0 t) (iblk m c 1 t)

/-! ## The pipeline's proof data -/

/-- The proof data of the pipeline on core `c`: the arrays as the region finds them; after the body at point `t` each
    input's buffer at its block and the output's at `outsAt0`; the invariant is the rest of the core's scoped memory and
    its generator register, which the body does not touch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t)
  Φ _ := Pipeline.ΦA spec0 c
  q _ := fullShare
  owed _ := 0

/-- The proof data's arrays are the contents the region finds (by projection, so that the fold `V` is never evaluated). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the inputs' buffers hold their blocks, so the body's triple applies; the invariant passes
    through unread; the core owes nothing throughout; the output buffer ends at the pieces read back, because they
    cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  unfold outsAt0
  unfold out0_A_2
  iintro ⟨HΦ, Ho, ⟨%d0, H0⟩, ⟨%d1, H1⟩, ⟨%d2, H2⟩⟩
  iapply ((kernelRun0_A c (grid0.coords t) _ _ _ _ _ _ (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this statement, which takes unfolding
-- plain definitions in a metavariable's type
set_option backward.isDefEq.respectTransparency.types false in
/-- For any values, from any memory with zero counters: every weakly fair execution of the program on the TensorCores
    terminates, and every final state has every array of the pipeline at what the proof data computes and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim at any float instance: the program terminates without fault and the four argument arrays end as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.Spec.lean ====
/-
  What both programs compute, index by index, on the extended reals.

  The input is a batch of 16 images of 64 x 64 pixels with 65 channels (channel 0 the time coordinate of a point of a
  hyperboloid, channels 1..64 its space coordinates).  Around every pixel the 3 x 3 window of the image padded with
  zeros is taken.  Row (b, l), l = 64 h + w, of the patch matrix P has 577 entries: entry 0 is the time coordinate of
  the patch, sqrt (sum over the nine positions of (max (time there) 1)^2 - 8); entry 1 + 64 k + c, for position
  k = 3 i + j and space channel c, is the padded image at (b, h + i, w + j, c + 1).
  The weight array W has an entry for every output group g (4 of them), output channel o (65) and patch entry d (577):
  for d = 0 the input-time weight of channel o; for d >= 1 and o = 0 the output-time weight of entry d - 1; for d >= 1
  and o >= 1 the transformed spatial filter of group g at (o - 1, d - 1).
  The result at (b, g, h, w, o) is, for o >= 1, the product sum_d P[(b, l), d] * W[g, o, d], and for o = 0 the time
  coordinate sqrt (1 + sum over the 64 space channels of the square of that product).
-/
import Idealize.ShloMosaic.PureOps.Ideal
import Idealize.ShloMosaic.Lib.ValueIdx

noncomputable section

namespace Cert.Spec

open Idealize.ShloMosaic Idealize.ShloMosaic.ValueIdx

/-- The shapes of the input image, the patch matrix, the weights, the spatial filters and the result. -/
abbrev SX : Shape := ⟨4, ![16, 64, 64, 65]⟩
abbrev SP : Shape := ⟨3, ![16, 4096, 577]⟩
abbrev SW : Shape := ⟨3, ![4, 65, 577]⟩
abbrev ST : Shape := ⟨4, ![4, 64, 1, 576]⟩
abbrev SA2 : Shape := ⟨4, ![1, 1, 1, 576]⟩
abbrev SA3 : Shape := ⟨2, ![65, 1]⟩
abbrev SO : Shape := ⟨5, ![16, 4, 64, 64, 65]⟩

/-- The float words 1.0 and 8.0, kept as words: both programs carry the same ones. -/
def one : EReal := Ideal.ofBits .f32 0x3F800000#32
def eight : EReal := Ideal.ofBits .f32 0x41000000#32

/-- The image padded with one ring of zeros, at row `r` and column `s` of the padded image (0 … 65). -/
def xpad (x : SX.Idx → EReal) (b : Fin 16) (r s : Nat) (ch : Fin 65) : EReal :=
  if h : (1 ≤ r ∧ r ≤ 64) ∧ (1 ≤ s ∧ s ≤ 64) then x (ix4 b ⟨r - 1, by omega⟩ ⟨s - 1, by omega⟩ ch) else 0

/-- The clamped time coordinate at window position `k` of the patch around pixel (h, w), squared. -/
def tsq (x : SX.Idx → EReal) (b : Fin 16) (h w : Nat) (k : Fin 9) : EReal :=
  max (xpad x b (h + k.val / 3) (w + k.val % 3) 0) one * max (xpad x b (h + k.val / 3) (w + k.val % 3) 0) one

/-- Entry `d` of row (b, l) of the patch matrix. -/
def PreAt (x : SX.Idx → EReal) (b : Fin 16) (l : Fin 4096) (d : Fin 577) : EReal :=
  if d.val = 0 then Ideal.sqrt ((∑ k : Fin 9, tsq x b (l.val / 64) (l.val % 64) k) - eight)
  else xpad x b (l.val / 64 + (d.val - 1) / 64 / 3) (l.val % 64 + (d.val - 1) / 64 % 3) ⟨(d.val - 1) % 64 + 1, by omega⟩

def PreArr (x : SX.Idx → EReal) : SP.Idx → EReal := fun j => PreAt x (j 0) (j 1) (j 2)

theorem PreArr_ix (x : SX.Idx → EReal) (b : Fin 16) (l : Fin 4096) (d : Fin 577) :
    PreArr x (ix3 b l d) = PreAt x b l d := rfl

/-- The weight of group `g`, output channel `o`, patch entry `d`, from the transformed spatial filters `tw`, the
    output-time weights `a2` and the input-time weights `a3`. -/
def WtAt (tw : ST.Idx → EReal) (a2 : SA2.Idx → EReal) (a3 : SA3.Idx → EReal) (g : Fin 4) (o : Fin 65) (d : Fin 577) : EReal :=
  if hd : d.val = 0 then a3 (ix2 o 0)
  else if ho : o.val = 0 then a2 (ix4 0 0 0 ⟨d.val - 1, by omega⟩)
  else tw (ix4 g ⟨o.val - 1, by omega⟩ 0 ⟨d.val - 1, by omega⟩)

def WtArr (tw : ST.Idx → EReal) (a2 : SA2.Idx → EReal) (a3 : SA3.Idx → EReal) : SW.Idx → EReal :=
  fun j => WtAt tw a2 a3 (j 0) (j 1) (j 2)

theorem WtArr_ix (tw : ST.Idx → EReal) (a2 : SA2.Idx → EReal) (a3 : SA3.Idx → EReal) (g : Fin 4) (o : Fin 65) (d : Fin 577) :
    WtArr tw a2 a3 (ix3 g o d) = WtAt tw a2 a3 g o d := rfl

/-- The product of row (b, l) of the patch matrix with the weights of (g, o). -/
def Oat (P : SP.Idx → EReal) (W : SW.Idx → EReal) (b : Fin 16) (l : Fin 4096) (g : Fin 4) (o : Fin 65) : EReal :=
  ∑ d : Fin 577, P (ix3 b l d) * W (ix3 g o d)

/-- The result at (b, g, h, w, o). -/
def OutAt (P : SP.Idx → EReal) (W : SW.Idx → EReal) (b : Fin 16) (g : Fin 4) (h w : Fin 64) (o : Fin 65) : EReal :=
  if o.val = 0 then
    Ideal.sqrt (one + ∑ c : Fin 64, Oat P W b ⟨h.val * 64 + w.val, by omega⟩ g ⟨c.val + 1, by omega⟩
                                  * Oat P W b ⟨h.val * 64 + w.val, by omega⟩ g ⟨c.val + 1, by omega⟩)
  else Oat P W b ⟨h.val * 64 + w.val, by omega⟩ g o

def OutArr (P : SP.Idx → EReal) (W : SW.Idx → EReal) : SO.Idx → EReal :=
  fun j => OutAt P W (j 0) (j 1) (j 2) (j 3) (j 4)

theorem OutArr_ix (P : SP.Idx → EReal) (W : SW.Idx → EReal) (b : Fin 16) (g : Fin 4) (h w : Fin 64) (o : Fin 65) :
    OutArr P W (ix5 b g h w o) = OutAt P W b g h w o := rfl

end Cert.Spec

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«127918_j12824772346234_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«127918_j12824772346234_1_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.KIPay.lean ====
/-
  The kernel body's arithmetic at one grid point, read entry by entry on the extended reals.

  The body holds one batch element's patch rows `x0` ([1, 4096, 577]) and the weight matrix `x1` ([577, 260], column
  65 g + o for output group g and channel o).  It forms the product `x0 · x1` ([4096, 260]) and, for each of the four
  groups, takes the group's 65 columns, replaces column 0 by sqrt (1 + the sum of the squares of columns 1..64), and
  lays the 4096 rows out as 64 x 64 pixels.  So the value stored for group g at pixel (h, w), channel o, is, with
  l = 64 h + w:  for o >= 1 the product entry (l, 65 g + o), and for o = 0 the square root of one plus the sum over
  c < 64 of the square of the product entry (l, 65 g + c + 1).
-/
import proofs.«127918_j12824772346234_1_alg».proof.Proof.Gen.KernelIdeal.Skeleton
import proofs.«127918_j12824772346234_1_alg».proof.Proof.Spec
import proofs.«127918_j12824772346234_1_alg».proof.Proof.LibDotCols
import proofs.«127918_j12824772346234_1_alg».proof.Proof.LibColumns
import proofs.«127918_j12824772346234_1_alg».proof.Proof.LibLaneRows
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- Row `l` of the patch block times column `q` of the weight matrix. -/
def prodAt (x0 : FVec Ideal S1x4096x577 .bf16) (x1 : FVec Ideal S577x260 .bf16) (l : Fin 4096) (q : Fin 260) : EReal :=
  ∑ k : Fin 577, x0 (ix3 0 l k) * x1 (ix2 k q)

theorem cons_ix2 (l : Fin 4096) (k : Fin 577) :
    (Fin.cons ⟨0, Nat.one_pos⟩ (ix2 l k) : (⟨3, ![1, 4096, 577]⟩ : Shape).Idx) = ix3 0 l k := by
  funext a
  match a with
  | ⟨0, _⟩ => rfl
  | ⟨1, _⟩ => rfl
  | ⟨2, _⟩ => rfl

/-- The matrix product of the body, at an entry. -/
theorem pay3_apply (x0 : FVec Ideal S1x4096x577 .bf16) (x1 : FVec Ideal S577x260 .bf16) (l : Fin 4096) (q : Fin 260) :
    k0_pay3 (F := Ideal) x0 x1 (ix2 l q) = prodAt x0 x1 l q := by
  unfold k0_pay3 prodAt
  refine (Cert.Lib.DotCols.matmul_cols_apply _ rfl none _ _ l q).trans ?_
  refine Finset.sum_congr rfl fun k _ => ?_
  rw [shapeCast_self]
  refine congrArg (· * x1 (ix2 k q)) ?_
  exact (shapeCast_dropUnit_apply ![4096, 577] x0 _ (ix2 l k)).trans (congrArg x0 (cons_ix2 l k))

/-- The sum of the squares of a row of a [4096, 64] array. -/
def rowsq (z : FVec Ideal S4096x64 .f32) (l : Fin 4096) : EReal := ∑ c : Fin 64, z (ix2 l c) * z (ix2 l c)

/-- What the body does with one group's 64 space columns `z`: the time column in front, rows laid out as pixels. -/
def comb (z : FVec Ideal S4096x64 .f32) : FVec Ideal S1x1x64x64x65 .f32 :=
  shapeCast S1x1x64x64x65 (shapeCast S64x64x65 (concatenate S4096x65 1
    [⟨S4096x1, sqrt (addf (broadcast S4096x1 (Scalar.ofBits .f32 0x3F800000#32))
        (shapeCast S4096x1 (multiReduction .add [1] S4096 (mulf z z) 0x00000000#32 reduces_S4096x64_S4096 (.inl rfl) rfl)
          shapeCasts_S4096_S4096x1))⟩, ⟨S4096x64, z⟩]
    concatenates_S4096x1_S4096x64_S4096x65_d1) shapeCasts_S4096x65_S64x64x65) shapeCasts_S64x64x65_S1x1x64x64x65

/-- The row number of pixel (h, w). -/
def rowOf (h w : Fin 64) : Fin 4096 := ⟨h.val * 64 + w.val, by omega⟩

theorem comb_time (z : FVec Ideal S4096x64 .f32) (l : Fin 4096) :
    sqrt (addf (broadcast S4096x1 (Scalar.ofBits (F := Ideal) .f32 0x3F800000#32))
        (shapeCast S4096x1 (multiReduction .add [1] S4096 (mulf z z) 0x00000000#32 reduces_S4096x64_S4096 (.inl rfl) rfl)
          shapeCasts_S4096_S4096x1)) (ix2 l (0 : Fin 1)) = Ideal.sqrt (Cert.Spec.one + rowsq z l) := by
  show Ideal.sqrt (_ + _) = _
  refine congrArg (fun t => Ideal.sqrt (Cert.Spec.one + t)) ?_
  refine (shapeCast_a_a1_apply _ _ l 0).trans ?_
  exact LaneRows.multiReduction_add_rows _ _ _ _ _ l

theorem comb_apply (z : FVec Ideal S4096x64 .f32) (h w : Fin 64) (o : Fin 65) :
    comb z (ix5 0 0 h w o) = if ho : o.val = 0 then Ideal.sqrt (Cert.Spec.one + rowsq z (rowOf h w))
      else z (ix2 (rowOf h w) ⟨o.val - 1, by omega⟩) := by
  unfold comb
  rw [shapeCast_apply _ _ (ix5 0 0 h w o) (ix3 h w o) (by
        rw [Shape.rowMajor_val_three, Shape.rowMajor_val_five]
        show (h.val * 64 + w.val) * 65 + o.val = ((((0 : Nat) * 1 + 0) * 64 + h.val) * 64 + w.val) * 65 + o.val
        omega),
    shapeCast_apply _ _ (ix3 h w o) (ix2 (rowOf h w) o) (by
        rw [Shape.rowMajor_val_two, Shape.rowMajor_val_three]
        show (h.val * 64 + w.val) * 65 + o.val = (h.val * 64 + w.val) * 65 + o.val
        rfl)]
  by_cases ho : o.val = 0
  · rw [dif_pos ho]
    refine (concatenate_pair_apply_left (t := S4096x65) (s₁ := S4096x1) (s₂ := S4096x64) (1 : Fin 2) _ _ _ (ix2 (rowOf h w) o) rfl (ix2 (rowOf h w) (0 : Fin 1)) (fun b => ?_)).trans (comb_time z _)
    match b with
    | ⟨0, _⟩ => rfl
    | ⟨1, _⟩ => exact ho.symm
  · rw [dif_neg ho]
    refine concatenate_pair_apply_right (t := S4096x65) (s₁ := S4096x1) (s₂ := S4096x64) (1 : Fin 2) _ _ _ (ix2 (rowOf h w) o) rfl rfl (ix2 (rowOf h w) ⟨o.val - 1, by omega⟩) (fun b hb => ?_) ?_
    · match b with
      | ⟨0, _⟩ => rfl
      | ⟨1, _⟩ => exact absurd rfl hb
    · show o.val - 1 + 1 = o.val
      omega

/-- Columns `n + 1 … n + 64` of the product, taken as the body takes them: 65 columns from `n`, then all but the first. -/
theorem cols_apply (v : FVec Ideal S4096x260 .f32) (n : Nat) (hn : n + 65 ≤ 260) (h1 : S4096x260.Slices ![0, n] S4096x65)
    (h2 : S4096x65.Slices ![0, 1] S4096x64) (l : Fin 4096) (c : Fin 64) :
    extractStridedSlice S4096x64 ![0, 1] (extractStridedSlice S4096x65 ![0, n] v h1) h2 (ix2 l c)
      = v (ix2 l ⟨n + c.val + 1, by omega⟩) := by
  rw [extractStridedSlice_apply ![0, 1] _ h2 (ix2 l c) (ix2 l ⟨c.val + 1, by omega⟩) (fun a => by
        match a with
        | ⟨0, _⟩ => show l.val = 0 + l.val; omega
        | ⟨1, _⟩ => show c.val + 1 = 1 + c.val; omega),
    extractStridedSlice_apply ![0, n] v h1 (ix2 l ⟨c.val + 1, by omega⟩) (ix2 l ⟨n + c.val + 1, by omega⟩) (fun a => by
        match a with
        | ⟨0, _⟩ => show l.val = 0 + l.val; omega
        | ⟨1, _⟩ => show n + c.val + 1 = n + (c.val + 1); omega)]

/-- The value stored for group `g` at pixel (h, w), channel `o`, from the patch block and the weight matrix. -/
def grpAt (x0 : FVec Ideal S1x4096x577 .bf16) (x1 : FVec Ideal S577x260 .bf16) (g : Fin 4) (h w : Fin 64) (o : Fin 65) : EReal :=
  if ho : o.val = 0 then
    Ideal.sqrt (Cert.Spec.one + ∑ c : Fin 64, prodAt x0 x1 (rowOf h w) ⟨g.val * 65 + c.val + 1, by omega⟩
                                           * prodAt x0 x1 (rowOf h w) ⟨g.val * 65 + c.val + 1, by omega⟩)
  else prodAt x0 x1 (rowOf h w) ⟨g.val * 65 + o.val, by omega⟩

/-- The common tail applied to the columns of group `g` of the product is the group's stored value. -/
theorem comb_cols (x0 : FVec Ideal S1x4096x577 .bf16) (x1 : FVec Ideal S577x260 .bf16) (g : Fin 4)
    (h1 : S4096x260.Slices ![0, g.val * 65] S4096x65) (h2 : S4096x65.Slices ![0, 1] S4096x64) (h w : Fin 64) (o : Fin 65) :
    comb (extractStridedSlice S4096x64 ![0, 1] (extractStridedSlice S4096x65 ![0, g.val * 65] (k0_pay3 (F := Ideal) x0 x1) h1) h2)
      (ix5 0 0 h w o) = grpAt x0 x1 g h w o := by
  rw [comb_apply]
  unfold grpAt
  by_cases ho : o.val = 0
  · rw [dif_pos ho, dif_pos ho]
    refine congrArg (fun t => Ideal.sqrt (Cert.Spec.one + t)) ?_
    unfold rowsq
    refine Finset.sum_congr rfl fun c _ => ?_
    rw [cols_apply _ _ (by omega), pay3_apply]
  · rw [dif_neg ho, dif_neg ho]
    rw [cols_apply _ _ (by omega), pay3_apply]
    refine congrArg (prodAt x0 x1 (rowOf h w)) (Fin.ext ?_)
    show g.val * 65 + (o.val - 1) + 1 = g.val * 65 + o.val
    omega

theorem pay4_apply (x0 : FVec Ideal S1x4096x577 .bf16) (x1 : FVec Ideal S577x260 .bf16) (h w : Fin 64) (o : Fin 65) :
    k0_pay4 (F := Ideal) x0 x1 (ix5 0 0 h w o) = grpAt x0 x1 0 h w o :=
  comb_cols x0 x1 0 slices_S4096x260_o0_0_S4096x65 slices_S4096x65_o0_1_S4096x64 h w o

theorem pay5_apply (x0 : FVec Ideal S1x4096x577 .bf16) (x1 : FVec Ideal S577x260 .bf16) (h w : Fin 64) (o : Fin 65) :
    k0_pay5 (F := Ideal) x0 x1 (ix5 0 0 h w o) = grpAt x0 x1 1 h w o :=
  comb_cols x0 x1 1 slices_S4096x260_o0_65_S4096x65 slices_S4096x65_o0_1_S4096x64 h w o

theorem pay1_apply (x0 : FVec Ideal S1x4096x577 .bf16) (x1 : FVec Ideal S577x260 .bf16) (h w : Fin 64) (o : Fin 65) :
    k0_pay1 (F := Ideal) (k0_pay6 x0 x1) (k0_pay7 x0 x1) (ix5 0 0 h w o) = grpAt x0 x1 2 h w o :=
  comb_cols x0 x1 2 slices_S4096x260_o0_130_S4096x65 slices_S4096x65_o0_1_S4096x64 h w o

theorem pay2_apply (x0 : FVec Ideal S1x4096x577 .bf16) (x1 : FVec Ideal S577x260 .bf16) (h w : Fin 64) (o : Fin 65) :
    k0_pay2 (F := Ideal) (k0_pay3 x0 x1) (ix5 0 0 h w o) = grpAt x0 x1 3 h w o :=
  comb_cols x0 x1 3 slices_S4096x260_o0_195_S4096x65 slices_S4096x65_o0_1_S4096x64 h w o

end Cert.KernelIdeal.Pay

end
-- ==== Proof.KIBlk.lean ====
/-
  What one grid point leaves in the result's staging buffer, as one function of the two input blocks.

  The body's four stores write the four slabs [0, g, :, :, :] of the [1, 4, 64, 64, 65] staging buffer; slab g receives
  the value computed for group g.  The slabs tile the buffer, so reading the buffer back after the stores gives, at
  (0, g, h, w, o), the group-g value at pixel (h, w), channel o — whatever the buffer held before.
-/
import proofs.«127918_j12824772346234_1_alg».proof.Proof.KIFrame
import proofs.«127918_j12824772346234_1_alg».proof.Proof.KIPay
import Idealize.ShloMosaic.Lib.Pipeline.Value
import Idealize.ShloMosaic.Lib.Tactic

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.ShloMosaic.Tactic

theorem hz2 : (![0, 0] : Fin 2 → Nat) = fun _ => 0 := funext fun a => by fin_cases a <;> rfl
theorem hz3 : (![0, 0, 0] : Fin 3 → Nat) = fun _ => 0 := funext fun a => by fin_cases a <;> rfl

/-- The staging buffer's contents after the body, from the patch block and the weight matrix. -/
def blkFun (x0 : Vec Ideal S1x4096x577 .bf16) (x1 : Vec Ideal S577x260 .bf16) : S1x4x64x64x65.Idx → EReal :=
  fun y => grpAt x0 x1 (y 1) (y 2) (y 3) (y 4)

theorem blkFun_ix (x0 : Vec Ideal S1x4096x577 .bf16) (x1 : Vec Ideal S577x260 .bf16) (g : Fin 4) (h w : Fin 64) (o : Fin 65) :
    blkFun x0 x1 (ix5 0 g h w o) = grpAt x0 x1 g h w o := rfl

/-- Entry (0, 0, h, w, o) of slab `n` is entry (0, n, h, w, o) of the buffer. -/
theorem slab_emb (n : Nat) (hn : n < 4) (inb : ∀ a, (![0, n, 0, 0, 0] : Fin 5 → Nat) a + (![1, 1, 64, 64, 65] : Fin 5 → Nat) a ≤ S1x4x64x64x65.size a)
    (h w : Fin 64) (o : Fin 65) :
    (Rect.unit (s := S1x4x64x64x65) ![0, n, 0, 0, 0] ![1, 1, 64, 64, 65] inb).emb (ix5 0 0 h w o) = ix5 0 ⟨n, hn⟩ h w o := by
  funext a
  apply Fin.ext
  match a with
  | ⟨0, _⟩ => show 0 + 1 * 0 = 0; rfl
  | ⟨1, _⟩ => show n + 1 * 0 = n; omega
  | ⟨2, _⟩ => show 0 + 1 * h.val = h.val; omega
  | ⟨3, _⟩ => show 0 + 1 * w.val = w.val; omega
  | ⟨4, _⟩ => show 0 + 1 * o.val = o.val; omega

/-- An index of a slab, by its coordinates. -/
theorem slab_idx (x : (⟨5, ![1, 1, 64, 64, 65]⟩ : Shape).Idx) : ∃ (h w : Fin 64) (o : Fin 65), x = ix5 0 0 h w o :=
  ⟨x 2, x 3, x 4, by
    funext a
    apply Fin.ext
    match a with
    | ⟨0, _⟩ => show (x 0).val = 0; have h : (x 0).val < 1 := (x 0).isLt; omega
    | ⟨1, _⟩ => show (x 1).val = 0; have h : (x 1).val < 1 := (x 1).isLt; omega
    | ⟨2, _⟩ => rfl
    | ⟨3, _⟩ => rfl
    | ⟨4, _⟩ => rfl⟩

set_option maxHeartbeats 1000000 in
/-- What the body leaves in the result's staging buffer. -/
theorem out_eq (c : Dev nD) (i : grid0.Coords) (a1 : Memref sig .tc .vmem S1x4096x577 .bf16) (h1 : a1.IsWhole)
    (a2 : Memref sig .tc .vmem S577x260 .bf16) (h2 : a2.IsWhole) (a3 : Memref sig .tc .vmem S1x4x64x64x65 .f32) (h3 : a3.IsWhole)
    (x0 : Vec Ideal S1x4096x577 .bf16) (x1 : Vec Ideal S577x260 .bf16) :
    out0_A_2 (F := Ideal) c i a1 h1 a2 h2 a3 h3 x0 x1 = blkFun x0 x1 := by
  unfold out0_A_2
  rw [View.read_writes_eq_canon _ _ _ (cover0_A_2 c i a1 h1 a2 h2 a3 h3 x0 x1)]
  funext y
  refine View.canon_apply_of_pieces (blkFun x0 x1) _ ?_ y (cover0_A_2 c i a1 h1 a2 h2 a3 h3 x0 x1 y)
  unfold kernelRun0_A
  dsimp only
  sl_unfold_words
  simp only [View.readAt_eq_ld, h1.read_unread, h2.read_unread, View.ld_unit_zero (S := S1x4096x577) hz3,
    View.ld_unit_zero (S := S577x260) hz2]
  intro p hp
  simp only [List.mem_cons, List.not_mem_nil, or_false] at hp
  rcases hp with rfl | rfl | rfl | rfl
  · intro x
    obtain ⟨h, w, o, rfl⟩ := slab_idx x
    rw [slab_emb 3 (by omega) inb_S1x4x64x64x65_S1x1x64x64x65_0_3_0_0_0 h w o]
    exact pay2_apply x0 x1 h w o
  · intro x
    obtain ⟨h, w, o, rfl⟩ := slab_idx x
    rw [slab_emb 2 (by omega) inb_S1x4x64x64x65_S1x1x64x64x65_0_2_0_0_0 h w o]
    exact pay1_apply x0 x1 h w o
  · intro x
    obtain ⟨h, w, o, rfl⟩ := slab_idx x
    rw [slab_emb 1 (by omega) inb_S1x4x64x64x65_S1x1x64x64x65_0_1_0_0_0 h w o]
    exact pay5_apply x0 x1 h w o
  · intro x
    obtain ⟨h, w, o, rfl⟩ := slab_idx x
    rw [slab_emb 0 (by omega) inb_S1x4x64x64x65_S1x1x64x64x65_0_0_0_0_0 h w o]
    exact pay4_apply x0 x1 h w o

end Cert.KernelIdeal.Val

end
-- ==== Proof.KIOut.lean ====
/-
  One grid point's stored values are the specification's result entries.

  If the patch block `x0` held by the body is row block `b` of a patch matrix `P`, and the weight matrix `x1` has
  in column 65 g + o, row k, the weight `W[g, o, k]`, then the product row l times column 65 g + o is the
  specification's `sum_d P[(b, l), d] * W[g, o, d]`, and so the value the body stores for group g at pixel (h, w),
  channel o, is the specification's result at (b, g, h, w, o).  Only the renaming of the summation index is used.
-/
import proofs.«127918_j12824772346234_1_alg».proof.Proof.KIPay

noncomputable section

open scoped BigOperators

namespace Cert.KernelIdeal.Pay

open Cert.KernelIdeal Cert.KernelIdeal.Gen Idealize.ShloMosaic Idealize.ShloMosaic.ValueIdx

variable (P : Cert.Spec.SP.Idx → EReal) (W : Cert.Spec.SW.Idx → EReal)
  (x0 : FVec Ideal S1x4096x577 .bf16) (x1 : FVec Ideal S577x260 .bf16) (b : Fin 16)
  (hx0 : ∀ (l : Fin 4096) (k : Fin 577), x0 (ix3 0 l k) = P (ix3 b l k))
  (hx1 : ∀ (k : Fin 577) (g : Fin 4) (o : Fin 65), x1 (ix2 k ⟨g.val * 65 + o.val, by omega⟩) = W (ix3 g o k))

include hx0 hx1 in
theorem prodAt_eq (l : Fin 4096) (g : Fin 4) (o : Fin 65) :
    prodAt x0 x1 l ⟨g.val * 65 + o.val, by omega⟩ = Cert.Spec.Oat P W b l g o := by
  unfold prodAt Cert.Spec.Oat
  exact Finset.sum_congr rfl fun k _ => by rw [hx0, hx1]

include hx0 hx1 in
theorem grpAt_eq (g : Fin 4) (h w : Fin 64) (o : Fin 65) :
    grpAt x0 x1 g h w o = Cert.Spec.OutAt P W b g h w o := by
  unfold grpAt Cert.Spec.OutAt
  by_cases ho : o.val = 0
  · rw [dif_pos ho, if_pos ho]
    refine congrArg (fun t => Ideal.sqrt (Cert.Spec.one + t)) (Finset.sum_congr rfl fun c _ => ?_)
    have e : (⟨g.val * 65 + c.val + 1, by omega⟩ : Fin 260)
        = ⟨g.val * 65 + (⟨c.val + 1, by omega⟩ : Fin 65).val, by omega⟩ := Fin.ext (by show g.val * 65 + c.val + 1 = g.val * 65 + (c.val + 1); omega)
    rw [e, prodAt_eq P W x0 x1 b hx0 hx1 (rowOf h w) g ⟨c.val + 1, by omega⟩]
    rfl
  · rw [dif_neg ho, if_neg ho]
    exact prodAt_eq P W x0 x1 b hx0 hx1 (rowOf h w) g o

end Cert.KernelIdeal.Pay

end
-- ==== Proof.KIKeeps.lean ====
/-
  Which stretches of the host program leave which arrays alone.

  Before the kernel is launched the host program first builds the patch matrix from the image (the stretch `opsPre`)
  and then the weight matrix from the three weight arrays (the stretch `opsWt`).  Every host operation writes its own
  result array and nothing else, so the second stretch does not touch the patch matrix, and the first does not touch the
  weight arrays; running the whole prefix is running the first stretch and then the second.
-/
import proofs.«127918_j12824772346234_1_alg».proof.Proof.Gen.KernelIdeal.Launch
import Idealize.ShloMosaic.Lib.StableHlo.Run

noncomputable section

namespace Cert.KernelIdeal.Keeps

open Cert.KernelIdeal Cert.KernelIdeal.Gen Idealize.ShloMosaic Idealize.ShloMosaic.TcCoe Idealize.ShloMosaic.StableHlo

variable {F : FTy → Type} [FloatOps F]

/-- Running two lists one after the other. -/
theorem after_append (l1 l2 : List (HloOp τ sig (Elt F))) (W : Valuation τ sig (Elt F)) :
    after (l1 ++ l2) W = after l2 (after l1 W) := by
  induction l1 generalizing W with
  | nil => rfl
  | cons op l ih => simp only [List.cons_append, after_cons, ih]

/-- The operations that build the patch matrix, and those that build the weight matrix. -/
abbrev opsPre : List (HloOp τ sig (Elt F)) := hostOps0 ++ hostOps0_1 ++ hostOps0_2
abbrev opsWt : List (HloOp τ sig (Elt F)) := hostOps0_3 ++ hostOps0_4 ++ hostOps0_5 ++ hostOps0_6

/-- The whole host prefix is the first stretch followed by the second. -/
theorem after_all (W : Valuation τ sig (Elt F)) :
    after (List.flatten [hostOps0, hostOps0_1, hostOps0_2, hostOps0_3, hostOps0_4, hostOps0_5, hostOps0_6]) W
      = after opsWt (after opsPre W) := by
  rw [← after_append]
  refine congrArg (fun l => after l W) ?_
  simp only [opsPre, opsWt, List.flatten_cons, List.flatten_nil, List.append_nil, List.append_assoc]

set_option maxHeartbeats 40000000 in
/-- The weight stretch does not write the patch matrix. -/
theorem wt_keeps_v71 (W : Valuation τ sig (Elt F)) : after (opsWt (F := F)) W main_v71 = W main_v71 :=
  after_of_forall_not_mem (b := Proc.devRef .tc main_v71) _ _ (List.forall_iff_forall_mem.mp (by
    simp only [opsWt, hostOps0_3, hostOps0_4, hostOps0_5, hostOps0_6, List.append_nil, List.cons_append, List.nil_append,
      List.Forall, nullary_writes, unary_writes, binary_writes, reshape_writes, nary_writes, Finset.mem_singleton]
    repeat' apply And.intro
    all_goals exact devRef_ne_of_ne (by decide)))

set_option maxHeartbeats 40000000 in
/-- The patch stretch does not write the spatial filters. -/
theorem pre_keeps_arg1 (W : Valuation τ sig (Elt F)) : after (opsPre (F := F)) W main_arg1 = W main_arg1 :=
  after_of_forall_not_mem (b := Proc.devRef .tc main_arg1) _ _ (List.forall_iff_forall_mem.mp (by
    simp only [opsPre, hostOps0, hostOps0_1, hostOps0_2, List.append_nil, List.cons_append, List.nil_append,
      List.Forall, nullary_writes, unary_writes, binary_writes, reshape_writes, nary_writes, Finset.mem_singleton]
    repeat' apply And.intro
    all_goals exact devRef_ne_of_ne (by decide)))

set_option maxHeartbeats 40000000 in
/-- Nor the output-time weights. -/
theorem pre_keeps_arg2 (W : Valuation τ sig (Elt F)) : after (opsPre (F := F)) W main_arg2 = W main_arg2 :=
  after_of_forall_not_mem (b := Proc.devRef .tc main_arg2) _ _ (List.forall_iff_forall_mem.mp (by
    simp only [opsPre, hostOps0, hostOps0_1, hostOps0_2, List.append_nil, List.cons_append, List.nil_append,
      List.Forall, nullary_writes, unary_writes, binary_writes, reshape_writes, nary_writes, Finset.mem_singleton]
    repeat' apply And.intro
    all_goals exact devRef_ne_of_ne (by decide)))

set_option maxHeartbeats 40000000 in
/-- Nor the input-time weights. -/
theorem pre_keeps_arg3 (W : Valuation τ sig (Elt F)) : after (opsPre (F := F)) W main_arg3 = W main_arg3 :=
  after_of_forall_not_mem (b := Proc.devRef .tc main_arg3) _ _ (List.forall_iff_forall_mem.mp (by
    simp only [opsPre, hostOps0, hostOps0_1, hostOps0_2, List.append_nil, List.cons_append, List.nil_append,
      List.Forall, nullary_writes, unary_writes, binary_writes, reshape_writes, nary_writes, Finset.mem_singleton]
    repeat' apply And.intro
    all_goals exact devRef_ne_of_ne (by decide)))

end Cert.KernelIdeal.Keeps

end
-- ==== Proof.KIFinal.lean ====
/-
  From the grid points' blocks to the whole result array.

  Grid point t works on batch element t: its patch block is rows (t, :) of the patch matrix, the weight matrix is the
  same at every point, and what it writes back is block (t, :, :, :, :) of the result.  With the host prefix read as
  the specification's patch matrix and weights (the two hypotheses below: the array handed to window 0 is the patch
  matrix, the array handed to window 1 holds W[g, o, d] at (d, 65 g + o)), every written block is the block of the
  specification's result, and the sixteen blocks cover the array.  So the kernel program ends with the result array at
  the specification's result and its argument arrays as they were.
-/
import proofs.«127918_j12824772346234_1_alg».proof.Proof.KIBlk
import proofs.«127918_j12824772346234_1_alg».proof.Proof.KIOut
import proofs.«127918_j12824772346234_1_alg».proof.Proof.KIKeeps

noncomputable section

namespace Cert.KernelIdeal.Val

open Cert.KernelIdeal Cert.KernelIdeal.Gen Cert.KernelIdeal.Fr Cert.KernelIdeal.Pay
open Idealize.ShloMosaic Idealize.ShloMosaic.TcCoe Idealize.ShloMosaic.ValueIdx Idealize.SL.Sem
open Idealize.ShloMosaic.Pipeline (Dat)
open Idealize.ShloMosaic.StableHlo (after)

variable (tw : (S64x64x1x3x3.Idx → EReal) → Cert.Spec.ST.Idx → EReal)
variable (hpre : ∀ W : Valuation τ sig (Elt Ideal),
    after (Keeps.opsPre (F := Ideal)) W main_v71 = Cert.Spec.PreArr (W main_arg0))
variable (hwt : ∀ (W : Valuation τ sig (Elt Ideal)) (d : Fin 577) (g : Fin 4) (o : Fin 65),
    after (Keeps.opsWt (F := Ideal)) W main_v92 (ix2 d ⟨g.val * 65 + o.val, by omega⟩)
      = Cert.Spec.WtAt (tw (W main_arg1)) (W main_arg2) (W main_arg3) g o d)
variable (m : (ℓ : Loc nD τ sig) → Buf (Elt Ideal) ℓ) (ρ : Dev nD → PrngReg)

/-- The specification's patch matrix, weights and result of the launch contents of the four argument arrays. -/
def P (c : Dev nD) : Cert.Spec.SP.Idx → EReal := Cert.Spec.PreArr (m ((c : Thread nD τ).loc main_arg0))
def Wt (c : Dev nD) : Cert.Spec.SW.Idx → EReal :=
  Cert.Spec.WtArr (tw (m ((c : Thread nD τ).loc main_arg1))) (m ((c : Thread nD τ).loc main_arg2)) (m ((c : Thread nD τ).loc main_arg3))
def G (c : Dev nD) : Buf (Elt Ideal) ((c : Thread nD τ).loc main_v93) := Cert.Spec.OutArr (P m c) (Wt tw m c)

include hpre in
/-- The array window 0 stages is the patch matrix. -/
theorem V_v71 (c : Dev nD) : V m c main_v71 = P m c :=
  (congrFun (Keeps.after_all (F := Ideal) (fun b => m (c, b))) (Proc.devRef .tc main_v71)).trans
    ((Keeps.wt_keeps_v71 _).trans (hpre _))

include hwt in
/-- The array window 1 stages holds the weight of (g, o, d) at (d, 65 g + o). -/
theorem V_v92 (c : Dev nD) (d : Fin 577) (g : Fin 4) (o : Fin 65) :
    V m c main_v92 (ix2 d ⟨g.val * 65 + o.val, by omega⟩) = Wt tw m c (ix3 g o d) := by
  have h1 : V m c main_v92 = after (Keeps.opsWt (F := Ideal)) (after Keeps.opsPre (fun b => m (c, b))) main_v92 :=
    congrFun (Keeps.after_all (F := Ideal) (fun b => m (c, b))) (Proc.devRef .tc main_v92)
  rw [h1, hwt, Keeps.pre_keeps_arg1, Keeps.pre_keeps_arg2, Keeps.pre_keeps_arg3]
  rfl

/-- The windows' printed index maps over the sixteen grid points: window 0 and the result window move along axis 0
    with the point, everything else stays at block 0. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 5) = t.val ∧ win0_2.index t (1 : Fin 5) = 0 ∧ win0_2.index t (2 : Fin 5) = 0
    ∧ win0_2.index t (3 : Fin 5) = 0 ∧ win0_2.index t (4 : Fin 5) = 0 :=
  (by decide +kernel : ∀ t : Fin grid0.N, _)

/-- The batch element of a grid point. -/
def bOf (t : Fin cfg0.N) : Fin 16 := ⟨t.val, by have h := t.isLt; have hN : cfg0.N = 16 := N_0; omega⟩

include hpre in
/-- The patch block at point t is rows (t, :) of the patch matrix. -/
theorem iblk0_apply (c : Dev nD) (t : Fin cfg0.N) (l : Fin 4096) (k : Fin 577) :
    (iblk m c 0 t : Vec Ideal S1x4096x577 .bf16) (ix3 0 l k) = P m c (ix3 (bOf t) l k) := by
  unfold iblk
  rw [View.read_apply]
  refine cast_eq_iff_heq.mpr (heq_of_eq ?_)
  refine (congrFun (V_v71 hpre m c) _).trans (congrArg (P m c) ?_)
  obtain ⟨e0, e1, e2, -⟩ := idx_facts t
  funext a
  apply Fin.ext
  match a with
  | ⟨0, _⟩ => show win0_0.index t (0 : Fin 3) * 1 + 1 * 0 = t.val; omega
  | ⟨1, _⟩ => show win0_0.index t (1 : Fin 3) * 4096 + 1 * l.val = l.val; omega
  | ⟨2, _⟩ => show win0_0.index t (2 : Fin 3) * 577 + 1 * k.val = k.val; omega

include hwt in
/-- The weight block at every point is the whole weight matrix. -/
theorem iblk1_apply (c : Dev nD) (t : Fin cfg0.N) (k : Fin 577) (g : Fin 4) (o : Fin 65) :
    (iblk m c 1 t : Vec Ideal S577x260 .bf16) (ix2 k ⟨g.val * 65 + o.val, by omega⟩) = Wt tw m c (ix3 g o k) := by
  unfold iblk
  rw [View.read_apply]
  refine cast_eq_iff_heq.mpr (heq_of_eq ?_)
  refine Eq.trans (congrArg (V m c main_v92) ?_) (V_v92 tw hwt m c k g o)
  obtain ⟨-, -, -, e3, e4, -⟩ := idx_facts t
  funext a
  apply Fin.ext
  match a with
  | ⟨0, _⟩ => show win0_1.index t (0 : Fin 2) * 577 + 1 * k.val = k.val; omega
  | ⟨1, _⟩ => show win0_1.index t (1 : Fin 2) * 260 + 1 * (g.val * 65 + o.val) = g.val * 65 + o.val; omega

include hpre hwt in
/-- What point t writes back is block t of the specification's result. -/
theorem flushed_eq (c : Dev nD) (t : Fin cfg0.N) :
    (dats m 0 c).flushed 2 t = ((cfg0.win 2).blk t).view.read (Elt Ideal) (G tw m c) := by
  show (cfg0.win 2).cut (grid0.coords t) ((dats m 0 c).after 2 t) = _
  rw [after0_2]
  unfold outsAt0
  rw [out_eq]
  funext y
  obtain ⟨u, g, h, w, o, rfl⟩ : ∃ (u : Fin 1) (g : Fin 4) (h w : Fin 64) (o : Fin 65), y = ix5 u g h w o :=
    ⟨y 0, y 1, y 2, y 3, y 4, eq_ix5 y⟩
  obtain rfl : u = 0 := Subsingleton.elim _ _
  show blkFun (iblk m c 0 t) (iblk m c 1 t) (ix5 0 g h w o) = G tw m c (((cfg0.win 2).blk t).view.emb (ix5 0 g h w o))
  rw [blkFun_ix, grpAt_eq (P m c) (Wt tw m c) (iblk m c 0 t) (iblk m c 1 t) (bOf t) (iblk0_apply hpre m c t) (iblk1_apply tw hwt m c t)]
  have hemb : ((cfg0.win 2).blk t).view.emb (ix5 0 g h w o) = ix5 (bOf t) g h w o := by
    obtain ⟨-, -, -, -, -, e5, e6, e7, e8, e9⟩ := idx_facts t
    funext a
    apply Fin.ext
    match a with
    | ⟨0, _⟩ => show win0_2.index t (0 : Fin 5) * 1 + 1 * 0 = t.val; omega
    | ⟨1, _⟩ => show win0_2.index t (1 : Fin 5) * 4 + 1 * g.val = g.val; omega
    | ⟨2, _⟩ => show win0_2.index t (2 : Fin 5) * 64 + 1 * h.val = h.val; omega
    | ⟨3, _⟩ => show win0_2.index t (3 : Fin 5) * 64 + 1 * w.val = w.val; omega
    | ⟨4, _⟩ => show win0_2.index t (4 : Fin 5) * 65 + 1 * o.val = o.val; omega
  rw [hemb]
  rfl

/-- An index of the result array is in point t's block iff each coordinate is in the block's range on its axis. -/
theorem mem_blk (t : Fin cfg0.N) (i : S16x4x64x64x65.Idx) :
    i ∈ ((cfg0.win 2).blk t).view.set ↔ ∀ a : Fin 5, win0_2.index t a * S1x4x64x64x65.size a ≤ (i a).val
      ∧ (i a).val < win0_2.index t a * S1x4x64x64x65.size a + S1x4x64x64x65.size a := by
  show i ∈ ((View.whole main_v93).slice (win0_2.rect t)).set ↔ _
  rw [View.set_slice_whole, Rect.mem_set_unit]
  exact Iff.rfl

/-- Every index of the result array is in the block of the point of its batch coordinate. -/
theorem cover (i : S16x4x64x64x65.Idx) : ∃ t : Fin cfg0.N, (cfg0.win 2).flush t = true ∧ i ∈ ((cfg0.win 2).blk t).view.set := by
  have h0 : (i 0).val < 16 := (i 0).isLt
  have h1 : (i 1).val < 4 := (i 1).isLt
  have h2 : (i 2).val < 64 := (i 2).isLt
  have h3 : (i 3).val < 64 := (i 3).isLt
  have h4 : (i 4).val < 65 := (i 4).isLt
  have hlt : (i 0).val < cfg0.N := by rw [show cfg0.N = 16 from N_0]; exact h0
  refine ⟨⟨(i 0).val, hlt⟩, flush0_2 _, ?_⟩
  rw [mem_blk]
  obtain ⟨-, -, -, -, -, e5, e6, e7, e8, e9⟩ := idx_facts ⟨(i 0).val, hlt⟩
  have e5' : win0_2.index ⟨(i 0).val, hlt⟩ (0 : Fin 5) = (i 0).val := e5
  intro a
  match a with
  | ⟨0, _⟩ => show win0_2.index _ (0 : Fin 5) * 1 ≤ (i 0).val ∧ (i 0).val < win0_2.index _ (0 : Fin 5) * 1 + 1; rw [e5']; omega
  | ⟨1, _⟩ => show win0_2.index _ (1 : Fin 5) * 4 ≤ (i 1).val ∧ (i 1).val < win0_2.index _ (1 : Fin 5) * 4 + 4; rw [e6]; omega
  | ⟨2, _⟩ => show win0_2.index _ (2 : Fin 5) * 64 ≤ (i 2).val ∧ (i 2).val < win0_2.index _ (2 : Fin 5) * 64 + 64; rw [e7]; omega
  | ⟨3, _⟩ => show win0_2.index _ (3 : Fin 5) * 64 ≤ (i 3).val ∧ (i 3).val < win0_2.index _ (3 : Fin 5) * 64 + 64; rw [e8]; omega
  | ⟨4, _⟩ => show win0_2.index _ (4 : Fin 5) * 65 ≤ (i 4).val ∧ (i 4).val < win0_2.index _ (4 : Fin 5) * 65 + 65; rw [e9]; omega

include hpre hwt in
/-- The result array after the run. -/
theorem final (c : Dev nD) : (dats m 0 c).arrAt 2 cfg0.N = G tw m c :=
  (dats m 0 c).arrAt_eq_of_cover 2 (G tw m c) (fun t _ => flushed_eq tw hpre hwt m c t) cover

include hpre hwt in
/-- The kernel program's run: the result array at the specification's result, the argument arrays unchanged. -/
theorem run : θ_run defs (onTc (τ := τ) (main (F := Ideal))) ⟨m, fun _ => 0, ρ⟩ fun r => ∀ c : Dev nD,
      r.2.mem ((c.tc : Thread nD τ).loc main_v93) = G tw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 2).trans (final tw hpre hwt m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Val

end
-- ==== Proof.KIPreL.lean ====
/-
  The 82 host operations that make the patch matrix, cut in two: the first 78 compute the time column and the nine
  blocks of space channels from the padded image; the last four put them side by side, round and reshape.
-/
import proofs.«127918_j12824772346234_1_alg».proof.Proof.Gen.KernelIdeal.Launch
import Idealize.ShloMosaic.Lib.StableHlo.Run
import Idealize.ShloMosaic.PureOps.Ideal

set_option maxRecDepth 16384

noncomputable section

namespace Cert.KernelIdeal.PreK

open Cert.KernelIdeal Cert.KernelIdeal.Gen Idealize.ShloMosaic Idealize.ShloMosaic.TcCoe Idealize.ShloMosaic.StableHlo

/-- Folding a concatenation of two lists of operations is folding the first, then the second. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The first 78 operations: everything up to the time column and the nine blocks of space channels. -/
abbrev opsHead : List (HloOp τ sig (Elt Ideal)) := (hostOps0_2 (F := Ideal)).take 78

/-- The last four operations: the two concatenations, the rounding and the reshape. -/
abbrev opsTail : List (HloOp τ sig (Elt Ideal)) := (hostOps0_2 (F := Ideal)).drop 78

theorem hostOps0_2_cut : (hostOps0_2 (F := Ideal)) = opsHead ++ opsTail := (List.take_append_drop 78 _).symm

/-- Reads one buffer after the first 78 operations: unfolds the list, then rewrites every operation's result. -/
macro "head_value" : tactic =>
  `(tactic| (simp only [opsHead, hostOps0_2, List.take_succ_cons, List.take_zero]
             after_results_simp
             rfl))

end Cert.KernelIdeal.PreK

end
-- ==== Proof.KIPre0.lean ====
/-
  The pure functions the patch-matrix part of the host program is made of, named.

  From the padded image P (16 x 66 x 66 x 65) the program takes, for each of the nine window positions (i, j),
  the 64 x 64 window of P starting at row i and column j; of each window it takes the time channel (channel 0),
  clamps it below by one, squares it and adds it to a running sum that starts at zero, and it takes the 64
  space channels.  The time column of the result is sqrt (sum - 8); the nine blocks of space channels follow
  it along the channel axis, and the 64 x 64 pixels are then laid out as 4096 rows.
-/
import proofs.«127918_j12824772346234_1_alg».proof.Proof.Gen.KernelIdeal
import Idealize.ShloMosaic.PureOps.Ideal
import Idealize.ShloMosaic.Lib.ValueIdx

noncomputable section

namespace Cert.KernelIdeal.PreK

open Cert.KernelIdeal Cert.KernelIdeal.Gen Idealize.ShloMosaic

/-- The 64 x 64 window of the padded image that starts at row `i` and column `j`. -/
def win (i j : Nat) (h : S16x66x66x65.Slices ![0, i, j, 0] S16x64x64x65) (P : FVec Ideal S16x66x66x65 .f32) :
    FVec Ideal S16x64x64x65 .f32 :=
  extractStridedSlice S16x64x64x65 ![0, i, j, 0] P h

/-- The time channel of a window. -/
def tcol (Q : FVec Ideal S16x64x64x65 .f32) : FVec Ideal S16x64x64x1 .f32 :=
  extractStridedSlice S16x64x64x1 ![0, 0, 0, 0] Q slices_S16x64x64x65_S16x64x64x1_0_0_0_0

/-- The 64 space channels of a window. -/
def chs (Q : FVec Ideal S16x64x64x65 .f32) : FVec Ideal S16x64x64x64 .f32 :=
  extractStridedSlice S16x64x64x64 ![0, 0, 0, 1] Q slices_S16x64x64x65_S16x64x64x64_0_0_0_1

/-- The float with the bits `w` at every pixel. -/
def splat (w : BitVec 32) : FVec Ideal S16x64x64x1 .f32 :=
  broadcastInDim S16x64x64x1 ![] bcast_S_S16x64x64x1 (constant (F := Ideal) S_ .f32 w)

/-- The running sum after one more window: the window's time channel, clamped below by one and squared, added. -/
def acc (S : FVec Ideal S16x64x64x1 .f32) (Q : FVec Ideal S16x64x64x65 .f32) : FVec Ideal S16x64x64x1 .f32 :=
  addf S (mulf (maximumf (tcol Q) (splat 0x3F800000#32)) (maximumf (tcol Q) (splat 0x3F800000#32)))

/-- The time column of the patch matrix: sqrt (sum over the nine windows - 8). -/
def tpatch (P : FVec Ideal S16x66x66x65 .f32) : FVec Ideal S16x64x64x1 .f32 :=
  Host.sqrt (subf
    (acc (acc (acc (acc (acc (acc (acc (acc (acc (splat 0x00000000#32)
      (win 0 0 slices_S16x66x66x65_S16x64x64x65_0_0_0_0 P)) (win 0 1 slices_S16x66x66x65_S16x64x64x65_0_0_1_0 P))
      (win 0 2 slices_S16x66x66x65_S16x64x64x65_0_0_2_0 P)) (win 1 0 slices_S16x66x66x65_S16x64x64x65_0_1_0_0 P))
      (win 1 1 slices_S16x66x66x65_S16x64x64x65_0_1_1_0 P)) (win 1 2 slices_S16x66x66x65_S16x64x64x65_0_1_2_0 P))
      (win 2 0 slices_S16x66x66x65_S16x64x64x65_0_2_0_0 P)) (win 2 1 slices_S16x66x66x65_S16x64x64x65_0_2_1_0 P))
      (win 2 2 slices_S16x66x66x65_S16x64x64x65_0_2_2_0 P))
    (splat 0x41000000#32))

/-- The patch matrix from its time column and its nine blocks of space channels. -/
def asm (c : FVec Ideal S16x64x64x1 .f32) (u : Fin 9 → FVec Ideal S16x64x64x64 .f32) : FVec Ideal S16x4096x577 .bf16 :=
  shapeCast S16x4096x577
    (truncf .bf16
      (concatenate S16x64x64x577 3
        [⟨S16x64x64x1, c⟩,
         ⟨S16x64x64x576, concatenate S16x64x64x576 3
            [⟨S16x64x64x64, u 0⟩, ⟨S16x64x64x64, u 1⟩, ⟨S16x64x64x64, u 2⟩, ⟨S16x64x64x64, u 3⟩, ⟨S16x64x64x64, u 4⟩,
             ⟨S16x64x64x64, u 5⟩, ⟨S16x64x64x64, u 6⟩, ⟨S16x64x64x64, u 7⟩, ⟨S16x64x64x64, u 8⟩]
            concatenates_S16x64x64x64_S16x64x64x64_S16x64x64x64_S16x64x64x64_S16x64x64x64_S16x64x64x64_S16x64x64x64_S16x64x64x64_S16x64x64x64_S16x64x64x576_d3⟩]
        concatenates_S16x64x64x1_S16x64x64x576_S16x64x64x577_d3)
      bitsLt_bf16_f32)
    shapeCasts_S16x64x64x577_S16x4096x577

/-- The space channels of the window at position `k` = 3 i + j. -/
def spatial (P : FVec Ideal S16x66x66x65 .f32) : Fin 9 → FVec Ideal S16x64x64x64 .f32 :=
  ![chs (win 0 0 slices_S16x66x66x65_S16x64x64x65_0_0_0_0 P), chs (win 0 1 slices_S16x66x66x65_S16x64x64x65_0_0_1_0 P),
    chs (win 0 2 slices_S16x66x66x65_S16x64x64x65_0_0_2_0 P), chs (win 1 0 slices_S16x66x66x65_S16x64x64x65_0_1_0_0 P),
    chs (win 1 1 slices_S16x66x66x65_S16x64x64x65_0_1_1_0 P), chs (win 1 2 slices_S16x66x66x65_S16x64x64x65_0_1_2_0 P),
    chs (win 2 0 slices_S16x66x66x65_S16x64x64x65_0_2_0_0 P), chs (win 2 1 slices_S16x66x66x65_S16x64x64x65_0_2_1_0 P),
    chs (win 2 2 slices_S16x66x66x65_S16x64x64x65_0_2_2_0 P)]

/-- The patch matrix of a padded image. -/
def patches (P : FVec Ideal S16x66x66x65 .f32) : FVec Ideal S16x4096x577 .bf16 := asm (tpatch P) (spatial P)

/-- The padded image: one ring of the padding value around each 64 x 64 image. -/
def padded (x : FVec Ideal S16x64x64x65 .f32) (v : FVec Ideal S_ .f32) : FVec Ideal S16x66x66x65 .f32 :=
  pad S16x66x66x65 ![0, 1, 1, 0] ![0, 1, 1, 0] ![0, 0, 0, 0] x v pads_S16x64x64x65_S16x66x66x65_000_110_110_000 h_S_

end Cert.KernelIdeal.PreK

end
-- ==== Proof.KIPre1.lean ====
/-
  The ends of the host program's patch-matrix part, read as compositions of the named pure functions.

  The operations are folded over an arbitrary valuation of the buffers.  The first three (the zero word, its
  conversion to a float, the padding) leave the padded image; the last four of the 82 that follow put the time
  column in front of the nine blocks of space channels, round and reshape.
-/
import proofs.«127918_j12824772346234_1_alg».proof.Proof.KIPreL
import proofs.«127918_j12824772346234_1_alg».proof.Proof.KIPre0

set_option maxRecDepth 16384

noncomputable section

namespace Cert.KernelIdeal.PreK

open Cert.KernelIdeal Cert.KernelIdeal.Gen Idealize.ShloMosaic Idealize.ShloMosaic.TcCoe Idealize.ShloMosaic.StableHlo

/-- The zero word converted to a float, then the image padded with it. -/
theorem val_v0 (W : Valuation τ sig (Elt Ideal)) :
    StableHlo.after ((hostOps0 (F := Ideal)) ++ hostOps0_1) W main_v0
      = padded (W main_arg0) (sitofp .f32 (constantI S_ 32 0#32)) := by
  simp only [hostOps0, hostOps0_1, List.cons_append, List.nil_append]
  after_results
  rfl

/-- The last four operations put the time column in front of the nine blocks, round and reshape. -/
theorem val_tail (V : Valuation τ sig (Elt Ideal)) :
    StableHlo.after opsTail V main_v71
      = asm (V main_v67) ![V main_v8, V main_v15, V main_v22, V main_v29, V main_v36, V main_v43, V main_v50, V main_v57, V main_v64] := by
  simp only [opsTail, hostOps0_2, List.drop_succ_cons, List.drop_zero]
  after_results
  rfl

end Cert.KernelIdeal.PreK

end
-- ==== Proof.KIPre1a.lean ====
/-
  The first 78 host operations of the patch-matrix part, read at the buffers of the time column and of the first four
  blocks of space channels: each is a composition of the named pure functions applied to the padded image.
-/
import proofs.«127918_j12824772346234_1_alg».proof.Proof.KIPreL
import proofs.«127918_j12824772346234_1_alg».proof.Proof.KIPre0

set_option maxRecDepth 16384

noncomputable section

namespace Cert.KernelIdeal.PreK

open Cert.KernelIdeal Cert.KernelIdeal.Gen Idealize.ShloMosaic Idealize.ShloMosaic.TcCoe Idealize.ShloMosaic.StableHlo

set_option maxHeartbeats 4000000 in
/-- The time column: sqrt (the sum over the nine windows - 8). -/
theorem val_v67 (V : Valuation τ sig (Elt Ideal)) : StableHlo.after opsHead V main_v67 = tpatch (V main_v0) := by
  head_value

set_option maxHeartbeats 4000000 in
/-- The space channels of the window at (0, 0). -/
theorem val_v8 (V : Valuation τ sig (Elt Ideal)) :
    StableHlo.after opsHead V main_v8 = chs (win 0 0 slices_S16x66x66x65_S16x64x64x65_0_0_0_0 (V main_v0)) := by
  head_value

set_option maxHeartbeats 4000000 in
/-- The space channels of the window at (0, 1). -/
theorem val_v15 (V : Valuation τ sig (Elt Ideal)) :
    StableHlo.after opsHead V main_v15 = chs (win 0 1 slices_S16x66x66x65_S16x64x64x65_0_0_1_0 (V main_v0)) := by
  head_value

set_option maxHeartbeats 4000000 in
/-- The space channels of the window at (0, 2). -/
theorem val_v22 (V : Valuation τ sig (Elt Ideal)) :
    StableHlo.after opsHead V main_v22 = chs (win 0 2 slices_S16x66x66x65_S16x64x64x65_0_0_2_0 (V main_v0)) := by
  head_value

set_option maxHeartbeats 4000000 in
/-- The space channels of the window at (1, 0). -/
theorem val_v29 (V : Valuation τ sig (Elt Ideal)) :
    StableHlo.after opsHead V main_v29 = chs (win 1 0 slices_S16x66x66x65_S16x64x64x65_0_1_0_0 (V main_v0)) := by
  head_value

end Cert.KernelIdeal.PreK

end
-- ==== Proof.KIPre1b.lean ====
/-
  The first 78 host operations of the patch-matrix part, read at the buffers of the last five blocks of space
  channels: each is a composition of the named pure functions applied to the padded image.
-/
import proofs.«127918_j12824772346234_1_alg».proof.Proof.KIPreL
import proofs.«127918_j12824772346234_1_alg».proof.Proof.KIPre0

set_option maxRecDepth 16384

noncomputable section

namespace Cert.KernelIdeal.PreK

open Cert.KernelIdeal Cert.KernelIdeal.Gen Idealize.ShloMosaic Idealize.ShloMosaic.TcCoe Idealize.ShloMosaic.StableHlo

set_option maxHeartbeats 4000000 in
/-- The space channels of the window at (1, 1). -/
theorem val_v36 (V : Valuation τ sig (Elt Ideal)) :
    StableHlo.after opsHead V main_v36 = chs (win 1 1 slices_S16x66x66x65_S16x64x64x65_0_1_1_0 (V main_v0)) := by
  head_value

set_option maxHeartbeats 4000000 in
/-- The space channels of the window at (1, 2). -/
theorem val_v43 (V : Valuation τ sig (Elt Ideal)) :
    StableHlo.after opsHead V main_v43 = chs (win 1 2 slices_S16x66x66x65_S16x64x64x65_0_1_2_0 (V main_v0)) := by
  head_value

set_option maxHeartbeats 4000000 in
/-- The space channels of the window at (2, 0). -/
theorem val_v50 (V : Valuation τ sig (Elt Ideal)) :
    StableHlo.after opsHead V main_v50 = chs (win 2 0 slices_S16x66x66x65_S16x64x64x65_0_2_0_0 (V main_v0)) := by
  head_value

set_option maxHeartbeats 4000000 in
/-- The space channels of the window at (2, 1). -/
theorem val_v57 (V : Valuation τ sig (Elt Ideal)) :
    StableHlo.after opsHead V main_v57 = chs (win 2 1 slices_S16x66x66x65_S16x64x64x65_0_2_1_0 (V main_v0)) := by
  head_value

set_option maxHeartbeats 4000000 in
/-- The space channels of the window at (2, 2). -/
theorem val_v64 (V : Valuation τ sig (Elt Ideal)) :
    StableHlo.after opsHead V main_v64 = chs (win 2 2 slices_S16x66x66x65_S16x64x64x65_0_2_2_0 (V main_v0)) := by
  head_value

end Cert.KernelIdeal.PreK

end
-- ==== Proof.KIPre2.lean ====
/-
  The named pure functions read at an index.

  A window of the padded image at a pixel is the padded image at the shifted pixel; the padded image is the image
  inside the ring and the padding value on it; the time column at a pixel is sqrt (the sum over the nine window
  positions of the squared clamped time coordinates - 8); row (b, 64 h + w) of the assembled matrix has the time
  column's entry first and then, for position k and space channel c, entry 1 + 64 k + c from block k.
-/
import proofs.«127918_j12824772346234_1_alg».proof.Proof.KIPre0
import proofs.«127918_j12824772346234_1_alg».proof.Proof.Spec
import Idealize.ShloMosaic.Lib.Pipeline.Value
import Idealize.ShloMosaic.Lib.KernelVsHost

set_option maxRecDepth 16384

noncomputable section

namespace Cert.KernelIdeal.PreK

open Cert.KernelIdeal Cert.KernelIdeal.Gen Idealize.ShloMosaic Idealize.ShloMosaic.ValueIdx

/-- A window read at a pixel is the padded image at the pixel moved by the window's position. -/
theorem win_apply (i j : Nat) (hi : i ≤ 2) (hj : j ≤ 2) (h : S16x66x66x65.Slices ![0, i, j, 0] S16x64x64x65)
    (P : FVec Ideal S16x66x66x65 .f32) (b : Fin 16) (r s : Fin 64) (c : Fin 65) :
    win i j h P (ix4 b r s c) = P (ix4 b (⟨r.val + i, by omega⟩ : Fin 66) (⟨s.val + j, by omega⟩ : Fin 66) c) := by
  unfold win
  exact extractStridedSlice_apply _ P h (ix4 b r s c) (ix4 b (⟨r.val + i, by omega⟩ : Fin 66) (⟨s.val + j, by omega⟩ : Fin 66) c)
    (fun a => match a with
      | ⟨0, _⟩ => by show b.val = 0 + b.val; omega
      | ⟨1, _⟩ => by show r.val + i = i + r.val; omega
      | ⟨2, _⟩ => by show s.val + j = j + s.val; omega
      | ⟨3, _⟩ => by show c.val = 0 + c.val; omega)

/-- The time channel of a window is its channel 0. -/
theorem tcol_apply (Q : FVec Ideal S16x64x64x65 .f32) (b : Fin 16) (r s : Fin 64) :
    tcol Q (ix4 b r s (0 : Fin 1)) = Q (ix4 b r s (0 : Fin 65)) := by
  unfold tcol
  exact extractStridedSlice_apply _ Q _ (ix4 b r s (0 : Fin 1)) (ix4 b r s (0 : Fin 65))
    (fun a => match a with
      | ⟨0, _⟩ => by show b.val = 0 + b.val; omega
      | ⟨1, _⟩ => by show r.val = 0 + r.val; omega
      | ⟨2, _⟩ => by show s.val = 0 + s.val; omega
      | ⟨3, _⟩ => by show (0 : Nat) = 0 + 0; omega)

/-- Space channel `c` of a window is its channel `c + 1`. -/
theorem chs_apply (Q : FVec Ideal S16x64x64x65 .f32) (b : Fin 16) (r s : Fin 64) (c : Fin 64) :
    chs Q (ix4 b r s c) = Q (ix4 b r s (⟨c.val + 1, by omega⟩ : Fin 65)) := by
  unfold chs
  exact extractStridedSlice_apply _ Q _ (ix4 b r s c) (ix4 b r s (⟨c.val + 1, by omega⟩ : Fin 65))
    (fun a => match a with
      | ⟨0, _⟩ => by show b.val = 0 + b.val; omega
      | ⟨1, _⟩ => by show r.val = 0 + r.val; omega
      | ⟨2, _⟩ => by show s.val = 0 + s.val; omega
      | ⟨3, _⟩ => by show c.val + 1 = 1 + c.val; omega)

/-- A splat read anywhere is its one value. -/
theorem splat_apply (w : BitVec 32) (i : S16x64x64x1.Idx) : splat w i = Ideal.ofBits .f32 w := by
  unfold splat
  exact broadcastInDim_apply _ _ _ i ix0 (fun a => a.elim0)

/-- One step of the running sum at a pixel. -/
theorem acc_apply (S : FVec Ideal S16x64x64x1 .f32) (Q : FVec Ideal S16x64x64x65 .f32) (b : Fin 16) (r s : Fin 64) :
    acc S Q (ix4 b r s (0 : Fin 1))
      = S (ix4 b r s (0 : Fin 1)) + max (Q (ix4 b r s (0 : Fin 65))) Cert.Spec.one * max (Q (ix4 b r s (0 : Fin 65))) Cert.Spec.one := by
  show S _ + max (tcol Q _) (splat _ _) * max (tcol Q _) (splat _ _) = _
  rw [tcol_apply, splat_apply]
  rfl

/-- The padded image is the image inside the ring and the padding value on it. -/
theorem padded_apply (x : FVec Ideal S16x64x64x65 .f32) (v : FVec Ideal S_ .f32) (hv : v (Shape.Idx.first h_S_) = 0)
    (b : Fin 16) (r s : Fin 66) (c : Fin 65) :
    padded x v (ix4 b r s c) = Cert.Spec.xpad x b r.val s.val c := by
  unfold padded Cert.Spec.xpad
  by_cases h : (1 ≤ r.val ∧ r.val ≤ 64) ∧ (1 ≤ s.val ∧ s.val ≤ 64)
  · rw [dif_pos h]
    exact pad_apply_of_inside _ _ _ x v _ _ (ix4 b r s c) (ix4 b (⟨r.val - 1, by omega⟩ : Fin 64) (⟨s.val - 1, by omega⟩ : Fin 64) c)
      (fun a => match a with
        | ⟨0, _⟩ => by show b.val = 0 + b.val * (0 + 1); omega
        | ⟨1, _⟩ => by show r.val = 1 + (r.val - 1) * (0 + 1); omega
        | ⟨2, _⟩ => by show s.val = 1 + (s.val - 1) * (0 + 1); omega
        | ⟨3, _⟩ => by show c.val = 0 + c.val * (0 + 1); omega)
  · rw [dif_neg h]
    by_cases hr : 1 ≤ r.val ∧ r.val ≤ 64
    · refine (pad_apply_of_not_inside _ _ _ x v _ _ (ix4 b r s c) (2 : Fin 4) ?_).trans hv
      show ¬(1 ≤ s.val ∧ (s.val - 1) % (0 + 1) = 0 ∧ (s.val - 1) / (0 + 1) < 64)
      omega
    · refine (pad_apply_of_not_inside _ _ _ x v _ _ (ix4 b r s c) (1 : Fin 4) ?_).trans hv
      show ¬(1 ≤ r.val ∧ (r.val - 1) % (0 + 1) = 0 ∧ (r.val - 1) / (0 + 1) < 64)
      omega

/-- The time column at a pixel: sqrt (the sum over the nine window positions of the squared clamped time
    coordinates - 8).  The running sum starts at zero, and `0 + a = a` on the extended reals. -/
theorem tpatch_apply (x : FVec Ideal S16x64x64x65 .f32) (v : FVec Ideal S_ .f32) (hv : v (Shape.Idx.first h_S_) = 0)
    (b : Fin 16) (r s : Fin 64) :
    tpatch (padded x v) (ix4 b r s (0 : Fin 1))
      = Ideal.sqrt ((∑ k : Fin 9, Cert.Spec.tsq x b r.val s.val k) - Cert.Spec.eight) := by
  unfold tpatch
  show Ideal.sqrt (acc _ _ (ix4 b r s (0 : Fin 1)) - splat _ _) = _
  rw [acc_apply, acc_apply, acc_apply, acc_apply, acc_apply, acc_apply, acc_apply, acc_apply, acc_apply,
    splat_apply, splat_apply, Ideal.ofBits_zero_f32, zero_add,
    win_apply 0 0 (by omega) (by omega), win_apply 0 1 (by omega) (by omega), win_apply 0 2 (by omega) (by omega),
    win_apply 1 0 (by omega) (by omega), win_apply 1 1 (by omega) (by omega), win_apply 1 2 (by omega) (by omega),
    win_apply 2 0 (by omega) (by omega), win_apply 2 1 (by omega) (by omega), win_apply 2 2 (by omega) (by omega)]
  simp only [padded_apply x v hv]
  rw [Fin.sum_univ_castSucc, Fin.sum_univ_eight]
  rfl

/-- The first entry of a row of the assembled matrix is the time column's. -/
theorem asm_apply_zero (c : FVec Ideal S16x64x64x1 .f32) (u : Fin 9 → FVec Ideal S16x64x64x64 .f32) (b : Fin 16) (l : Fin 4096) :
    asm c u (ix3 b l (0 : Fin 577))
      = c (ix4 b (⟨l.val / 64, by omega⟩ : Fin 64) (⟨l.val % 64, by omega⟩ : Fin 64) (0 : Fin 1)) := by
  unfold asm
  refine (shapeCast_apply _ _ (ix3 b l (0 : Fin 577))
    (ix4 b (⟨l.val / 64, by omega⟩ : Fin 64) (⟨l.val % 64, by omega⟩ : Fin 64) (0 : Fin 577)) ?_).trans ?_
  · rw [Shape.rowMajor_val_four, Shape.rowMajor_val_three]
    show ((b.val * 64 + l.val / 64) * 64 + l.val % 64) * 577 + 0 = (b.val * 4096 + l.val) * 577 + 0
    omega
  · refine (truncf_apply (φ := .f32) (ψ := .bf16) _ bitsLt_bf16_f32 _).trans ?_
    exact concatenate_pair_apply_left (t := S16x64x64x577) (s₁ := S16x64x64x1) (s₂ := S16x64x64x576) 3 c _ _ _ rfl
      (ix4 b (⟨l.val / 64, by omega⟩ : Fin 64) (⟨l.val % 64, by omega⟩ : Fin 64) (0 : Fin 1))
      (fun a => match a with
        | ⟨0, _⟩ => rfl
        | ⟨1, _⟩ => rfl
        | ⟨2, _⟩ => rfl
        | ⟨3, _⟩ => rfl)

/-- Entry 1 + 64 k + c of a row of the assembled matrix is entry c of block k. -/
theorem asm_apply_succ (c : FVec Ideal S16x64x64x1 .f32) (u : Fin 9 → FVec Ideal S16x64x64x64 .f32) (b : Fin 16) (l : Fin 4096)
    (k : Fin 9) (cc : Fin 64) :
    asm c u (ix3 b l (⟨1 + 64 * k.val + cc.val, by omega⟩ : Fin 577))
      = u k (ix4 b (⟨l.val / 64, by omega⟩ : Fin 64) (⟨l.val % 64, by omega⟩ : Fin 64) cc) := by
  unfold asm
  refine (shapeCast_apply _ _ (ix3 b l (⟨1 + 64 * k.val + cc.val, by omega⟩ : Fin 577))
    (ix4 b (⟨l.val / 64, by omega⟩ : Fin 64) (⟨l.val % 64, by omega⟩ : Fin 64) (⟨1 + 64 * k.val + cc.val, by omega⟩ : Fin 577)) ?_).trans ?_
  · rw [Shape.rowMajor_val_four, Shape.rowMajor_val_three]
    show ((b.val * 64 + l.val / 64) * 64 + l.val % 64) * 577 + (1 + 64 * k.val + cc.val)
      = (b.val * 4096 + l.val) * 577 + (1 + 64 * k.val + cc.val)
    omega
  · refine (truncf_apply (φ := .f32) (ψ := .bf16) _ bitsLt_bf16_f32 _).trans ?_
    refine (concatenate_pair_apply_right (t := S16x64x64x577) (s₁ := S16x64x64x1) (s₂ := S16x64x64x576) 3 c _ _ _ rfl rfl
      (ix4 b (⟨l.val / 64, by omega⟩ : Fin 64) (⟨l.val % 64, by omega⟩ : Fin 64) (⟨64 * k.val + cc.val, by omega⟩ : Fin 576))
      (fun a ha => match a, ha with
        | ⟨0, _⟩, _ => rfl
        | ⟨1, _⟩, _ => rfl
        | ⟨2, _⟩, _ => rfl
        | ⟨3, _⟩, h => absurd (Fin.ext rfl) h) ?_).trans ?_
    · show 64 * k.val + cc.val + 1 = 1 + 64 * k.val + cc.val
      omega
    · show concatenate S16x64x64x576 3 (List.ofFn fun n : Fin 9 => (⟨S16x64x64x64, u n⟩ : (s : Shape) × (s.Idx → EReal))) _ _ = _
      exact concatenate_ofFn_apply (t := S16x64x64x576) (s₁ := S16x64x64x64) 3 u _ rfl 64 rfl _ k (by show (64 * k.val + cc.val) / 64 = k.val; omega)
        (ix4 b (⟨l.val / 64, by omega⟩ : Fin 64) (⟨l.val % 64, by omega⟩ : Fin 64) cc)
        (by show cc.val = (64 * k.val + cc.val) % 64; omega)
        (fun a ha => match a, ha with
          | ⟨0, _⟩, _ => rfl
          | ⟨1, _⟩, _ => rfl
          | ⟨2, _⟩, _ => rfl
          | ⟨3, _⟩, h => absurd (Fin.ext rfl) h)

/-- Block `k` at a pixel and a space channel is the padded image at the pixel moved by position `k`, one channel on. -/
theorem spatial_apply (P : FVec Ideal S16x66x66x65 .f32) (k : Fin 9) (b : Fin 16) (r s : Fin 64) (cc : Fin 64) :
    spatial P k (ix4 b r s cc)
      = P (ix4 b (⟨r.val + k.val / 3, by omega⟩ : Fin 66) (⟨s.val + k.val % 3, by omega⟩ : Fin 66) (⟨cc.val + 1, by omega⟩ : Fin 65)) := by
  fin_cases k
  · show chs (win 0 0 slices_S16x66x66x65_S16x64x64x65_0_0_0_0 P) (ix4 b r s cc) = _
    exact (chs_apply _ b r s cc).trans (win_apply 0 0 (by omega) (by omega) _ P b r s _)
  · show chs (win 0 1 slices_S16x66x66x65_S16x64x64x65_0_0_1_0 P) (ix4 b r s cc) = _
    exact (chs_apply _ b r s cc).trans (win_apply 0 1 (by omega) (by omega) _ P b r s _)
  · show chs (win 0 2 slices_S16x66x66x65_S16x64x64x65_0_0_2_0 P) (ix4 b r s cc) = _
    exact (chs_apply _ b r s cc).trans (win_apply 0 2 (by omega) (by omega) _ P b r s _)
  · show chs (win 1 0 slices_S16x66x66x65_S16x64x64x65_0_1_0_0 P) (ix4 b r s cc) = _
    exact (chs_apply _ b r s cc).trans (win_apply 1 0 (by omega) (by omega) _ P b r s _)
  · show chs (win 1 1 slices_S16x66x66x65_S16x64x64x65_0_1_1_0 P) (ix4 b r s cc) = _
    exact (chs_apply _ b r s cc).trans (win_apply 1 1 (by omega) (by omega) _ P b r s _)
  · show chs (win 1 2 slices_S16x66x66x65_S16x64x64x65_0_1_2_0 P) (ix4 b r s cc) = _
    exact (chs_apply _ b r s cc).trans (win_apply 1 2 (by omega) (by omega) _ P b r s _)
  · show chs (win 2 0 slices_S16x66x66x65_S16x64x64x65_0_2_0_0 P) (ix4 b r s cc) = _
    exact (chs_apply _ b r s cc).trans (win_apply 2 0 (by omega) (by omega) _ P b r s _)
  · show chs (win 2 1 slices_S16x66x66x65_S16x64x64x65_0_2_1_0 P) (ix4 b r s cc) = _
    exact (chs_apply _ b r s cc).trans (win_apply 2 1 (by omega) (by omega) _ P b r s _)
  · show chs (win 2 2 slices_S16x66x66x65_S16x64x64x65_0_2_2_0 P) (ix4 b r s cc) = _
    exact (chs_apply _ b r s cc).trans (win_apply 2 2 (by omega) (by omega) _ P b r s _)

/-- The patch matrix of the padded image is the specification's, entry by entry. -/
theorem patches_apply (x : FVec Ideal S16x64x64x65 .f32) (v : FVec Ideal S_ .f32) (hv : v (Shape.Idx.first h_S_) = 0)
    (b : Fin 16) (l : Fin 4096) (d : Fin 577) :
    patches (padded x v) (ix3 b l d) = Cert.Spec.PreAt x b l d := by
  unfold patches Cert.Spec.PreAt
  by_cases hd : d.val = 0
  · rw [if_pos hd]
    have hd0 : d = (0 : Fin 577) := Fin.ext hd
    subst hd0
    rw [asm_apply_zero, tpatch_apply x v hv]
  · rw [if_neg hd]
    have hd' : d = (⟨1 + 64 * ((d.val - 1) / 64) + (d.val - 1) % 64, by omega⟩ : Fin 577) := Fin.ext (by show d.val = 1 + 64 * ((d.val - 1) / 64) + (d.val - 1) % 64; omega)
    refine (congrArg (fun d' => asm (tpatch (padded x v)) (spatial (padded x v)) (ix3 b l d')) hd').trans ?_
    refine (asm_apply_succ _ _ b l (⟨(d.val - 1) / 64, by omega⟩ : Fin 9) (⟨(d.val - 1) % 64, by omega⟩ : Fin 64)).trans ?_
    rw [spatial_apply, padded_apply x v hv]

end Cert.KernelIdeal.PreK

end
-- ==== Proof.KIPre.lean ====
/-
  The patch matrix of the kernel program.

  Before its pipelined region the program pads the image with one ring of zeros and builds, from the nine
  windows of the padded image, the matrix whose row (b, 64 h + w) holds the time coordinate of the patch around
  pixel (h, w) followed by the 9 x 64 space coordinates of the patch.  Folding the three stretches of host
  operations over any valuation of the buffers leaves in the matrix's buffer exactly the specification's patch
  matrix of the image the valuation holds.
-/
import proofs.«127918_j12824772346234_1_alg».proof.Proof.KIPre1
import proofs.«127918_j12824772346234_1_alg».proof.Proof.KIPre1a
import proofs.«127918_j12824772346234_1_alg».proof.Proof.KIPre1b
import proofs.«127918_j12824772346234_1_alg».proof.Proof.KIPre2

set_option maxRecDepth 16384

noncomputable section

namespace Cert.KernelIdeal.PreK

open Cert.KernelIdeal Cert.KernelIdeal.Gen Idealize.ShloMosaic Idealize.ShloMosaic.TcCoe Idealize.ShloMosaic.StableHlo
open Idealize.ShloMosaic.ValueIdx

/-- The padding value: the zero word converted to a float is zero. -/
theorem pad_value_zero :
    (sitofp .f32 (constantI S_ 32 0#32) : FVec Ideal S_ .f32) (Shape.Idx.first h_S_) = 0 :=
  sitofp_zero

/-- The three stretches, one after the other: the padding, the 78 operations, the last four. -/
theorem after_stretches (W : Valuation τ sig (Elt Ideal)) :
    StableHlo.after ((hostOps0 (F := Ideal)) ++ hostOps0_1 ++ hostOps0_2) W
      = StableHlo.after opsTail (StableHlo.after opsHead (StableHlo.after ((hostOps0 (F := Ideal)) ++ hostOps0_1) W)) :=
  calc StableHlo.after ((hostOps0 (F := Ideal)) ++ hostOps0_1 ++ hostOps0_2) W
      = StableHlo.after hostOps0_2 (StableHlo.after ((hostOps0 (F := Ideal)) ++ hostOps0_1) W) := after_append _ _ _
    _ = StableHlo.after (opsHead ++ opsTail) (StableHlo.after ((hostOps0 (F := Ideal)) ++ hostOps0_1) W) :=
        congrArg (fun l => StableHlo.after l (StableHlo.after ((hostOps0 (F := Ideal)) ++ hostOps0_1) W)) hostOps0_2_cut
    _ = StableHlo.after opsTail (StableHlo.after opsHead (StableHlo.after ((hostOps0 (F := Ideal)) ++ hostOps0_1) W)) :=
        after_append _ _ _

/-- The buffer of the patch matrix after the host operations holds the patch matrix of the image. -/
theorem pre_K (W : Valuation τ sig (Elt Ideal)) :
    StableHlo.after ((hostOps0 (F := Ideal)) ++ hostOps0_1 ++ hostOps0_2) W main_v71 = Cert.Spec.PreArr (W main_arg0) := by
  rw [after_stretches, val_tail, val_v67, val_v8, val_v15, val_v22, val_v29, val_v36, val_v43, val_v50, val_v57, val_v64, val_v0]
  funext j
  obtain ⟨b, l, d, rfl⟩ : ∃ (b : Fin 16) (l : Fin 4096) (d : Fin 577), j = ix3 b l d := ⟨j 0, j 1, j 2, eq_ix3 j⟩
  rw [Cert.Spec.PreArr_ix]
  exact patches_apply (W main_arg0) _ pad_value_zero b l d

end Cert.KernelIdeal.PreK

end
-- ==== Proof.WtTW.lean ====
/-
  The weight array, as a function of its three sources.

  Both programs build the weights [4, 65, 577] the same way: the spatial filters are rotated in the plane by the four
  quarter turns, the four copies are stacked and flattened to the array `TW a1` of shape [4, 64, 1, 576]; a row of
  output-time weights [4, 1, 1, 576] is put in front of it along axis 1; the result is flattened to [4, 65, 576]; the
  column of input-time weights [4, 65, 1] is put in front of that along axis 2.  `tail` is the part after the
  filters, and `tail_apply` reads it at an index: entry (g, o, d) is the input-time weight of channel o for d = 0,
  the output-time weight of entry d - 1 for d >= 1 and o = 0, and the filter entry (g, o - 1, d - 1) otherwise.
  The filter part `TW` is never read at an index.
-/
import proofs.«127918_j12824772346234_1_alg».proof.Proof.Gen.KernelIdeal
import proofs.«127918_j12824772346234_1_alg».proof.Proof.Spec
import Idealize.ShloMosaic.Lib.StableHlo.Run
import Idealize.ShloMosaic.Lib.Pipeline.Value

noncomputable section

namespace Cert.Wt

open Cert.KernelIdeal Cert.KernelIdeal.Gen
open Idealize.ShloMosaic Idealize.ShloMosaic.TcCoe Idealize.ShloMosaic.StableHlo Idealize.ShloMosaic.ValueIdx

/-- The shape of the spatial filters. -/
abbrev SF : Shape := ⟨5, ![64, 64, 1, 3, 3]⟩

/-- The three proper quarter turns of the filters' 3 x 3 plane. -/
def rot1 (a : SF.Idx → EReal) : SF.Idx → EReal :=
  transpose S64x64x1x3x3 [0, 1, 2, 4, 3] (Host.reverse [4] a) transposes_S64x64x1x3x3_S64x64x1x3x3_0_1_2_4_3
def rot2 (a : SF.Idx → EReal) : SF.Idx → EReal := Host.reverse [4] (Host.reverse [3] a)
def rot3 (a : SF.Idx → EReal) : SF.Idx → EReal :=
  Host.reverse [4] (transpose S64x64x1x3x3 [0, 1, 2, 4, 3] a transposes_S64x64x1x3x3_S64x64x1x3x3_0_1_2_4_3)

/-- A filter array with a unit axis for the turn in second place. -/
def lift (a : SF.Idx → EReal) : S64x1x64x1x3x3.Idx → EReal :=
  broadcastInDim S64x1x64x1x3x3 ![0, 2, 3, 4, 5] bcast_S64x64x1x3x3_S64x1x64x1x3x3_0_2_3_4_5 a

/-- The four turns stacked along axis 1. -/
def stack (r0 r1 r2 r3 : S64x1x64x1x3x3.Idx → EReal) : S64x4x64x1x3x3.Idx → EReal :=
  concatenate S64x4x64x1x3x3 1 [⟨S64x1x64x1x3x3, r0⟩, ⟨S64x1x64x1x3x3, r1⟩, ⟨S64x1x64x1x3x3, r2⟩, ⟨S64x1x64x1x3x3, r3⟩]
    concatenates_S64x1x64x1x3x3_S64x1x64x1x3x3_S64x1x64x1x3x3_S64x1x64x1x3x3_S64x4x64x1x3x3_d1

/-- The stacked turns flattened to [4, 64, 1, 576]. -/
def flat (s : S64x4x64x1x3x3.Idx → EReal) : Cert.Spec.ST.Idx → EReal :=
  shapeCast S4x64x1x576
    (transpose S4x64x1x64x9 [1, 0, 3, 2, 4] (shapeCast S64x4x64x1x9 s shapeCasts_S64x4x64x1x3x3_S64x4x64x1x9)
      transposes_S64x4x64x1x9_S4x64x1x64x9_1_0_3_2_4)
    shapeCasts_S4x64x1x64x9_S4x64x1x576

/-- The transformed spatial filters. -/
def TW (a1 : (⟨5, ![64, 64, 1, 3, 3]⟩ : Shape).Idx → EReal) : Cert.Spec.ST.Idx → EReal :=
  flat (stack (lift a1) (lift (rot1 a1)) (lift (rot2 a1)) (lift (rot3 a1)))

/-- The output-time weights repeated for the four groups. -/
def tout (a2 : Cert.Spec.SA2.Idx → EReal) : S4x1x1x576.Idx → EReal :=
  broadcastInDim S4x1x1x576 ![0, 1, 2, 3] bcast_S1x1x1x576_S4x1x1x576_0_1_2_3 a2

/-- The input-time weights repeated for the four groups. -/
def tin (a3 : Cert.Spec.SA3.Idx → EReal) : S4x65x1.Idx → EReal :=
  broadcastInDim S4x65x1 ![0, 1, 2] bcast_S1x65x1_S4x65x1_0_1_2 (broadcastInDim S1x65x1 ![1, 2] bcast_S65x1_S1x65x1_1_2 a3)

/-- The output-time row in front of the filters, flattened. -/
def body (t : S4x1x1x576.Idx → EReal) (tw : Cert.Spec.ST.Idx → EReal) : S4x65x576.Idx → EReal :=
  shapeCast S4x65x576
    (concatenate S4x65x1x576 1 [⟨S4x1x1x576, t⟩, ⟨S4x64x1x576, tw⟩] concatenates_S4x1x1x576_S4x64x1x576_S4x65x1x576_d1)
    shapeCasts_S4x65x1x576_S4x65x576

/-- The weights from the output-time row `t`, the filters `tw` and the input-time weights `a3`. -/
def tail (t : S4x1x1x576.Idx → EReal) (tw : Cert.Spec.ST.Idx → EReal) (a3 : Cert.Spec.SA3.Idx → EReal) :
    Cert.Spec.SW.Idx → EReal :=
  concatenate S4x65x577 2 [⟨S4x65x1, tin a3⟩, ⟨S4x65x576, body t tw⟩] concatenates_S4x65x1_S4x65x576_S4x65x577_d2

theorem tout_apply (a2 : Cert.Spec.SA2.Idx → EReal) (g : Fin 4) (e : Fin 576) :
    tout a2 (ix4 g 0 0 e) = a2 (ix4 0 0 0 e) :=
  broadcastInDim_apply _ _ _ _ (ix4 0 0 0 e)
    (fun a => match a with | ⟨0, _⟩ => rfl | ⟨1, _⟩ => rfl | ⟨2, _⟩ => rfl | ⟨3, _⟩ => rfl)

theorem tin_apply (a3 : Cert.Spec.SA3.Idx → EReal) (g : Fin 4) (o : Fin 65) :
    tin a3 (ix3 g o 0) = a3 (ix2 o 0) := by
  unfold tin
  refine (broadcastInDim_apply _ _ _ _ (ix3 (0 : Fin 1) o (0 : Fin 1))
    (fun a => match a with | ⟨0, _⟩ => rfl | ⟨1, _⟩ => rfl | ⟨2, _⟩ => rfl)).trans ?_
  exact broadcastInDim_apply _ _ _ _ (ix2 o (0 : Fin 1))
    (fun a => match a with | ⟨0, _⟩ => rfl | ⟨1, _⟩ => rfl)

/-- The flattened middle part at (g, o, e): the output-time row for o = 0, the filters at o - 1 otherwise. -/
theorem body_apply_zero (t : S4x1x1x576.Idx → EReal) (tw : Cert.Spec.ST.Idx → EReal) (g : Fin 4) (o : Fin 65) (e : Fin 576)
    (ho : o.val = 0) : body t tw (ix3 g o e) = t (ix4 g 0 0 e) := by
  unfold body
  refine (shapeCast_apply _ _ _ (ix4 g o (0 : Fin 1) e) (by
    rw [Shape.rowMajor_val_four, Shape.rowMajor_val_three]
    show ((g.val * 65 + o.val) * 1 + 0) * 576 + e.val = (g.val * 65 + o.val) * 576 + e.val
    omega)).trans ?_
  exact concatenate_pair_apply_left (t := S4x65x1x576) (s₁ := S4x1x1x576) (s₂ := S4x64x1x576) 1 _ _ _ _ rfl (ix4 g (0 : Fin 1) (0 : Fin 1) e)
    (fun b => match b with | ⟨0, _⟩ => rfl | ⟨1, _⟩ => ho.symm | ⟨2, _⟩ => rfl | ⟨3, _⟩ => rfl)

theorem body_apply_pos (t : S4x1x1x576.Idx → EReal) (tw : Cert.Spec.ST.Idx → EReal) (g : Fin 4) (o : Fin 65) (e : Fin 576)
    (ho : o.val ≠ 0) : body t tw (ix3 g o e) = tw (ix4 g ⟨o.val - 1, by omega⟩ 0 e) := by
  unfold body
  refine (shapeCast_apply _ _ _ (ix4 g o (0 : Fin 1) e) (by
    rw [Shape.rowMajor_val_four, Shape.rowMajor_val_three]
    show ((g.val * 65 + o.val) * 1 + 0) * 576 + e.val = (g.val * 65 + o.val) * 576 + e.val
    omega)).trans ?_
  exact concatenate_pair_apply_right (t := S4x65x1x576) (s₁ := S4x1x1x576) (s₂ := S4x64x1x576) 1 _ _ _ _ rfl rfl
    (ix4 g (⟨o.val - 1, by omega⟩ : Fin 64) (0 : Fin 1) e)
    (fun b hb => by
      match b with
      | ⟨0, _⟩ => rfl
      | ⟨1, _⟩ => exact absurd rfl hb
      | ⟨2, _⟩ => rfl
      | ⟨3, _⟩ => rfl)
    (by show (o.val - 1) + 1 = o.val; omega)

/-- The weights read at an index, when the output-time row is the same for the four groups. -/
theorem tail_apply (t : S4x1x1x576.Idx → EReal) (tw : Cert.Spec.ST.Idx → EReal) (a2 : Cert.Spec.SA2.Idx → EReal)
    (a3 : Cert.Spec.SA3.Idx → EReal) (ht : ∀ (g : Fin 4) (e : Fin 576), t (ix4 g 0 0 e) = a2 (ix4 0 0 0 e))
    (g : Fin 4) (o : Fin 65) (d : Fin 577) : tail t tw a3 (ix3 g o d) = Cert.Spec.WtAt tw a2 a3 g o d := by
  unfold tail Cert.Spec.WtAt
  by_cases hd : d.val = 0
  · rw [dif_pos hd]
    refine (concatenate_pair_apply_left (t := S4x65x577) (s₁ := S4x65x1) (s₂ := S4x65x576) 2 _ _ _ (ix3 g o d) rfl (ix3 g o (0 : Fin 1))
      (fun b => match b with | ⟨0, _⟩ => rfl | ⟨1, _⟩ => rfl | ⟨2, _⟩ => hd.symm)).trans ?_
    exact tin_apply a3 g o
  · rw [dif_neg hd]
    refine (concatenate_pair_apply_right (t := S4x65x577) (s₁ := S4x65x1) (s₂ := S4x65x576) 2 _ _ _ (ix3 g o d) rfl rfl
      (ix3 g o (⟨d.val - 1, by omega⟩ : Fin 576))
      (fun b hb => by
        match b with
        | ⟨0, _⟩ => rfl
        | ⟨1, _⟩ => rfl
        | ⟨2, _⟩ => exact absurd rfl hb)
      (by show (d.val - 1) + 1 = d.val; omega)).trans ?_
    by_cases ho : o.val = 0
    · rw [dif_pos ho, body_apply_zero t tw g o _ ho]
      exact ht g _
    · rw [dif_neg ho]
      exact body_apply_pos t tw g o _ ho

end Cert.Wt

end
-- ==== Proof.WtK.lean ====
/-
  The weights in the kernel's program.

  The host operations that build the weights are cut into five stretches: the three proper quarter turns of the
  filters, the four liftings to a new unit axis, the stacking of the four turns, the flattening to [4, 64, 1, 576],
  and the part after the filters (time weights in front, the final transpose to [577, 4, 65], the flattening to
  [577, 260] and the rounding, which is the identity on the extended reals).  Each stretch is read off as a function
  of the buffers it starts from; their composition is the array `tail (tout a2) (TW a1) a3` transposed and
  flattened, which is then read at an index.
-/
import proofs.«127918_j12824772346234_1_alg».proof.Proof.Gen.KernelIdeal.Launch
import proofs.«127918_j12824772346234_1_alg».proof.Proof.WtTW
import Idealize.ShloMosaic.Lib.Pipeline.Frame

noncomputable section

namespace Cert.KernelIdeal.WtK

open Cert.KernelIdeal Cert.KernelIdeal.Gen Cert.Wt
open Idealize.ShloMosaic Idealize.ShloMosaic.TcCoe Idealize.ShloMosaic.StableHlo Idealize.ShloMosaic.ValueIdx

/-! ## The stretches -/

/-- The three proper quarter turns. -/
abbrev opsRot : List (HloOp τ sig (Elt Ideal)) := (hostOps0_3 (F := Ideal)) ++ hostOps0_4 ++ hostOps0_5
/-- The four liftings. -/
abbrev opsLift : List (HloOp τ sig (Elt Ideal)) := (hostOps0_6 (F := Ideal)).take 4
/-- The stacking. -/
abbrev opsStack : List (HloOp τ sig (Elt Ideal)) := ((hostOps0_6 (F := Ideal)).drop 4).take 1
/-- The flattening of the stacked turns. -/
abbrev opsFlat : List (HloOp τ sig (Elt Ideal)) := ((hostOps0_6 (F := Ideal)).drop 5).take 3
/-- The part after the filters. -/
abbrev opsTail : List (HloOp τ sig (Elt Ideal)) := (hostOps0_6 (F := Ideal)).drop 8

theorem ops_split : (hostOps0_6 (F := Ideal)) = opsLift ++ (opsStack ++ (opsFlat ++ opsTail)) := rfl

section
variable (W : Valuation τ sig (Elt Ideal))

theorem rot_v73 : after opsRot W main_v73 = rot1 (W main_arg1) := by
  simp only [opsRot, hostOps0_3, hostOps0_4, hostOps0_5, List.cons_append, List.nil_append]
  after_results
  rfl
theorem rot_v74 : after opsRot W main_v74 = rot2 (W main_arg1) := by
  simp only [opsRot, hostOps0_3, hostOps0_4, hostOps0_5, List.cons_append, List.nil_append]
  after_results
  rfl
theorem rot_v75 : after opsRot W main_v75 = rot3 (W main_arg1) := by
  simp only [opsRot, hostOps0_3, hostOps0_4, hostOps0_5, List.cons_append, List.nil_append]
  after_results
  rfl
theorem rot_arg1 : after opsRot W main_arg1 = W main_arg1 := by
  simp only [opsRot, hostOps0_3, hostOps0_4, hostOps0_5, List.cons_append, List.nil_append]
  after_results
theorem rot_arg2 : after opsRot W main_arg2 = W main_arg2 := by
  simp only [opsRot, hostOps0_3, hostOps0_4, hostOps0_5, List.cons_append, List.nil_append]
  after_results
theorem rot_arg3 : after opsRot W main_arg3 = W main_arg3 := by
  simp only [opsRot, hostOps0_3, hostOps0_4, hostOps0_5, List.cons_append, List.nil_append]
  after_results

theorem lift_v76 : after opsLift W main_v76 = lift (W main_arg1) := by
  simp only [opsLift, hostOps0_6, List.take]
  after_results
  rfl
theorem lift_v77 : after opsLift W main_v77 = lift (W main_v73) := by
  simp only [opsLift, hostOps0_6, List.take]
  after_results
  rfl
theorem lift_v78 : after opsLift W main_v78 = lift (W main_v74) := by
  simp only [opsLift, hostOps0_6, List.take]
  after_results
  rfl
theorem lift_v79 : after opsLift W main_v79 = lift (W main_v75) := by
  simp only [opsLift, hostOps0_6, List.take]
  after_results
  rfl
theorem lift_arg2 : after opsLift W main_arg2 = W main_arg2 := by
  simp only [opsLift, hostOps0_6, List.take]
  after_results
theorem lift_arg3 : after opsLift W main_arg3 = W main_arg3 := by
  simp only [opsLift, hostOps0_6, List.take]
  after_results

theorem stack_v80 : after opsStack W main_v80 = stack (W main_v76) (W main_v77) (W main_v78) (W main_v79) := by
  simp only [opsStack, hostOps0_6, List.take, List.drop]
  after_results
  rfl
theorem stack_arg2 : after opsStack W main_arg2 = W main_arg2 := by
  simp only [opsStack, hostOps0_6, List.take, List.drop]
  after_results
theorem stack_arg3 : after opsStack W main_arg3 = W main_arg3 := by
  simp only [opsStack, hostOps0_6, List.take, List.drop]
  after_results

theorem flat_v83 : after opsFlat W main_v83 = flat (W main_v80) := by
  simp only [opsFlat, hostOps0_6, List.take, List.drop]
  after_results
  rfl
theorem flat_arg2 : after opsFlat W main_arg2 = W main_arg2 := by
  simp only [opsFlat, hostOps0_6, List.take, List.drop]
  after_results
theorem flat_arg3 : after opsFlat W main_arg3 = W main_arg3 := by
  simp only [opsFlat, hostOps0_6, List.take, List.drop]
  after_results

/-- The last array of the kernel's program: the weights transposed to [577, 4, 65] and flattened. -/
def last (w : Cert.Spec.SW.Idx → EReal) : S577x260.Idx → EReal :=
  truncf (F := Ideal) .bf16
    (shapeCast S577x260 (transpose S577x4x65 [2, 0, 1] w transposes_S4x65x577_S577x4x65_2_0_1) shapeCasts_S577x4x65_S577x260)
    bitsLt_bf16_f32

theorem tail_v92 : after opsTail W main_v92 = last (tail (tout (W main_arg2)) (W main_v83) (W main_arg3)) := by
  simp only [opsTail, hostOps0_6, List.drop]
  after_results
  rfl

end

/-- The transposed and flattened weights at (d, 65 g + o) are the weights at (g, o, d). -/
theorem last_apply (w : Cert.Spec.SW.Idx → EReal) (d : Fin 577) (g : Fin 4) (o : Fin 65) :
    last w (ix2 d ⟨g.val * 65 + o.val, by omega⟩) = w (ix3 g o d) := by
  unfold last
  rw [truncf_apply]
  refine (shapeCast_apply _ _ _ (ix3 d g o) (by
    rw [Shape.rowMajor_val_three, Shape.rowMajor_val_two]
    show (d.val * 4 + g.val) * 65 + o.val = d.val * 260 + (g.val * 65 + o.val)
    omega)).trans ?_
  exact transpose_apply _ _ _ _ (ix3 g o d) (fun b => match b with | ⟨0, _⟩ => rfl | ⟨1, _⟩ => rfl | ⟨2, _⟩ => rfl)

/-- The kernel's weights, read at an index. -/
theorem wt_K (W : Valuation τ sig (Elt Ideal)) (d : Fin 577) (g : Fin 4) (o : Fin 65) :
    StableHlo.after ((hostOps0_3 (F := Ideal)) ++ hostOps0_4 ++ hostOps0_5 ++ hostOps0_6) W main_v92 (ValueIdx.ix2 d ⟨g.val * 65 + o.val, by omega⟩)
      = Cert.Spec.WtAt (Cert.Wt.TW (W main_arg1)) (W main_arg2) (W main_arg3) g o d := by
  have hV : StableHlo.after ((hostOps0_3 (F := Ideal)) ++ hostOps0_4 ++ hostOps0_5 ++ hostOps0_6) W main_v92
      = last (tail (tout (W main_arg2)) (TW (W main_arg1)) (W main_arg3)) := by
    rw [ops_split, show (hostOps0_3 (F := Ideal)) ++ hostOps0_4 ++ hostOps0_5 = opsRot from rfl]
    rw [StableHlo.after_append, StableHlo.after_append, StableHlo.after_append, StableHlo.after_append]
    rw [tail_v92, flat_v83, flat_arg2, flat_arg3, stack_v80, stack_arg2, stack_arg3,
      lift_v76, lift_v77, lift_v78, lift_v79, lift_arg2, lift_arg3, rot_v73, rot_v74, rot_v75, rot_arg1, rot_arg2, rot_arg3]
    rfl
  rw [hV, last_apply]
  exact tail_apply _ _ _ _ (fun g e => tout_apply _ g e) g o d

end Cert.KernelIdeal.WtK

end
-- ==== Proof.RefRun.lean ====
import proofs.«127918_j12824772346234_1_alg».proof.Proof.Gen.ReferenceIdeal
import Idealize.ShloMosaic.Lib.StableHlo.Run
import Idealize.ShloMosaic.Lib.Pipeline.Regions

/-!
# The reference program as a straight line, and its run

The reference is a host-only program: a straight line of tensor operations, some of them inside
module-local functions called from the entry function. Substituting each callee's body at its call
(over the buffers that call names) gives ONE list of operations, `ops`, cut here in three:

* `opsPre`  — from the input's transpose to the patch matrix `[16, 4096, 577]` (`main_v37`): the zero
  padding, the nine shifted windows stacked and flattened, the time-like coordinate rebuilt from the
  first channel's nine taps, and the concatenation of the two;
* `opsWt`   — the four quarter-turn rotations of the kernel weights stacked, flattened and joined with
  the bias rows and the time-like column into the weight matrix `[4, 65, 577]` (`main_v72`);
* `opsTail` — the contraction of the two over the 577 axis, then the time-like coordinate of the result
  rebuilt from its space-like ones, the transposition and the final reshape (`main_v84`).

The entry function is that line (`main_eq`), so every weakly fair execution terminates with each
buffer holding the fold of the operations' results over the launch contents (`run`); no operation
writes an argument buffer, so the arguments end as launched (`frame`).
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations -/

set_option maxHeartbeats 4000000 in
/-- From the input to the patch matrix: 43 operations, the padding function's two in place of its call. -/
abbrev opsPre : List (HloOp τ sig (Elt F)) :=
  ( StableHlo.unary main_arg0 main_v0 ((transpose S16x65x64x64 [0, 3, 1, 2] · transposes_S16x64x64x65_S16x65x64x64_0_3_1_2) : (⟨S16x64x64x65, .f32⟩ : BufTy).Contents (Elt F) → (⟨S16x65x64x64, .f32⟩ : BufTy).Contents (Elt F))
  :: StableHlo.nullary main_c (constantI S_ 32 0#32)
  :: StableHlo.TRef.unary (.of main_c : StableHlo.TRef sig ⟨S_, .i32⟩) (.of main_call0_v0 : StableHlo.TRef sig ⟨S_, .f32⟩) (sitofp .f32)
  :: StableHlo.TRef.binary (.of main_v0 : StableHlo.TRef sig ⟨S16x65x64x64, .f32⟩) (.of main_call0_v0 : StableHlo.TRef sig ⟨S_, .f32⟩) (.of main_v1 : StableHlo.TRef sig ⟨S16x65x66x66, .f32⟩) (fun x v => pad S16x65x66x66 ![0, 0, 1, 1] ![0, 0, 1, 1] ![0, 0, 0, 0] x v pads_S16x65x64x64_S16x65x66x66_000_000_110_110 h_S_)
  :: StableHlo.unary main_v1 main_v2 ((extractStridedSlice S16x65x64x64 ![0, 0, 0, 0] · slices_S16x65x66x66_S16x65x64x64_0_0_0_0) : (⟨S16x65x66x66, .f32⟩ : BufTy).Contents (Elt F) → (⟨S16x65x64x64, .f32⟩ : BufTy).Contents (Elt F))
  :: StableHlo.unary main_v1 main_v3 ((extractStridedSlice S16x65x64x64 ![0, 0, 0, 1] · slices_S16x65x66x66_S16x65x64x64_0_0_0_1) : (⟨S16x65x66x66, .f32⟩ : BufTy).Contents (Elt F) → (⟨S16x65x64x64, .f32⟩ : BufTy).Contents (Elt F))
  :: StableHlo.unary main_v1 main_v4 ((extractStridedSlice S16x65x64x64 ![0, 0, 0, 2] · slices_S16x65x66x66_S16x65x64x64_0_0_0_2) : (⟨S16x65x66x66, .f32⟩ : BufTy).Contents (Elt F) → (⟨S16x65x64x64, .f32⟩ : BufTy).Contents (Elt F))
  :: StableHlo.unary main_v1 main_v5 ((extractStridedSlice S16x65x64x64 ![0, 0, 1, 0] · slices_S16x65x66x66_S16x65x64x64_0_0_1_0) : (⟨S16x65x66x66, .f32⟩ : BufTy).Contents (Elt F) → (⟨S16x65x64x64, .f32⟩ : BufTy).Contents (Elt F))
  :: StableHlo.unary main_v1 main_v6 ((extractStridedSlice S16x65x64x64 ![0, 0, 1, 1] · slices_S16x65x66x66_S16x65x64x64_0_0_1_1) : (⟨S16x65x66x66, .f32⟩ : BufTy).Contents (Elt F) → (⟨S16x65x64x64, .f32⟩ : BufTy).Contents (Elt F))
  :: StableHlo.unary main_v1 main_v7 ((extractStridedSlice S16x65x64x64 ![0, 0, 1, 2] · slices_S16x65x66x66_S16x65x64x64_0_0_1_2) : (⟨S16x65x66x66, .f32⟩ : BufTy).Contents (Elt F) → (⟨S16x65x64x64, .f32⟩ : BufTy).Contents (Elt F))
  :: StableHlo.unary main_v1 main_v8 ((extractStridedSlice S16x65x64x64 ![0, 0, 2, 0] · slices_S16x65x66x66_S16x65x64x64_0_0_2_0) : (⟨S16x65x66x66, .f32⟩ : BufTy).Contents (Elt F) → (⟨S16x65x64x64, .f32⟩ : BufTy).Contents (Elt F))
  :: StableHlo.unary main_v1 main_v9 ((extractStridedSlice S16x65x64x64 ![0, 0, 2, 1] · slices_S16x65x66x66_S16x65x64x64_0_0_2_1) : (⟨S16x65x66x66, .f32⟩ : BufTy).Contents (Elt F) → (⟨S16x65x64x64, .f32⟩ : BufTy).Contents (Elt F))
  :: StableHlo.unary main_v1 main_v10 ((extractStridedSlice S16x65x64x64 ![0, 0, 2, 2] · slices_S16x65x66x66_S16x65x64x64_0_0_2_2) : (⟨S16x65x66x66, .f32⟩ : BufTy).Contents (Elt F) → (⟨S16x65x64x64, .f32⟩ : BufTy).Contents (Elt F))
  :: StableHlo.unary main_v2 main_v11 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.unary main_v3 main_v12 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.unary main_v4 main_v13 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.unary main_v5 main_v14 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.unary main_v6 main_v15 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.unary main_v7 main_v16 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.unary main_v8 main_v17 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.unary main_v9 main_v18 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.unary main_v10 main_v19 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F))
  :: StableHlo.nary ![main_v11, main_v12, main_v13, main_v14, main_v15, main_v16, main_v17, main_v18, main_v19] main_v20 (fun u => concatenate S16x65x9x64x64 2 [⟨S16x65x1x64x64, u 0⟩, ⟨S16x65x1x64x64, u 1⟩, ⟨S16x65x1x64x64, u 2⟩, ⟨S16x65x1x64x64, u 3⟩, ⟨S16x65x1x64x64, u 4⟩, ⟨S16x65x1x64x64, u 5⟩, ⟨S16x65x1x64x64, u 6⟩, ⟨S16x65x1x64x64, u 7⟩, ⟨S16x65x1x64x64, u 8⟩] concatenates_S16x65x1x64x64_S16x65x1x64x64_S16x65x1x64x64_S16x65x1x64x64_S16x65x1x64x64_S16x65x1x64x64_S16x65x1x64x64_S16x65x1x64x64_S16x65x1x64x64_S16x65x9x64x64_d2)
  :: StableHlo.reshape main_v20 main_v21 rfl shapeCasts_S16x65x9x64x64_S16x585x4096
  :: StableHlo.unary main_v21 main_v22 ((transpose S16x4096x585 [0, 2, 1] · transposes_S16x585x4096_S16x4096x585_0_2_1) : (⟨S16x585x4096, .f32⟩ : BufTy).Contents (Elt F) → (⟨S16x4096x585, .f32⟩ : BufTy).Contents (Elt F))
  :: StableHlo.unary main_v22 main_v23 ((extractStridedSlice S16x4096x9 ![0, 0, 0] · slices_S16x4096x585_S16x4096x9_0_0_0) : (⟨S16x4096x585, .f32⟩ : BufTy).Contents (Elt F) → (⟨S16x4096x9, .f32⟩ : BufTy).Contents (Elt F))
  :: StableHlo.nullary main_cst (constant S_ .f32 0x3F800000#32)
  :: StableHlo.unary main_cst main_v24 (Host.sqrt : (⟨S_, .f32⟩ : BufTy).Contents (Elt F) → (⟨S_, .f32⟩ : BufTy).Contents (Elt F))
  :: StableHlo.unary main_v24 main_v25 (broadcastInDim S16x4096x9 ![] bcast_S_S16x4096x9 : (⟨S_, .f32⟩ : BufTy).Contents (Elt F) → (⟨S16x4096x9, .f32⟩ : BufTy).Contents (Elt F))
  :: StableHlo.binary main_v23 main_v25 main_v26 (maximumf : (⟨S16x4096x9, .f32⟩ : BufTy).Contents (Elt F) → (⟨S16x4096x9, .f32⟩ : BufTy).Contents (Elt F) → (⟨S16x4096x9, .f32⟩ : BufTy).Contents (Elt F))
  :: StableHlo.binary main_v26 main_v26 main_v27 (mulf : (⟨S16x4096x9, .f32⟩ : BufTy).Contents (Elt F) → (⟨S16x4096x9, .f32⟩ : BufTy).Contents (Elt F) → (⟨S16x4096x9, .f32⟩ : BufTy).Contents (Elt F))
  :: StableHlo.nullary main_cst_0 (constant S_ .f32 0x00000000#32)
  :: StableHlo.binary main_v27 main_cst_0 main_v28 ((fun x v => Host.reduceAdd x v reducesTo_S16x4096x9_S16x4096_d2 h_S_) : (⟨S16x4096x9, .f32⟩ : BufTy).Contents (Elt F) → (⟨S_, .f32⟩ : BufTy).Contents (Elt F) → (⟨S16x4096, .f32⟩ : BufTy).Contents (Elt F))
  :: StableHlo.unary main_v28 main_v29 (broadcastInDim S16x4096x1 ![0, 1] bcast_S16x4096_S16x4096x1_0_1 : (⟨S16x4096, .f32⟩ : BufTy).Contents (Elt F) → (⟨S16x4096x1, .f32⟩ : BufTy).Contents (Elt F))
  :: StableHlo.nullary main_cst_1 (constant S_ .f32 0x41000000#32)
  :: StableHlo.unary main_cst_1 main_v30 (broadcastInDim S16x4096x1 ![] bcast_S_S16x4096x1 : (⟨S_, .f32⟩ : BufTy).Contents (Elt F) → (⟨S16x4096x1, .f32⟩ : BufTy).Contents (Elt F))
  :: StableHlo.binary main_v29 main_v30 main_v31 (subf : (⟨S16x4096x1, .f32⟩ : BufTy).Contents (Elt F) → (⟨S16x4096x1, .f32⟩ : BufTy).Contents (Elt F) → (⟨S16x4096x1, .f32⟩ : BufTy).Contents (Elt F))
  :: StableHlo.unary main_v31 main_v32 (Host.sqrt : (⟨S16x4096x1, .f32⟩ : BufTy).Contents (Elt F) → (⟨S16x4096x1, .f32⟩ : BufTy).Contents (Elt F))
  :: StableHlo.unary main_v22 main_v33 ((extractStridedSlice S16x4096x576 ![0, 0, 9] · slices_S16x4096x585_S16x4096x576_0_0_9) : (⟨S16x4096x585, .f32⟩ : BufTy).Contents (Elt F) → (⟨S16x4096x576, .f32⟩ : BufTy).Contents (Elt F))
  :: StableHlo.reshape main_v33 main_v34 rfl shapeCasts_S16x4096x576_S16x4096x64x9
  :: StableHlo.unary main_v34 main_v35 ((transpose S16x4096x9x64 [0, 1, 3, 2] · transposes_S16x4096x64x9_S16x4096x9x64_0_1_3_2) : (⟨S16x4096x64x9, .f32⟩ : BufTy).Contents (Elt F) → (⟨S16x4096x9x64, .f32⟩ : BufTy).Contents (Elt F))
  :: StableHlo.reshape main_v35 main_v36 rfl shapeCasts_S16x4096x9x64_S16x4096x576
  :: StableHlo.binary main_v32 main_v36 main_v37 ((fun a b => concatenate S16x4096x577 2 [⟨S16x4096x1, a⟩, ⟨S16x4096x576, b⟩] concatenates_S16x4096x1_S16x4096x576_S16x4096x577_d2) : (⟨S16x4096x1, .f32⟩ : BufTy).Contents (Elt F) → (⟨S16x4096x576, .f32⟩ : BufTy).Contents (Elt F) → (⟨S16x4096x577, .f32⟩ : BufTy).Contents (Elt F))
  :: [] )

set_option maxHeartbeats 4000000 in
/-- From the kernel weights, the bias and the time-like column to the weight matrix: 45 operations, the three
    non-trivial rotations' two each and the four (identity) rolls' three each in place of their calls; the first
    rotation is the identity and has no operation. -/
abbrev opsWt : List (HloOp τ sig (Elt F)) :=
  ( StableHlo.TRef.unary (.of main_arg1 : StableHlo.TRef sig ⟨S64x64x1x3x3, .f32⟩) (.of main_call2_v0 : StableHlo.TRef sig ⟨S64x64x1x3x3, .f32⟩) (Host.reverse [4])
  :: StableHlo.TRef.unary (.of main_call2_v0 : StableHlo.TRef sig ⟨S64x64x1x3x3, .f32⟩) (.of main_v39 : StableHlo.TRef sig ⟨S64x64x1x3x3, .f32⟩) (transpose S64x64x1x3x3 [0, 1, 2, 4, 3] · transposes_S64x64x1x3x3_S64x64x1x3x3_0_1_2_4_3)
  :: StableHlo.TRef.unary (.of main_arg1 : StableHlo.TRef sig ⟨S64x64x1x3x3, .f32⟩) (.of main_call3_v0 : StableHlo.TRef sig ⟨S64x64x1x3x3, .f32⟩) (Host.reverse [3])
  :: StableHlo.TRef.unary (.of main_call3_v0 : StableHlo.TRef sig ⟨S64x64x1x3x3, .f32⟩) (.of main_v40 : StableHlo.TRef sig ⟨S64x64x1x3x3, .f32⟩) (Host.reverse [4])
  :: StableHlo.TRef.unary (.of main_arg1 : StableHlo.TRef sig ⟨S64x64x1x3x3, .f32⟩) (.of main_call4_v0 : StableHlo.TRef sig ⟨S64x64x1x3x3, .f32⟩) (transpose S64x64x1x3x3 [0, 1, 2, 4, 3] · transposes_S64x64x1x3x3_S64x64x1x3x3_0_1_2_4_3)
  :: StableHlo.TRef.unary (.of main_call4_v0 : StableHlo.TRef sig ⟨S64x64x1x3x3, .f32⟩) (.of main_v41 : StableHlo.TRef sig ⟨S64x64x1x3x3, .f32⟩) (Host.reverse [4])
  :: StableHlo.unary main_arg1 main_v42 (broadcastInDim S64x1x64x1x3x3 ![0, 2, 3, 4, 5] bcast_S64x64x1x3x3_S64x1x64x1x3x3_0_2_3_4_5 : (⟨S64x64x1x3x3, .f32⟩ : BufTy).Contents (Elt F) → (⟨S64x1x64x1x3x3, .f32⟩ : BufTy).Contents (Elt F))
  :: StableHlo.unary main_v39 main_v43 (broadcastInDim S64x1x64x1x3x3 ![0, 2, 3, 4, 5] bcast_S64x64x1x3x3_S64x1x64x1x3x3_0_2_3_4_5 : (⟨S64x64x1x3x3, .f32⟩ : BufTy).Contents (Elt F) → (⟨S64x1x64x1x3x3, .f32⟩ : BufTy).Contents (Elt F))
  :: StableHlo.unary main_v40 main_v44 (broadcastInDim S64x1x64x1x3x3 ![0, 2, 3, 4, 5] bcast_S64x64x1x3x3_S64x1x64x1x3x3_0_2_3_4_5 : (⟨S64x64x1x3x3, .f32⟩ : BufTy).Contents (Elt F) → (⟨S64x1x64x1x3x3, .f32⟩ : BufTy).Contents (Elt F))
  :: StableHlo.unary main_v41 main_v45 (broadcastInDim S64x1x64x1x3x3 ![0, 2, 3, 4, 5] bcast_S64x64x1x3x3_S64x1x64x1x3x3_0_2_3_4_5 : (⟨S64x64x1x3x3, .f32⟩ : BufTy).Contents (Elt F) → (⟨S64x1x64x1x3x3, .f32⟩ : BufTy).Contents (Elt F))
  :: StableHlo.nary ![main_v42, main_v43, main_v44, main_v45] main_v46 (fun u => concatenate S64x4x64x1x3x3 1 [⟨S64x1x64x1x3x3, u 0⟩, ⟨S64x1x64x1x3x3, u 1⟩, ⟨S64x1x64x1x3x3, u 2⟩, ⟨S64x1x64x1x3x3, u 3⟩] concatenates_S64x1x64x1x3x3_S64x1x64x1x3x3_S64x1x64x1x3x3_S64x1x64x1x3x3_S64x4x64x1x3x3_d1)
  :: StableHlo.reshape main_v46 main_v47 rfl shapeCasts_S64x4x64x1x3x3_S64x4x64x1x9
  :: StableHlo.unary main_v47 main_v48 ((transpose S4x64x1x64x9 [1, 0, 3, 2, 4] · transposes_S64x4x64x1x9_S4x64x1x64x9_1_0_3_2_4) : (⟨S64x4x64x1x9, .f32⟩ : BufTy).Contents (Elt F) → (⟨S4x64x1x64x9, .f32⟩ : BufTy).Contents (Elt F))
  :: StableHlo.reshape main_v48 main_v49 rfl shapeCasts_S4x64x1x64x9_S4x64x1x576
  :: StableHlo.unary main_arg2 main_v50 (broadcastInDim S4x1x1x576 ![0, 1, 2, 3] bcast_S1x1x1x576_S4x1x1x576_0_1_2_3 : (⟨S1x1x1x576, .f32⟩ : BufTy).Contents (Elt F) → (⟨S4x1x1x576, .f32⟩ : BufTy).Contents (Elt F))
  :: StableHlo.unary main_v50 main_v51 ((extractStridedSlice S1x1x1x576 ![0, 0, 0, 0] · slices_S4x1x1x576_S1x1x1x576_0_0_0_0) : (⟨S4x1x1x576, .f32⟩ : BufTy).Contents (Elt F) → (⟨S1x1x1x576, .f32⟩ : BufTy).Contents (Elt F))
  :: StableHlo.reshape main_v51 main_v52 rfl shapeCasts_S1x1x1x576_S1x1x576
  :: StableHlo.TRef.unary (.of main_v52 : StableHlo.TRef sig ⟨S1x1x576, .f32⟩) (.of main_call5_v0 : StableHlo.TRef sig ⟨S1x1x576, .f32⟩) (extractStridedSlice S1x1x576 ![0, 0, 0] · slices_S1x1x576_S1x1x576_0_0_0)
  :: StableHlo.TRef.unary (.of main_v52 : StableHlo.TRef sig ⟨S1x1x576, .f32⟩) (.of main_call5_v1 : StableHlo.TRef sig ⟨S1x0x576, .f32⟩) (extractStridedSlice S1x0x576 ![0, 0, 0] · slices_S1x1x576_S1x0x576_0_0_0)
  :: StableHlo.TRef.binary (.of main_call5_v0 : StableHlo.TRef sig ⟨S1x1x576, .f32⟩) (.of main_call5_v1 : StableHlo.TRef sig ⟨S1x0x576, .f32⟩) (.of main_v53 : StableHlo.TRef sig ⟨S1x1x576, .f32⟩) (fun a b => concatenate S1x1x576 1 [⟨S1x1x576, a⟩, ⟨S1x0x576, b⟩] concatenates_S1x1x576_S1x0x576_S1x1x576_d1)
  :: StableHlo.unary main_v50 main_v54 ((extractStridedSlice S1x1x1x576 ![1, 0, 0, 0] · slices_S4x1x1x576_S1x1x1x576_1_0_0_0) : (⟨S4x1x1x576, .f32⟩ : BufTy).Contents (Elt F) → (⟨S1x1x1x576, .f32⟩ : BufTy).Contents (Elt F))
  :: StableHlo.reshape main_v54 main_v55 rfl shapeCasts_S1x1x1x576_S1x1x576
  :: StableHlo.TRef.unary (.of main_v55 : StableHlo.TRef sig ⟨S1x1x576, .f32⟩) (.of main_call6_v0 : StableHlo.TRef sig ⟨S1x1x576, .f32⟩) (extractStridedSlice S1x1x576 ![0, 0, 0] · slices_S1x1x576_S1x1x576_0_0_0)
  :: StableHlo.TRef.unary (.of main_v55 : StableHlo.TRef sig ⟨S1x1x576, .f32⟩) (.of main_call6_v1 : StableHlo.TRef sig ⟨S1x0x576, .f32⟩) (extractStridedSlice S1x0x576 ![0, 0, 0] · slices_S1x1x576_S1x0x576_0_0_0)
  :: StableHlo.TRef.binary (.of main_call6_v0 : StableHlo.TRef sig ⟨S1x1x576, .f32⟩) (.of main_call6_v1 : StableHlo.TRef sig ⟨S1x0x576, .f32⟩) (.of main_v56 : StableHlo.TRef sig ⟨S1x1x576, .f32⟩) (fun a b => concatenate S1x1x576 1 [⟨S1x1x576, a⟩, ⟨S1x0x576, b⟩] concatenates_S1x1x576_S1x0x576_S1x1x576_d1)
  :: StableHlo.unary main_v50 main_v57 ((extractStridedSlice S1x1x1x576 ![2, 0, 0, 0] · slices_S4x1x1x576_S1x1x1x576_2_0_0_0) : (⟨S4x1x1x576, .f32⟩ : BufTy).Contents (Elt F) → (⟨S1x1x1x576, .f32⟩ : BufTy).Contents (Elt F))
  :: StableHlo.reshape main_v57 main_v58 rfl shapeCasts_S1x1x1x576_S1x1x576
  :: StableHlo.TRef.unary (.of main_v58 : StableHlo.TRef sig ⟨S1x1x576, .f32⟩) (.of main_call7_v0 : StableHlo.TRef sig ⟨S1x1x576, .f32⟩) (extractStridedSlice S1x1x576 ![0, 0, 0] · slices_S1x1x576_S1x1x576_0_0_0)
  :: StableHlo.TRef.unary (.of main_v58 : StableHlo.TRef sig ⟨S1x1x576, .f32⟩) (.of main_call7_v1 : StableHlo.TRef sig ⟨S1x0x576, .f32⟩) (extractStridedSlice S1x0x576 ![0, 0, 0] · slices_S1x1x576_S1x0x576_0_0_0)
  :: StableHlo.TRef.binary (.of main_call7_v0 : StableHlo.TRef sig ⟨S1x1x576, .f32⟩) (.of main_call7_v1 : StableHlo.TRef sig ⟨S1x0x576, .f32⟩) (.of main_v59 : StableHlo.TRef sig ⟨S1x1x576, .f32⟩) (fun a b => concatenate S1x1x576 1 [⟨S1x1x576, a⟩, ⟨S1x0x576, b⟩] concatenates_S1x1x576_S1x0x576_S1x1x576_d1)
  :: StableHlo.unary main_v50 main_v60 ((extractStridedSlice S1x1x1x576 ![3, 0, 0, 0] · slices_S4x1x1x576_S1x1x1x576_3_0_0_0) : (⟨S4x1x1x576, .f32⟩ : BufTy).Contents (Elt F) → (⟨S1x1x1x576, .f32⟩ : BufTy).Contents (Elt F))
  :: StableHlo.reshape main_v60 main_v61 rfl shapeCasts_S1x1x1x576_S1x1x576
  :: StableHlo.TRef.unary (.of main_v61 : StableHlo.TRef sig ⟨S1x1x576, .f32⟩) (.of main_call8_v0 : StableHlo.TRef sig ⟨S1x1x576, .f32⟩) (extractStridedSlice S1x1x576 ![0, 0, 0] · slices_S1x1x576_S1x1x576_0_0_0)
  :: StableHlo.TRef.unary (.of main_v61 : StableHlo.TRef sig ⟨S1x1x576, .f32⟩) (.of main_call8_v1 : StableHlo.TRef sig ⟨S1x0x576, .f32⟩) (extractStridedSlice S1x0x576 ![0, 0, 0] · slices_S1x1x576_S1x0x576_0_0_0)
  :: StableHlo.TRef.binary (.of main_call8_v0 : StableHlo.TRef sig ⟨S1x1x576, .f32⟩) (.of main_call8_v1 : StableHlo.TRef sig ⟨S1x0x576, .f32⟩) (.of main_v62 : StableHlo.TRef sig ⟨S1x1x576, .f32⟩) (fun a b => concatenate S1x1x576 1 [⟨S1x1x576, a⟩, ⟨S1x0x576, b⟩] concatenates_S1x1x576_S1x0x576_S1x1x576_d1)
  :: StableHlo.unary main_v53 main_v63 (broadcastInDim S1x1x1x576 ![1, 2, 3] bcast_S1x1x576_S1x1x1x576_1_2_3 : (⟨S1x1x576, .f32⟩ : BufTy).Contents (Elt F) → (⟨S1x1x1x576, .f32⟩ : BufTy).Contents (Elt F))
  :: StableHlo.unary main_v56 main_v64 (broadcastInDim S1x1x1x576 ![1, 2, 3] bcast_S1x1x576_S1x1x1x576_1_2_3 : (⟨S1x1x576, .f32⟩ : BufTy).Contents (Elt F) → (⟨S1x1x1x576, .f32⟩ : BufTy).Contents (Elt F))
  :: StableHlo.unary main_v59 main_v65 (broadcastInDim S1x1x1x576 ![1, 2, 3] bcast_S1x1x576_S1x1x1x576_1_2_3 : (⟨S1x1x576, .f32⟩ : BufTy).Contents (Elt F) → (⟨S1x1x1x576, .f32⟩ : BufTy).Contents (Elt F))
  :: StableHlo.unary main_v62 main_v66 (broadcastInDim S1x1x1x576 ![1, 2, 3] bcast_S1x1x576_S1x1x1x576_1_2_3 : (⟨S1x1x576, .f32⟩ : BufTy).Contents (Elt F) → (⟨S1x1x1x576, .f32⟩ : BufTy).Contents (Elt F))
  :: StableHlo.nary ![main_v63, main_v64, main_v65, main_v66] main_v67 (fun u => concatenate S4x1x1x576 0 [⟨S1x1x1x576, u 0⟩, ⟨S1x1x1x576, u 1⟩, ⟨S1x1x1x576, u 2⟩, ⟨S1x1x1x576, u 3⟩] concatenates_S1x1x1x576_S1x1x1x576_S1x1x1x576_S1x1x1x576_S4x1x1x576_d0)
  :: StableHlo.binary main_v67 main_v49 main_v68 ((fun a b => concatenate S4x65x1x576 1 [⟨S4x1x1x576, a⟩, ⟨S4x64x1x576, b⟩] concatenates_S4x1x1x576_S4x64x1x576_S4x65x1x576_d1) : (⟨S4x1x1x576, .f32⟩ : BufTy).Contents (Elt F) → (⟨S4x64x1x576, .f32⟩ : BufTy).Contents (Elt F) → (⟨S4x65x1x576, .f32⟩ : BufTy).Contents (Elt F))
  :: StableHlo.reshape main_v68 main_v69 rfl shapeCasts_S4x65x1x576_S4x65x576
  :: StableHlo.unary main_arg3 main_v70 (broadcastInDim S1x65x1 ![1, 2] bcast_S65x1_S1x65x1_1_2 : (⟨S65x1, .f32⟩ : BufTy).Contents (Elt F) → (⟨S1x65x1, .f32⟩ : BufTy).Contents (Elt F))
  :: StableHlo.unary main_v70 main_v71 (broadcastInDim S4x65x1 ![0, 1, 2] bcast_S1x65x1_S4x65x1_0_1_2 : (⟨S1x65x1, .f32⟩ : BufTy).Contents (Elt F) → (⟨S4x65x1, .f32⟩ : BufTy).Contents (Elt F))
  :: StableHlo.binary main_v71 main_v69 main_v72 ((fun a b => concatenate S4x65x577 2 [⟨S4x65x1, a⟩, ⟨S4x65x576, b⟩] concatenates_S4x65x1_S4x65x576_S4x65x577_d2) : (⟨S4x65x1, .f32⟩ : BufTy).Contents (Elt F) → (⟨S4x65x576, .f32⟩ : BufTy).Contents (Elt F) → (⟨S4x65x577, .f32⟩ : BufTy).Contents (Elt F))
  :: [] )

set_option maxHeartbeats 4000000 in
/-- The contraction and what follows it, to the result: 14 operations. -/
abbrev opsTail : List (HloOp τ sig (Elt F)) :=
  ( StableHlo.binary main_v72 main_v37 main_v73 ((fun l r => Host.dotGeneral dot_S4x65x577_S16x4096x577_S4x65x16x4096_2_2_01_01_n_n none l r) : (⟨S4x65x577, .f32⟩ : BufTy).Contents (Elt F) → (⟨S16x4096x577, .f32⟩ : BufTy).Contents (Elt F) → (⟨S4x65x16x4096, .f32⟩ : BufTy).Contents (Elt F))
  :: StableHlo.unary main_v73 main_v74 ((transpose S4x16x4096x65 [0, 2, 3, 1] · transposes_S4x65x16x4096_S4x16x4096x65_0_2_3_1) : (⟨S4x65x16x4096, .f32⟩ : BufTy).Contents (Elt F) → (⟨S4x16x4096x65, .f32⟩ : BufTy).Contents (Elt F))
  :: StableHlo.unary main_v74 main_v75 ((extractStridedSlice S4x16x4096x64 ![0, 0, 0, 1] · slices_S4x16x4096x65_S4x16x4096x64_0_0_0_1) : (⟨S4x16x4096x65, .f32⟩ : BufTy).Contents (Elt F) → (⟨S4x16x4096x64, .f32⟩ : BufTy).Contents (Elt F))
  :: StableHlo.binary main_v75 main_v75 main_v76 (mulf : (⟨S4x16x4096x64, .f32⟩ : BufTy).Contents (Elt F) → (⟨S4x16x4096x64, .f32⟩ : BufTy).Contents (Elt F) → (⟨S4x16x4096x64, .f32⟩ : BufTy).Contents (Elt F))
  :: StableHlo.nullary main_cst_2 (constant S_ .f32 0x00000000#32)
  :: StableHlo.binary main_v76 main_cst_2 main_v77 ((fun x v => Host.reduceAdd x v reducesTo_S4x16x4096x64_S4x16x4096_d3 h_S_) : (⟨S4x16x4096x64, .f32⟩ : BufTy).Contents (Elt F) → (⟨S_, .f32⟩ : BufTy).Contents (Elt F) → (⟨S4x16x4096, .f32⟩ : BufTy).Contents (Elt F))
  :: StableHlo.unary main_v77 main_v78 (broadcastInDim S4x16x4096x1 ![0, 1, 2] bcast_S4x16x4096_S4x16x4096x1_0_1_2 : (⟨S4x16x4096, .f32⟩ : BufTy).Contents (Elt F) → (⟨S4x16x4096x1, .f32⟩ : BufTy).Contents (Elt F))
  :: StableHlo.nullary main_cst_3 (constant S_ .f32 0x3F800000#32)
  :: StableHlo.unary main_cst_3 main_v79 (broadcastInDim S4x16x4096x1 ![] bcast_S_S4x16x4096x1 : (⟨S_, .f32⟩ : BufTy).Contents (Elt F) → (⟨S4x16x4096x1, .f32⟩ : BufTy).Contents (Elt F))
  :: StableHlo.binary main_v79 main_v78 main_v80 (addf : (⟨S4x16x4096x1, .f32⟩ : BufTy).Contents (Elt F) → (⟨S4x16x4096x1, .f32⟩ : BufTy).Contents (Elt F) → (⟨S4x16x4096x1, .f32⟩ : BufTy).Contents (Elt F))
  :: StableHlo.unary main_v80 main_v81 (Host.sqrt : (⟨S4x16x4096x1, .f32⟩ : BufTy).Contents (Elt F) → (⟨S4x16x4096x1, .f32⟩ : BufTy).Contents (Elt F))
  :: StableHlo.binary main_v81 main_v75 main_v82 ((fun a b => concatenate S4x16x4096x65 3 [⟨S4x16x4096x1, a⟩, ⟨S4x16x4096x64, b⟩] concatenates_S4x16x4096x1_S4x16x4096x64_S4x16x4096x65_d3) : (⟨S4x16x4096x1, .f32⟩ : BufTy).Contents (Elt F) → (⟨S4x16x4096x64, .f32⟩ : BufTy).Contents (Elt F) → (⟨S4x16x4096x65, .f32⟩ : BufTy).Contents (Elt F))
  :: StableHlo.unary main_v82 main_v83 ((transpose S16x4x4096x65 [1, 0, 2, 3] · transposes_S4x16x4096x65_S16x4x4096x65_1_0_2_3) : (⟨S4x16x4096x65, .f32⟩ : BufTy).Contents (Elt F) → (⟨S16x4x4096x65, .f32⟩ : BufTy).Contents (Elt F))
  :: StableHlo.reshape main_v83 main_v84 rfl shapeCasts_S16x4x4096x65_S16x4x64x64x65
  :: [] )

/-- The whole line. -/
abbrev ops : List (HloOp τ sig (Elt F)) := opsPre ++ opsWt ++ opsTail

/-! The weights' stretch once more, cut where the printed entry function is cut in two windows. -/

set_option maxHeartbeats 4000000 in
/-- The first 22 operations of `opsWt` (the first window's share). -/
abbrev opsWtA : List (HloOp τ sig (Elt F)) :=
  ( StableHlo.TRef.unary (.of main_arg1 : StableHlo.TRef sig ⟨S64x64x1x3x3, .f32⟩) (.of main_call2_v0 : StableHlo.TRef sig ⟨S64x64x1x3x3, .f32⟩) (Host.reverse [4])
  :: StableHlo.TRef.unary (.of main_call2_v0 : StableHlo.TRef sig ⟨S64x64x1x3x3, .f32⟩) (.of main_v39 : StableHlo.TRef sig ⟨S64x64x1x3x3, .f32⟩) (transpose S64x64x1x3x3 [0, 1, 2, 4, 3] · transposes_S64x64x1x3x3_S64x64x1x3x3_0_1_2_4_3)
  :: StableHlo.TRef.unary (.of main_arg1 : StableHlo.TRef sig ⟨S64x64x1x3x3, .f32⟩) (.of main_call3_v0 : StableHlo.TRef sig ⟨S64x64x1x3x3, .f32⟩) (Host.reverse [3])
  :: StableHlo.TRef.unary (.of main_call3_v0 : StableHlo.TRef sig ⟨S64x64x1x3x3, .f32⟩) (.of main_v40 : StableHlo.TRef sig ⟨S64x64x1x3x3, .f32⟩) (Host.reverse [4])
  :: StableHlo.TRef.unary (.of main_arg1 : StableHlo.TRef sig ⟨S64x64x1x3x3, .f32⟩) (.of main_call4_v0 : StableHlo.TRef sig ⟨S64x64x1x3x3, .f32⟩) (transpose S64x64x1x3x3 [0, 1, 2, 4, 3] · transposes_S64x64x1x3x3_S64x64x1x3x3_0_1_2_4_3)
  :: StableHlo.TRef.unary (.of main_call4_v0 : StableHlo.TRef sig ⟨S64x64x1x3x3, .f32⟩) (.of main_v41 : StableHlo.TRef sig ⟨S64x64x1x3x3, .f32⟩) (Host.reverse [4])
  :: StableHlo.unary main_arg1 main_v42 (broadcastInDim S64x1x64x1x3x3 ![0, 2, 3, 4, 5] bcast_S64x64x1x3x3_S64x1x64x1x3x3_0_2_3_4_5 : (⟨S64x64x1x3x3, .f32⟩ : BufTy).Contents (Elt F) → (⟨S64x1x64x1x3x3, .f32⟩ : BufTy).Contents (Elt F))
  :: StableHlo.unary main_v39 main_v43 (broadcastInDim S64x1x64x1x3x3 ![0, 2, 3, 4, 5] bcast_S64x64x1x3x3_S64x1x64x1x3x3_0_2_3_4_5 : (⟨S64x64x1x3x3, .f32⟩ : BufTy).Contents (Elt F) → (⟨S64x1x64x1x3x3, .f32⟩ : BufTy).Contents (Elt F))
  :: StableHlo.unary main_v40 main_v44 (broadcastInDim S64x1x64x1x3x3 ![0, 2, 3, 4, 5] bcast_S64x64x1x3x3_S64x1x64x1x3x3_0_2_3_4_5 : (⟨S64x64x1x3x3, .f32⟩ : BufTy).Contents (Elt F) → (⟨S64x1x64x1x3x3, .f32⟩ : BufTy).Contents (Elt F))
  :: StableHlo.unary main_v41 main_v45 (broadcastInDim S64x1x64x1x3x3 ![0, 2, 3, 4, 5] bcast_S64x64x1x3x3_S64x1x64x1x3x3_0_2_3_4_5 : (⟨S64x64x1x3x3, .f32⟩ : BufTy).Contents (Elt F) → (⟨S64x1x64x1x3x3, .f32⟩ : BufTy).Contents (Elt F))
  :: StableHlo.nary ![main_v42, main_v43, main_v44, main_v45] main_v46 (fun u => concatenate S64x4x64x1x3x3 1 [⟨S64x1x64x1x3x3, u 0⟩, ⟨S64x1x64x1x3x3, u 1⟩, ⟨S64x1x64x1x3x3, u 2⟩, ⟨S64x1x64x1x3x3, u 3⟩] concatenates_S64x1x64x1x3x3_S64x1x64x1x3x3_S64x1x64x1x3x3_S64x1x64x1x3x3_S64x4x64x1x3x3_d1)
  :: StableHlo.reshape main_v46 main_v47 rfl shapeCasts_S64x4x64x1x3x3_S64x4x64x1x9
  :: StableHlo.unary main_v47 main_v48 ((transpose S4x64x1x64x9 [1, 0, 3, 2, 4] · transposes_S64x4x64x1x9_S4x64x1x64x9_1_0_3_2_4) : (⟨S64x4x64x1x9, .f32⟩ : BufTy).Contents (Elt F) → (⟨S4x64x1x64x9, .f32⟩ : BufTy).Contents (Elt F))
  :: StableHlo.reshape main_v48 main_v49 rfl shapeCasts_S4x64x1x64x9_S4x64x1x576
  :: StableHlo.unary main_arg2 main_v50 (broadcastInDim S4x1x1x576 ![0, 1, 2, 3] bcast_S1x1x1x576_S4x1x1x576_0_1_2_3 : (⟨S1x1x1x576, .f32⟩ : BufTy).Contents (Elt F) → (⟨S4x1x1x576, .f32⟩ : BufTy).Contents (Elt F))
  :: StableHlo.unary main_v50 main_v51 ((extractStridedSlice S1x1x1x576 ![0, 0, 0, 0] · slices_S4x1x1x576_S1x1x1x576_0_0_0_0) : (⟨S4x1x1x576, .f32⟩ : BufTy).Contents (Elt F) → (⟨S1x1x1x576, .f32⟩ : BufTy).Contents (Elt F))
  :: StableHlo.reshape main_v51 main_v52 rfl shapeCasts_S1x1x1x576_S1x1x576
  :: StableHlo.TRef.unary (.of main_v52 : StableHlo.TRef sig ⟨S1x1x576, .f32⟩) (.of main_call5_v0 : StableHlo.TRef sig ⟨S1x1x576, .f32⟩) (extractStridedSlice S1x1x576 ![0, 0, 0] · slices_S1x1x576_S1x1x576_0_0_0)
  :: StableHlo.TRef.unary (.of main_v52 : StableHlo.TRef sig ⟨S1x1x576, .f32⟩) (.of main_call5_v1 : StableHlo.TRef sig ⟨S1x0x576, .f32⟩) (extractStridedSlice S1x0x576 ![0, 0, 0] · slices_S1x1x576_S1x0x576_0_0_0)
  :: StableHlo.TRef.binary (.of main_call5_v0 : StableHlo.TRef sig ⟨S1x1x576, .f32⟩) (.of main_call5_v1 : StableHlo.TRef sig ⟨S1x0x576, .f32⟩) (.of main_v53 : StableHlo.TRef sig ⟨S1x1x576, .f32⟩) (fun a b => concatenate S1x1x576 1 [⟨S1x1x576, a⟩, ⟨S1x0x576, b⟩] concatenates_S1x1x576_S1x0x576_S1x1x576_d1)
  :: StableHlo.unary main_v50 main_v54 ((extractStridedSlice S1x1x1x576 ![1, 0, 0, 0] · slices_S4x1x1x576_S1x1x1x576_1_0_0_0) : (⟨S4x1x1x576, .f32⟩ : BufTy).Contents (Elt F) → (⟨S1x1x1x576, .f32⟩ : BufTy).Contents (Elt F))
  :: StableHlo.reshape main_v54 main_v55 rfl shapeCasts_S1x1x1x576_S1x1x576
  :: [] )

set_option maxHeartbeats 4000000 in
/-- The last 23 operations of `opsWt` (the second window's share). -/
abbrev opsWtB : List (HloOp τ sig (Elt F)) :=
  ( StableHlo.TRef.unary (.of main_v55 : StableHlo.TRef sig ⟨S1x1x576, .f32⟩) (.of main_call6_v0 : StableHlo.TRef sig ⟨S1x1x576, .f32⟩) (extractStridedSlice S1x1x576 ![0, 0, 0] · slices_S1x1x576_S1x1x576_0_0_0)
  :: StableHlo.TRef.unary (.of main_v55 : StableHlo.TRef sig ⟨S1x1x576, .f32⟩) (.of main_call6_v1 : StableHlo.TRef sig ⟨S1x0x576, .f32⟩) (extractStridedSlice S1x0x576 ![0, 0, 0] · slices_S1x1x576_S1x0x576_0_0_0)
  :: StableHlo.TRef.binary (.of main_call6_v0 : StableHlo.TRef sig ⟨S1x1x576, .f32⟩) (.of main_call6_v1 : StableHlo.TRef sig ⟨S1x0x576, .f32⟩) (.of main_v56 : StableHlo.TRef sig ⟨S1x1x576, .f32⟩) (fun a b => concatenate S1x1x576 1 [⟨S1x1x576, a⟩, ⟨S1x0x576, b⟩] concatenates_S1x1x576_S1x0x576_S1x1x576_d1)
  :: StableHlo.unary main_v50 main_v57 ((extractStridedSlice S1x1x1x576 ![2, 0, 0, 0] · slices_S4x1x1x576_S1x1x1x576_2_0_0_0) : (⟨S4x1x1x576, .f32⟩ : BufTy).Contents (Elt F) → (⟨S1x1x1x576, .f32⟩ : BufTy).Contents (Elt F))
  :: StableHlo.reshape main_v57 main_v58 rfl shapeCasts_S1x1x1x576_S1x1x576
  :: StableHlo.TRef.unary (.of main_v58 : StableHlo.TRef sig ⟨S1x1x576, .f32⟩) (.of main_call7_v0 : StableHlo.TRef sig ⟨S1x1x576, .f32⟩) (extractStridedSlice S1x1x576 ![0, 0, 0] · slices_S1x1x576_S1x1x576_0_0_0)
  :: StableHlo.TRef.unary (.of main_v58 : StableHlo.TRef sig ⟨S1x1x576, .f32⟩) (.of main_call7_v1 : StableHlo.TRef sig ⟨S1x0x576, .f32⟩) (extractStridedSlice S1x0x576 ![0, 0, 0] · slices_S1x1x576_S1x0x576_0_0_0)
  :: StableHlo.TRef.binary (.of main_call7_v0 : StableHlo.TRef sig ⟨S1x1x576, .f32⟩) (.of main_call7_v1 : StableHlo.TRef sig ⟨S1x0x576, .f32⟩) (.of main_v59 : StableHlo.TRef sig ⟨S1x1x576, .f32⟩) (fun a b => concatenate S1x1x576 1 [⟨S1x1x576, a⟩, ⟨S1x0x576, b⟩] concatenates_S1x1x576_S1x0x576_S1x1x576_d1)
  :: StableHlo.unary main_v50 main_v60 ((extractStridedSlice S1x1x1x576 ![3, 0, 0, 0] · slices_S4x1x1x576_S1x1x1x576_3_0_0_0) : (⟨S4x1x1x576, .f32⟩ : BufTy).Contents (Elt F) → (⟨S1x1x1x576, .f32⟩ : BufTy).Contents (Elt F))
  :: StableHlo.reshape main_v60 main_v61 rfl shapeCasts_S1x1x1x576_S1x1x576
  :: StableHlo.TRef.unary (.of main_v61 : StableHlo.TRef sig ⟨S1x1x576, .f32⟩) (.of main_call8_v0 : StableHlo.TRef sig ⟨S1x1x576, .f32⟩) (extractStridedSlice S1x1x576 ![0, 0, 0] · slices_S1x1x576_S1x1x576_0_0_0)
  :: StableHlo.TRef.unary (.of main_v61 : StableHlo.TRef sig ⟨S1x1x576, .f32⟩) (.of main_call8_v1 : StableHlo.TRef sig ⟨S1x0x576, .f32⟩) (extractStridedSlice S1x0x576 ![0, 0, 0] · slices_S1x1x576_S1x0x576_0_0_0)
  :: StableHlo.TRef.binary (.of main_call8_v0 : StableHlo.TRef sig ⟨S1x1x576, .f32⟩) (.of main_call8_v1 : StableHlo.TRef sig ⟨S1x0x576, .f32⟩) (.of main_v62 : StableHlo.TRef sig ⟨S1x1x576, .f32⟩) (fun a b => concatenate S1x1x576 1 [⟨S1x1x576, a⟩, ⟨S1x0x576, b⟩] concatenates_S1x1x576_S1x0x576_S1x1x576_d1)
  :: StableHlo.unary main_v53 main_v63 (broadcastInDim S1x1x1x576 ![1, 2, 3] bcast_S1x1x576_S1x1x1x576_1_2_3 : (⟨S1x1x576, .f32⟩ : BufTy).Contents (Elt F) → (⟨S1x1x1x576, .f32⟩ : BufTy).Contents (Elt F))
  :: StableHlo.unary main_v56 main_v64 (broadcastInDim S1x1x1x576 ![1, 2, 3] bcast_S1x1x576_S1x1x1x576_1_2_3 : (⟨S1x1x576, .f32⟩ : BufTy).Contents (Elt F) → (⟨S1x1x1x576, .f32⟩ : BufTy).Contents (Elt F))
  :: StableHlo.unary main_v59 main_v65 (broadcastInDim S1x1x1x576 ![1, 2, 3] bcast_S1x1x576_S1x1x1x576_1_2_3 : (⟨S1x1x576, .f32⟩ : BufTy).Contents (Elt F) → (⟨S1x1x1x576, .f32⟩ : BufTy).Contents (Elt F))
  :: StableHlo.unary main_v62 main_v66 (broadcastInDim S1x1x1x576 ![1, 2, 3] bcast_S1x1x576_S1x1x1x576_1_2_3 : (⟨S1x1x576, .f32⟩ : BufTy).Contents (Elt F) → (⟨S1x1x1x576, .f32⟩ : BufTy).Contents (Elt F))
  :: StableHlo.nary ![main_v63, main_v64, main_v65, main_v66] main_v67 (fun u => concatenate S4x1x1x576 0 [⟨S1x1x1x576, u 0⟩, ⟨S1x1x1x576, u 1⟩, ⟨S1x1x1x576, u 2⟩, ⟨S1x1x1x576, u 3⟩] concatenates_S1x1x1x576_S1x1x1x576_S1x1x1x576_S1x1x1x576_S4x1x1x576_d0)
  :: StableHlo.binary main_v67 main_v49 main_v68 ((fun a b => concatenate S4x65x1x576 1 [⟨S4x1x1x576, a⟩, ⟨S4x64x1x576, b⟩] concatenates_S4x1x1x576_S4x64x1x576_S4x65x1x576_d1) : (⟨S4x1x1x576, .f32⟩ : BufTy).Contents (Elt F) → (⟨S4x64x1x576, .f32⟩ : BufTy).Contents (Elt F) → (⟨S4x65x1x576, .f32⟩ : BufTy).Contents (Elt F))
  :: StableHlo.reshape main_v68 main_v69 rfl shapeCasts_S4x65x1x576_S4x65x576
  :: StableHlo.unary main_arg3 main_v70 (broadcastInDim S1x65x1 ![1, 2] bcast_S65x1_S1x65x1_1_2 : (⟨S65x1, .f32⟩ : BufTy).Contents (Elt F) → (⟨S1x65x1, .f32⟩ : BufTy).Contents (Elt F))
  :: StableHlo.unary main_v70 main_v71 (broadcastInDim S4x65x1 ![0, 1, 2] bcast_S1x65x1_S4x65x1_0_1_2 : (⟨S1x65x1, .f32⟩ : BufTy).Contents (Elt F) → (⟨S4x65x1, .f32⟩ : BufTy).Contents (Elt F))
  :: StableHlo.binary main_v71 main_v69 main_v72 ((fun a b => concatenate S4x65x577 2 [⟨S4x65x1, a⟩, ⟨S4x65x576, b⟩] concatenates_S4x65x1_S4x65x576_S4x65x577_d2) : (⟨S4x65x1, .f32⟩ : BufTy).Contents (Elt F) → (⟨S4x65x576, .f32⟩ : BufTy).Contents (Elt F) → (⟨S4x65x577, .f32⟩ : BufTy).Contents (Elt F))
  :: [] )

theorem opsWt_split : (opsWt : List (HloOp τ sig (Elt F))) = opsWtA ++ opsWtB := rfl

/-! ## Every operation touches TensorCore references only -/

set_option maxHeartbeats 4000000 in
theorem opsPre_sub : (opsPre : List (HloOp τ sig (Elt F))).Forall fun op => op.bufs ⊆ tcRefs τ sig :=
  ⟨unary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., unary_bufs_sub .., nullary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., reshape_bufs_sub .., unary_bufs_sub .., reshape_bufs_sub .., binary_bufs_sub ..⟩

set_option maxHeartbeats 4000000 in
theorem opsWt_sub : (opsWt : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., reshape_bufs_sub .., unary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., unary_bufs_sub .., unary_bufs_sub .., unary_bufs_sub .., nary_bufs_sub .., binary_bufs_sub .., reshape_bufs_sub .., unary_bufs_sub .., unary_bufs_sub .., binary_bufs_sub ..⟩

set_option maxHeartbeats 4000000 in
theorem opsTail_sub : (opsTail : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., unary_bufs_sub .., reshape_bufs_sub ..⟩

/-- A property of every element of two lists holds of every element of their concatenation. -/
theorem forall_append {α : Type} {p : α → Prop} {l₁ l₂ : List α} (h₁ : l₁.Forall p) (h₂ : l₂.Forall p) : (l₁ ++ l₂).Forall p :=
  List.forall_iff_forall_mem.mpr fun a ha => (List.mem_append.mp ha).elim
    (List.forall_iff_forall_mem.mp h₁ a) (List.forall_iff_forall_mem.mp h₂ a)

theorem ops_sub : (ops : List (HloOp τ sig (Elt F))).Forall fun op => op.bufs ⊆ tcRefs τ sig :=
  forall_append (forall_append opsPre_sub opsWt_sub) opsTail_sub

/-! ## The entry function is the line

The printed entry function runs its statements in two windows. Each window is the straight line of its share of
the operations: a call is its callee's body over the buffers the call names, and sequencing re-associates, both by
unfolding definitions, so the two sides are the same chain of steps and the identity is checked by computation. -/

/-- The first window is the line `opsPre` then the first share of `opsWt`. -/
theorem part0_eq (c : Dev nD) : main_part0 (F := F) c = seq (opsPre ++ opsWtA) := by
  chain_rfl

/-- The second window is the second share of `opsWt` then `opsTail`. -/
theorem part1_eq (c : Dev nD) : main_part1 (F := F) c = seq (opsWtB ++ opsTail) := by
  chain_rfl

/-- The entry function is the whole line: the two windows in sequence are the line of the concatenation
    (`seq_append`), and the concatenation is `ops` up to re-bracketing. -/
theorem main_eq (c : Dev nD) : main (F := F) c = seq ops := by
  show (main_part0 (F := F) c >>= fun _ => main_part1 (F := F) c) = _
  rw [part0_eq, part1_eq, ← seq_append]
  refine congrArg seq ?_
  show _ = opsPre ++ opsWt ++ opsTail
  rw [opsWt_split]
  simp only [List.append_assoc]

/-! ## The fold over the line, cut in three, and what each part leaves alone -/

/-- The fold over a concatenation is the fold over the second list from the fold over the first. -/
theorem after_append (l₁ l₂ : List (HloOp τ sig (Elt F))) (W : Valuation τ sig (Elt F)) :
    after (l₁ ++ l₂) W = after l₂ (after l₁ W) := by
  induction l₁ generalizing W with
  | nil => rfl
  | cons op l ih => simp only [List.cons_append, after_cons, ih]

/-- The contents after the whole line: after `opsTail`, from those after `opsWt`, from those after `opsPre`. -/
theorem after_ops (W : Valuation τ sig (Elt F)) :
    after ops W = after opsTail (after opsWt (after opsPre W)) := by
  show after (opsPre ++ opsWt ++ opsTail) W = _
  rw [after_append, after_append]

/-- A reference that is not the result reference of any operation of a line keeps its contents along the line;
    `ws` lists, in order, the one reference each operation writes. -/
theorem after_keeps {l : List (HloOp τ sig (Elt F))} {ws : List (Ref sig .tc)}
    (h : l.map (fun op => op.writes) = ws.map fun y => ({Proc.devRef .tc y} : Finset (DevRef τ sig)))
    {r : Ref sig .tc} (hr : r ∉ ws) (W : Valuation τ sig (Elt F)) :
    after l W (Proc.devRef .tc r) = W (Proc.devRef .tc r) :=
  after_of_forall_not_mem l W fun op hop hb => by
    have hm : op.writes ∈ ws.map fun y => ({Proc.devRef .tc y} : Finset (DevRef τ sig)) :=
      h ▸ List.mem_map.mpr ⟨op, hop, rfl⟩
    obtain ⟨y, hy, he⟩ := List.mem_map.mp hm
    rw [← he, Finset.mem_singleton] at hb
    exact hr (Proc.devRef_injective _ hb ▸ hy)

/-- The reference each operation of `opsPre` writes, in order. -/
abbrev wsPre : List (Ref sig .tc) :=
  [main_v0, main_c, main_call0_v0, main_v1, main_v2, main_v3, main_v4, main_v5, main_v6, main_v7, main_v8, main_v9, main_v10, main_v11, main_v12, main_v13, main_v14, main_v15, main_v16, main_v17, main_v18, main_v19, main_v20, main_v21, main_v22, main_v23, main_cst, main_v24, main_v25, main_v26, main_v27, main_cst_0, main_v28, main_v29, main_cst_1, main_v30, main_v31, main_v32, main_v33, main_v34, main_v35, main_v36, main_v37]

/-- The reference each operation of `opsWt` writes, in order. -/
abbrev wsWt : List (Ref sig .tc) :=
  [main_call2_v0, main_v39, main_call3_v0, main_v40, main_call4_v0, main_v41, main_v42, main_v43, main_v44, main_v45, main_v46, main_v47, main_v48, main_v49, main_v50, main_v51, main_v52, main_call5_v0, main_call5_v1, main_v53, main_v54, main_v55, main_call6_v0, main_call6_v1, main_v56, main_v57, main_v58, main_call7_v0, main_call7_v1, main_v59, main_v60, main_v61, main_call8_v0, main_call8_v1, main_v62, main_v63, main_v64, main_v65, main_v66, main_v67, main_v68, main_v69, main_v70, main_v71, main_v72]

/-- The reference each operation of `opsTail` writes, in order. -/
abbrev wsTail : List (Ref sig .tc) :=
  [main_v73, main_v74, main_v75, main_v76, main_cst_2, main_v77, main_v78, main_cst_3, main_v79, main_v80, main_v81, main_v82, main_v83, main_v84]

theorem opsPre_writes : (opsPre : List (HloOp τ sig (Elt F))).map (fun op => op.writes)
    = wsPre.map fun y => ({Proc.devRef .tc y} : Finset (DevRef τ sig)) := rfl
theorem opsWt_writes : (opsWt : List (HloOp τ sig (Elt F))).map (fun op => op.writes)
    = wsWt.map fun y => ({Proc.devRef .tc y} : Finset (DevRef τ sig)) := rfl
theorem opsTail_writes : (opsTail : List (HloOp τ sig (Elt F))).map (fun op => op.writes)
    = wsTail.map fun y => ({Proc.devRef .tc y} : Finset (DevRef τ sig)) := rfl

/-- `opsPre` leaves every reference it does not write as it was. -/
theorem opsPre_keeps {r : Ref sig .tc} (hr : r ∉ wsPre) (W : Valuation τ sig (Elt F)) :
    after opsPre W r = W r := after_keeps opsPre_writes hr W
/-- `opsWt` leaves every reference it does not write as it was. -/
theorem opsWt_keeps {r : Ref sig .tc} (hr : r ∉ wsWt) (W : Valuation τ sig (Elt F)) :
    after opsWt W r = W r := after_keeps opsWt_writes hr W
/-- `opsTail` leaves every reference it does not write as it was. -/
theorem opsTail_keeps {r : Ref sig .tc} (hr : r ∉ wsTail) (W : Valuation τ sig (Elt F)) :
    after opsTail W r = W r := after_keeps opsTail_writes hr W

/-! The instances the composition of the three parts uses: no part writes an argument; the patch matrix is final
    after `opsPre`, the weight matrix after `opsWt`. -/
theorem opsPre_keeps_arg0 (W : Valuation τ sig (Elt F)) : after opsPre W main_arg0 = W main_arg0 := opsPre_keeps (by decide) W
theorem opsPre_keeps_arg1 (W : Valuation τ sig (Elt F)) : after opsPre W main_arg1 = W main_arg1 := opsPre_keeps (by decide) W
theorem opsPre_keeps_arg2 (W : Valuation τ sig (Elt F)) : after opsPre W main_arg2 = W main_arg2 := opsPre_keeps (by decide) W
theorem opsPre_keeps_arg3 (W : Valuation τ sig (Elt F)) : after opsPre W main_arg3 = W main_arg3 := opsPre_keeps (by decide) W
theorem opsWt_keeps_arg0 (W : Valuation τ sig (Elt F)) : after opsWt W main_arg0 = W main_arg0 := opsWt_keeps (by decide) W
theorem opsWt_keeps_arg1 (W : Valuation τ sig (Elt F)) : after opsWt W main_arg1 = W main_arg1 := opsWt_keeps (by decide) W
theorem opsWt_keeps_arg2 (W : Valuation τ sig (Elt F)) : after opsWt W main_arg2 = W main_arg2 := opsWt_keeps (by decide) W
theorem opsWt_keeps_arg3 (W : Valuation τ sig (Elt F)) : after opsWt W main_arg3 = W main_arg3 := opsWt_keeps (by decide) W
theorem opsWt_keeps_v37 (W : Valuation τ sig (Elt F)) : after opsWt W main_v37 = W main_v37 := opsWt_keeps (by decide) W
theorem opsTail_keeps_arg0 (W : Valuation τ sig (Elt F)) : after opsTail W main_arg0 = W main_arg0 := opsTail_keeps (by decide) W
theorem opsTail_keeps_arg1 (W : Valuation τ sig (Elt F)) : after opsTail W main_arg1 = W main_arg1 := opsTail_keeps (by decide) W
theorem opsTail_keeps_arg2 (W : Valuation τ sig (Elt F)) : after opsTail W main_arg2 = W main_arg2 := opsTail_keeps (by decide) W
theorem opsTail_keeps_arg3 (W : Valuation τ sig (Elt F)) : after opsTail W main_arg3 = W main_arg3 := opsTail_keeps (by decide) W
theorem opsTail_keeps_v37 (W : Valuation τ sig (Elt F)) : after opsTail W main_v37 = W main_v37 := opsTail_keeps (by decide) W
theorem opsTail_keeps_v72 (W : Valuation τ sig (Elt F)) : after opsTail W main_v72 = W main_v72 := opsTail_keeps (by decide) W

/-- The whole line writes no argument. -/
theorem ops_keeps_arg0 (W : Valuation τ sig (Elt F)) : after ops W main_arg0 = W main_arg0 := by
  rw [after_ops, opsTail_keeps_arg0, opsWt_keeps_arg0, opsPre_keeps_arg0]
theorem ops_keeps_arg1 (W : Valuation τ sig (Elt F)) : after ops W main_arg1 = W main_arg1 := by
  rw [after_ops, opsTail_keeps_arg1, opsWt_keeps_arg1, opsPre_keeps_arg1]
theorem ops_keeps_arg2 (W : Valuation τ sig (Elt F)) : after ops W main_arg2 = W main_arg2 := by
  rw [after_ops, opsTail_keeps_arg2, opsWt_keeps_arg2, opsPre_keeps_arg2]
theorem ops_keeps_arg3 (W : Valuation τ sig (Elt F)) : after ops W main_arg3 = W main_arg3 := by
  rw [after_ops, opsTail_keeps_arg3, opsWt_keeps_arg3, opsPre_keeps_arg3]

/-! ## The run -/

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation determines its results (none allocates an undetermined buffer). -/
theorem opsPre_fresh : (opsPre : List (HloOp τ sig (Elt F))).Forall fun op => op.fresh = ∅ := by
  simp only [List.Forall]; repeat' constructor
theorem opsWt_fresh : (opsWt : List (HloOp τ sig (Elt F))).Forall fun op => op.fresh = ∅ := by
  simp only [List.Forall]; repeat' constructor
theorem opsTail_fresh : (opsTail : List (HloOp τ sig (Elt F))).Forall fun op => op.fresh = ∅ := by
  simp only [List.Forall]; repeat' constructor
theorem ops_fresh : (ops : List (HloOp τ sig (Elt F))).Forall fun op => op.fresh = ∅ :=
  forall_append (forall_append opsPre_fresh opsWt_fresh) opsTail_fresh

/-- On every device, for any float values, from any memory with zero counters: every weakly fair execution of the
    entry function terminates with the result buffer at the fold of the line over the launch contents and the four
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = StableHlo.after ops (fun b => m (c, b)) main_v84
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨h c main_v84,
      (h c main_arg0).trans (ops_keeps_arg0 _),
      (h c main_arg1).trans (ops_keeps_arg1 _),
      (h c main_arg2).trans (ops_keeps_arg2 _),
      (h c main_arg3).trans (ops_keeps_arg3 _)⟩)
    (run_seq scopedRefs_eq scopedSems_eq defs main (fun _ => ops) main_eq (fun _ => ops_sub) m ρ
      (fun _ => List.forall_iff_forall_mem.mp ops_fresh))

/-- The reference runs and its four argument arrays end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.ReferenceIdeal.RefRun

end
-- ==== Proof.WtR.lean ====
/-
  The weights in the reference program.

  The reference builds the weights as the kernel's program does, except for the row of output-time weights: it
  cuts the repeated row [4, 1, 1, 576] into its four groups, passes each group through a cyclic shift by zero places
  (the part from position 0 on followed by the empty part before position 0) and puts the four back together.  That
  is the identity, index by index, so the reference's weights are `tail` of a row that agrees with the repeated
  output-time weights, and `tail_apply` reads them.  The filter part is the same composition `TW` as in the
  kernel's program.
-/
import proofs.«127918_j12824772346234_1_alg».proof.Proof.RefRun
import proofs.«127918_j12824772346234_1_alg».proof.Proof.WtTW
import Idealize.ShloMosaic.Lib.Pipeline.Frame

noncomputable section

namespace Cert.ReferenceIdeal.WtR

open Cert.ReferenceIdeal Cert.ReferenceIdeal.Gen Cert.Wt
open Idealize.ShloMosaic Idealize.ShloMosaic.TcCoe Idealize.ShloMosaic.StableHlo Idealize.ShloMosaic.ValueIdx

/-! ## The shift by zero places and the four groups -/

/-- The cyclic shift by zero places of a [1, 1, 576] array along axis 1. -/
def roll (x : S1x1x576.Idx → EReal) : S1x1x576.Idx → EReal :=
  concatenate S1x1x576 1 [⟨S1x1x576, extractStridedSlice S1x1x576 ![0, 0, 0] x slices_S1x1x576_S1x1x576_0_0_0⟩,
    ⟨S1x0x576, extractStridedSlice S1x0x576 ![0, 0, 0] x slices_S1x1x576_S1x0x576_0_0_0⟩] concatenates_S1x1x576_S1x0x576_S1x1x576_d1

/-- Group `g` of the repeated row, shifted by zero places. -/
def piece (g : Fin 4) (h : S4x1x1x576.Slices ![g.val, 0, 0, 0] S1x1x1x576) (t : S4x1x1x576.Idx → EReal) : S1x1x1x576.Idx → EReal :=
  broadcastInDim S1x1x1x576 ![1, 2, 3] bcast_S1x1x576_S1x1x1x576_1_2_3
    (roll (shapeCast S1x1x576 (extractStridedSlice S1x1x1x576 ![g.val, 0, 0, 0] t h) shapeCasts_S1x1x1x576_S1x1x576))

/-- The four groups put back together. -/
def cat4 (p0 p1 p2 p3 : S1x1x1x576.Idx → EReal) : S4x1x1x576.Idx → EReal :=
  concatenate S4x1x1x576 0 [⟨S1x1x1x576, p0⟩, ⟨S1x1x1x576, p1⟩, ⟨S1x1x1x576, p2⟩, ⟨S1x1x1x576, p3⟩]
    concatenates_S1x1x1x576_S1x1x1x576_S1x1x1x576_S1x1x1x576_S4x1x1x576_d0

theorem roll_apply (x : S1x1x576.Idx → EReal) (e : Fin 576) : roll x (ix3 0 0 e) = x (ix3 0 0 e) := by
  unfold roll
  refine (concatenate_pair_apply_left (t := S1x1x576) (s₁ := S1x1x576) (s₂ := S1x0x576) 1 _ _ _ (ix3 0 0 e) rfl (ix3 0 0 e)
    (fun b => match b with | ⟨0, _⟩ => rfl | ⟨1, _⟩ => rfl | ⟨2, _⟩ => rfl)).trans ?_
  exact extractStridedSlice_apply _ _ _ _ (ix3 0 0 e)
    (fun a => match a with | ⟨0, _⟩ => rfl | ⟨1, _⟩ => rfl | ⟨2, _⟩ => (Nat.zero_add _).symm)

theorem piece_apply (g : Fin 4) (h : S4x1x1x576.Slices ![g.val, 0, 0, 0] S1x1x1x576) (t : S4x1x1x576.Idx → EReal) (e : Fin 576) :
    piece g h t (ix4 0 0 0 e) = t (ix4 g 0 0 e) := by
  unfold piece
  refine (broadcastInDim_apply _ _ _ _ (ix3 (0 : Fin 1) (0 : Fin 1) e)
    (fun a => match a with | ⟨0, _⟩ => rfl | ⟨1, _⟩ => rfl | ⟨2, _⟩ => rfl)).trans ?_
  rw [roll_apply]
  refine (shapeCast_apply _ _ _ (ix4 (0 : Fin 1) (0 : Fin 1) (0 : Fin 1) e) (by
    rw [Shape.rowMajor_val_four, Shape.rowMajor_val_three]
    show ((0 * 1 + 0) * 1 + 0) * 576 + e.val = (0 * 1 + 0) * 576 + e.val
    omega)).trans ?_
  exact extractStridedSlice_apply _ _ _ _ (ix4 g 0 0 e)
    (fun a => match a with | ⟨0, _⟩ => rfl | ⟨1, _⟩ => rfl | ⟨2, _⟩ => rfl | ⟨3, _⟩ => (Nat.zero_add _).symm)

/-- Cutting the row into its groups, shifting each by zero places and putting them back gives the row. -/
theorem cat4_apply (t : S4x1x1x576.Idx → EReal) (g : Fin 4) (e : Fin 576) :
    cat4 (piece 0 slices_S4x1x1x576_S1x1x1x576_0_0_0_0 t) (piece 1 slices_S4x1x1x576_S1x1x1x576_1_0_0_0 t)
      (piece 2 slices_S4x1x1x576_S1x1x1x576_2_0_0_0 t) (piece 3 slices_S4x1x1x576_S1x1x1x576_3_0_0_0 t) (ix4 g 0 0 e)
      = t (ix4 g 0 0 e) := by
  unfold cat4
  match g with
  | ⟨0, _⟩ =>
    refine (concatenate_apply_piece 0 _ _ (ix4 (⟨0, by omega⟩ : Fin 4) (0 : Fin 1) (0 : Fin 1) e) 0 (by show (0 : Nat) < 4; omega) S1x1x1x576 _ rfl rfl 0 rfl
      (ix4 (0 : Fin 1) (0 : Fin 1) (0 : Fin 1) e)
      (fun b hb => by
        match b with
        | ⟨0, _⟩ => exact absurd rfl hb
        | ⟨1, _⟩ => rfl
        | ⟨2, _⟩ => rfl
        | ⟨3, _⟩ => rfl) rfl).trans ?_
    exact piece_apply 0 _ t e
  | ⟨1, _⟩ =>
    refine (concatenate_apply_piece 0 _ _ (ix4 (⟨1, by omega⟩ : Fin 4) (0 : Fin 1) (0 : Fin 1) e) 1 (by show (1 : Nat) < 4; omega) S1x1x1x576 _ rfl rfl 1 rfl
      (ix4 (0 : Fin 1) (0 : Fin 1) (0 : Fin 1) e)
      (fun b hb => by
        match b with
        | ⟨0, _⟩ => exact absurd rfl hb
        | ⟨1, _⟩ => rfl
        | ⟨2, _⟩ => rfl
        | ⟨3, _⟩ => rfl) rfl).trans ?_
    exact piece_apply 1 _ t e
  | ⟨2, _⟩ =>
    refine (concatenate_apply_piece 0 _ _ (ix4 (⟨2, by omega⟩ : Fin 4) (0 : Fin 1) (0 : Fin 1) e) 2 (by show (2 : Nat) < 4; omega) S1x1x1x576 _ rfl rfl 2 rfl
      (ix4 (0 : Fin 1) (0 : Fin 1) (0 : Fin 1) e)
      (fun b hb => by
        match b with
        | ⟨0, _⟩ => exact absurd rfl hb
        | ⟨1, _⟩ => rfl
        | ⟨2, _⟩ => rfl
        | ⟨3, _⟩ => rfl) rfl).trans ?_
    exact piece_apply 2 _ t e
  | ⟨3, _⟩ =>
    refine (concatenate_apply_piece 0 _ _ (ix4 (⟨3, by omega⟩ : Fin 4) (0 : Fin 1) (0 : Fin 1) e) 3 (by show (3 : Nat) < 4; omega) S1x1x1x576 _ rfl rfl 3 rfl
      (ix4 (0 : Fin 1) (0 : Fin 1) (0 : Fin 1) e)
      (fun b hb => by
        match b with
        | ⟨0, _⟩ => exact absurd rfl hb
        | ⟨1, _⟩ => rfl
        | ⟨2, _⟩ => rfl
        | ⟨3, _⟩ => rfl) rfl).trans ?_
    exact piece_apply 3 _ t e

/-! ## The stretches -/

/-- The three proper quarter turns. -/
abbrev opsRot : List (HloOp τ sig (Elt Ideal)) := (RefRun.opsWt (F := Ideal)).take 6
/-- The four liftings. -/
abbrev opsLift : List (HloOp τ sig (Elt Ideal)) := ((RefRun.opsWt (F := Ideal)).drop 6).take 4
/-- The stacking. -/
abbrev opsStack : List (HloOp τ sig (Elt Ideal)) := ((RefRun.opsWt (F := Ideal)).drop 10).take 1
/-- The flattening of the stacked turns, and the repeated row of output-time weights. -/
abbrev opsFlat : List (HloOp τ sig (Elt Ideal)) := ((RefRun.opsWt (F := Ideal)).drop 11).take 4
/-- The four groups of the row, each shifted by zero places. -/
abbrev opsPieces : List (HloOp τ sig (Elt Ideal)) := ((RefRun.opsWt (F := Ideal)).drop 15).take 24
/-- The four groups put back together. -/
abbrev opsCat : List (HloOp τ sig (Elt Ideal)) := ((RefRun.opsWt (F := Ideal)).drop 39).take 1
/-- The part after the filters and the row. -/
abbrev opsTail : List (HloOp τ sig (Elt Ideal)) := (RefRun.opsWt (F := Ideal)).drop 40

theorem ops_split : (RefRun.opsWt (F := Ideal))
    = opsRot ++ (opsLift ++ (opsStack ++ (opsFlat ++ (opsPieces ++ (opsCat ++ opsTail))))) := rfl

section
variable (W : Valuation τ sig (Elt Ideal))

theorem rot_v39 : after opsRot W main_v39 = rot1 (W main_arg1) := by
  simp only [opsRot, RefRun.opsWt, List.take, List.drop]
  after_results
  rfl
theorem rot_v40 : after opsRot W main_v40 = rot2 (W main_arg1) := by
  simp only [opsRot, RefRun.opsWt, List.take, List.drop]
  after_results
  rfl
theorem rot_v41 : after opsRot W main_v41 = rot3 (W main_arg1) := by
  simp only [opsRot, RefRun.opsWt, List.take, List.drop]
  after_results
  rfl
theorem rot_arg1 : after opsRot W main_arg1 = W main_arg1 := by
  simp only [opsRot, RefRun.opsWt, List.take, List.drop]
  after_results
theorem rot_arg2 : after opsRot W main_arg2 = W main_arg2 := by
  simp only [opsRot, RefRun.opsWt, List.take, List.drop]
  after_results
theorem rot_arg3 : after opsRot W main_arg3 = W main_arg3 := by
  simp only [opsRot, RefRun.opsWt, List.take, List.drop]
  after_results

theorem lift_v42 : after opsLift W main_v42 = lift (W main_arg1) := by
  simp only [opsLift, RefRun.opsWt, List.take, List.drop]
  after_results
  rfl
theorem lift_v43 : after opsLift W main_v43 = lift (W main_v39) := by
  simp only [opsLift, RefRun.opsWt, List.take, List.drop]
  after_results
  rfl
theorem lift_v44 : after opsLift W main_v44 = lift (W main_v40) := by
  simp only [opsLift, RefRun.opsWt, List.take, List.drop]
  after_results
  rfl
theorem lift_v45 : after opsLift W main_v45 = lift (W main_v41) := by
  simp only [opsLift, RefRun.opsWt, List.take, List.drop]
  after_results
  rfl
theorem lift_arg2 : after opsLift W main_arg2 = W main_arg2 := by
  simp only [opsLift, RefRun.opsWt, List.take, List.drop]
  after_results
theorem lift_arg3 : after opsLift W main_arg3 = W main_arg3 := by
  simp only [opsLift, RefRun.opsWt, List.take, List.drop]
  after_results

theorem stack_v46 : after opsStack W main_v46 = stack (W main_v42) (W main_v43) (W main_v44) (W main_v45) := by
  simp only [opsStack, RefRun.opsWt, List.take, List.drop]
  after_results
  rfl
theorem stack_arg2 : after opsStack W main_arg2 = W main_arg2 := by
  simp only [opsStack, RefRun.opsWt, List.take, List.drop]
  after_results
theorem stack_arg3 : after opsStack W main_arg3 = W main_arg3 := by
  simp only [opsStack, RefRun.opsWt, List.take, List.drop]
  after_results

theorem flat_v49 : after opsFlat W main_v49 = flat (W main_v46) := by
  simp only [opsFlat, RefRun.opsWt, List.take, List.drop]
  after_results
  rfl
theorem flat_v50 : after opsFlat W main_v50 = tout (W main_arg2) := by
  simp only [opsFlat, RefRun.opsWt, List.take, List.drop]
  after_results
  rfl
theorem flat_arg3 : after opsFlat W main_arg3 = W main_arg3 := by
  simp only [opsFlat, RefRun.opsWt, List.take, List.drop]
  after_results

theorem pieces_v63 : after opsPieces W main_v63 = piece 0 slices_S4x1x1x576_S1x1x1x576_0_0_0_0 (W main_v50) := by
  simp only [opsPieces, RefRun.opsWt, List.take, List.drop]
  after_results
  rfl
theorem pieces_v64 : after opsPieces W main_v64 = piece 1 slices_S4x1x1x576_S1x1x1x576_1_0_0_0 (W main_v50) := by
  simp only [opsPieces, RefRun.opsWt, List.take, List.drop]
  after_results
  rfl
theorem pieces_v65 : after opsPieces W main_v65 = piece 2 slices_S4x1x1x576_S1x1x1x576_2_0_0_0 (W main_v50) := by
  simp only [opsPieces, RefRun.opsWt, List.take, List.drop]
  after_results
  rfl
theorem pieces_v66 : after opsPieces W main_v66 = piece 3 slices_S4x1x1x576_S1x1x1x576_3_0_0_0 (W main_v50) := by
  simp only [opsPieces, RefRun.opsWt, List.take, List.drop]
  after_results
  rfl
theorem pieces_v49 : after opsPieces W main_v49 = W main_v49 := by
  simp only [opsPieces, RefRun.opsWt, List.take, List.drop]
  after_results
theorem pieces_arg3 : after opsPieces W main_arg3 = W main_arg3 := by
  simp only [opsPieces, RefRun.opsWt, List.take, List.drop]
  after_results

theorem cat_v67 : after opsCat W main_v67 = cat4 (W main_v63) (W main_v64) (W main_v65) (W main_v66) := by
  simp only [opsCat, RefRun.opsWt, List.take, List.drop]
  after_results
  rfl
theorem cat_v49 : after opsCat W main_v49 = W main_v49 := by
  simp only [opsCat, RefRun.opsWt, List.take, List.drop]
  after_results
theorem cat_arg3 : after opsCat W main_arg3 = W main_arg3 := by
  simp only [opsCat, RefRun.opsWt, List.take, List.drop]
  after_results

theorem tail_v72 : after opsTail W main_v72 = tail (W main_v67) (W main_v49) (W main_arg3) := by
  simp only [opsTail, RefRun.opsWt, List.take, List.drop]
  after_results
  rfl

end

/-- The reference's weights. -/
theorem wt_R (W : Valuation τ sig (Elt Ideal)) :
    StableHlo.after (Cert.ReferenceIdeal.RefRun.opsWt (F := Ideal)) W main_v72
      = Cert.Spec.WtArr (Cert.Wt.TW (W main_arg1)) (W main_arg2) (W main_arg3) := by
  have hV : StableHlo.after (Cert.ReferenceIdeal.RefRun.opsWt (F := Ideal)) W main_v72
      = tail (cat4 (piece 0 slices_S4x1x1x576_S1x1x1x576_0_0_0_0 (tout (W main_arg2)))
          (piece 1 slices_S4x1x1x576_S1x1x1x576_1_0_0_0 (tout (W main_arg2)))
          (piece 2 slices_S4x1x1x576_S1x1x1x576_2_0_0_0 (tout (W main_arg2)))
          (piece 3 slices_S4x1x1x576_S1x1x1x576_3_0_0_0 (tout (W main_arg2))))
        (TW (W main_arg1)) (W main_arg3) := by
    rw [ops_split, StableHlo.after_append, StableHlo.after_append, StableHlo.after_append, StableHlo.after_append, StableHlo.after_append, StableHlo.after_append]
    rw [tail_v72, cat_v67, cat_v49, cat_arg3, pieces_v63, pieces_v64, pieces_v65, pieces_v66, pieces_v49, pieces_arg3,
      flat_v49, flat_v50, flat_arg3, stack_v46, stack_arg2, stack_arg3,
      lift_v42, lift_v43, lift_v44, lift_v45, lift_arg2, lift_arg3, rot_v39, rot_v40, rot_v41, rot_arg1, rot_arg2, rot_arg3]
    rfl
  rw [hV]
  funext j
  obtain ⟨g, o, d, rfl⟩ : ∃ (g : Fin 4) (o : Fin 65) (d : Fin 577), j = ix3 g o d := ⟨_, _, _, eq_ix3 j⟩
  rw [Cert.Spec.WtArr_ix]
  exact tail_apply _ _ _ _ (fun g e => (cat4_apply _ g e).trans (tout_apply _ g e)) g o d

end Cert.ReferenceIdeal.WtR

end
-- ==== Proof.RefPre1.lean ====
/-
  The reference program's patch matrix, first part: the tensor operations that build it, in order, cut into three
  stretches — the padded image and its nine shifted windows; the joining of the nine windows along a new axis; and
  everything after the joined array (regrouping into rows, the time entry, the space entries, the final joining) —
  and what each stretch leaves in the buffers it writes, as a function of what it found in the buffers it reads.
-/
import proofs.«127918_j12824772346234_1_alg».proof.Proof.Gen.ReferenceIdeal
import Idealize.ShloMosaic.Lib.StableHlo.Run

noncomputable section

namespace Cert.ReferenceIdeal.PreR

open Cert.ReferenceIdeal Cert.ReferenceIdeal.Gen Idealize.ShloMosaic Idealize.ShloMosaic.TcCoe Idealize.ShloMosaic.StableHlo

variable {F : FTy → Type} [FloatOps F]

/-- The operations up to the nine windows: the image with channels first, the ring of zeros around it, the nine shifted
    64 x 64 windows, each given a unit axis. -/
abbrev opsA : List (HloOp τ sig (Elt F)) :=
  [ StableHlo.unary main_arg0 main_v0 ((transpose S16x65x64x64 [0, 3, 1, 2] · transposes_S16x64x64x65_S16x65x64x64_0_3_1_2) : (⟨S16x64x64x65, .f32⟩ : BufTy).Contents (Elt F) → (⟨S16x65x64x64, .f32⟩ : BufTy).Contents (Elt F)),
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_v0 : StableHlo.TRef sig ⟨S16x65x64x64, .f32⟩) (.of main_call0_v0 : StableHlo.TRef sig ⟨S_, .f32⟩) (.of main_v1 : StableHlo.TRef sig ⟨S16x65x66x66, .f32⟩) (fun x v => pad S16x65x66x66 ![0, 0, 1, 1] ![0, 0, 1, 1] ![0, 0, 0, 0] x v pads_S16x65x64x64_S16x65x66x66_000_000_110_110 h_S_),
    StableHlo.unary main_v1 main_v2 ((extractStridedSlice S16x65x64x64 ![0, 0, 0, 0] · slices_S16x65x66x66_S16x65x64x64_0_0_0_0) : (⟨S16x65x66x66, .f32⟩ : BufTy).Contents (Elt F) → (⟨S16x65x64x64, .f32⟩ : BufTy).Contents (Elt F)),
    StableHlo.unary main_v1 main_v3 ((extractStridedSlice S16x65x64x64 ![0, 0, 0, 1] · slices_S16x65x66x66_S16x65x64x64_0_0_0_1) : (⟨S16x65x66x66, .f32⟩ : BufTy).Contents (Elt F) → (⟨S16x65x64x64, .f32⟩ : BufTy).Contents (Elt F)),
    StableHlo.unary main_v1 main_v4 ((extractStridedSlice S16x65x64x64 ![0, 0, 0, 2] · slices_S16x65x66x66_S16x65x64x64_0_0_0_2) : (⟨S16x65x66x66, .f32⟩ : BufTy).Contents (Elt F) → (⟨S16x65x64x64, .f32⟩ : BufTy).Contents (Elt F)),
    StableHlo.unary main_v1 main_v5 ((extractStridedSlice S16x65x64x64 ![0, 0, 1, 0] · slices_S16x65x66x66_S16x65x64x64_0_0_1_0) : (⟨S16x65x66x66, .f32⟩ : BufTy).Contents (Elt F) → (⟨S16x65x64x64, .f32⟩ : BufTy).Contents (Elt F)),
    StableHlo.unary main_v1 main_v6 ((extractStridedSlice S16x65x64x64 ![0, 0, 1, 1] · slices_S16x65x66x66_S16x65x64x64_0_0_1_1) : (⟨S16x65x66x66, .f32⟩ : BufTy).Contents (Elt F) → (⟨S16x65x64x64, .f32⟩ : BufTy).Contents (Elt F)),
    StableHlo.unary main_v1 main_v7 ((extractStridedSlice S16x65x64x64 ![0, 0, 1, 2] · slices_S16x65x66x66_S16x65x64x64_0_0_1_2) : (⟨S16x65x66x66, .f32⟩ : BufTy).Contents (Elt F) → (⟨S16x65x64x64, .f32⟩ : BufTy).Contents (Elt F)),
    StableHlo.unary main_v1 main_v8 ((extractStridedSlice S16x65x64x64 ![0, 0, 2, 0] · slices_S16x65x66x66_S16x65x64x64_0_0_2_0) : (⟨S16x65x66x66, .f32⟩ : BufTy).Contents (Elt F) → (⟨S16x65x64x64, .f32⟩ : BufTy).Contents (Elt F)),
    StableHlo.unary main_v1 main_v9 ((extractStridedSlice S16x65x64x64 ![0, 0, 2, 1] · slices_S16x65x66x66_S16x65x64x64_0_0_2_1) : (⟨S16x65x66x66, .f32⟩ : BufTy).Contents (Elt F) → (⟨S16x65x64x64, .f32⟩ : BufTy).Contents (Elt F)),
    StableHlo.unary main_v1 main_v10 ((extractStridedSlice S16x65x64x64 ![0, 0, 2, 2] · slices_S16x65x66x66_S16x65x64x64_0_0_2_2) : (⟨S16x65x66x66, .f32⟩ : BufTy).Contents (Elt F) → (⟨S16x65x64x64, .f32⟩ : BufTy).Contents (Elt F)),
    StableHlo.unary main_v2 main_v11 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v3 main_v12 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v4 main_v13 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v5 main_v14 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v6 main_v15 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v7 main_v16 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v8 main_v17 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v9 main_v18 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v10 main_v19 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)) ]

/-- The joining of the nine windows along the new axis. -/
abbrev opN : HloOp τ sig (Elt F) :=
  StableHlo.nary ![main_v11, main_v12, main_v13, main_v14, main_v15, main_v16, main_v17, main_v18, main_v19] main_v20 (fun u => concatenate S16x65x9x64x64 2 [⟨S16x65x1x64x64, u 0⟩, ⟨S16x65x1x64x64, u 1⟩, ⟨S16x65x1x64x64, u 2⟩, ⟨S16x65x1x64x64, u 3⟩, ⟨S16x65x1x64x64, u 4⟩, ⟨S16x65x1x64x64, u 5⟩, ⟨S16x65x1x64x64, u 6⟩, ⟨S16x65x1x64x64, u 7⟩, ⟨S16x65x1x64x64, u 8⟩] concatenates_S16x65x1x64x64_S16x65x1x64x64_S16x65x1x64x64_S16x65x1x64x64_S16x65x1x64x64_S16x65x1x64x64_S16x65x1x64x64_S16x65x1x64x64_S16x65x1x64x64_S16x65x9x64x64_d2)

/-- The operations after the joined array. -/
abbrev opsC : List (HloOp τ sig (Elt F)) :=
  [ StableHlo.reshape main_v20 main_v21 rfl shapeCasts_S16x65x9x64x64_S16x585x4096,
    StableHlo.unary main_v21 main_v22 ((transpose S16x4096x585 [0, 2, 1] · transposes_S16x585x4096_S16x4096x585_0_2_1) : (⟨S16x585x4096, .f32⟩ : BufTy).Contents (Elt F) → (⟨S16x4096x585, .f32⟩ : BufTy).Contents (Elt F)),
    StableHlo.unary main_v22 main_v23 ((extractStridedSlice S16x4096x9 ![0, 0, 0] · slices_S16x4096x585_S16x4096x9_0_0_0) : (⟨S16x4096x585, .f32⟩ : BufTy).Contents (Elt F) → (⟨S16x4096x9, .f32⟩ : BufTy).Contents (Elt F)),
    StableHlo.nullary main_cst (constant S_ .f32 0x3F800000#32),
    StableHlo.unary main_cst main_v24 (Host.sqrt : (⟨S_, .f32⟩ : BufTy).Contents (Elt F) → (⟨S_, .f32⟩ : BufTy).Contents (Elt F)),
    StableHlo.unary main_v24 main_v25 (broadcastInDim S16x4096x9 ![] bcast_S_S16x4096x9 : (⟨S_, .f32⟩ : BufTy).Contents (Elt F) → (⟨S16x4096x9, .f32⟩ : BufTy).Contents (Elt F)),
    StableHlo.binary main_v23 main_v25 main_v26 (maximumf : (⟨S16x4096x9, .f32⟩ : BufTy).Contents (Elt F) → (⟨S16x4096x9, .f32⟩ : BufTy).Contents (Elt F) → (⟨S16x4096x9, .f32⟩ : BufTy).Contents (Elt F)),
    StableHlo.binary main_v26 main_v26 main_v27 (mulf : (⟨S16x4096x9, .f32⟩ : BufTy).Contents (Elt F) → (⟨S16x4096x9, .f32⟩ : BufTy).Contents (Elt F) → (⟨S16x4096x9, .f32⟩ : BufTy).Contents (Elt F)),
    StableHlo.nullary main_cst_0 (constant S_ .f32 0x00000000#32),
    StableHlo.binary main_v27 main_cst_0 main_v28 ((fun x v => Host.reduceAdd x v reducesTo_S16x4096x9_S16x4096_d2 h_S_) : (⟨S16x4096x9, .f32⟩ : BufTy).Contents (Elt F) → (⟨S_, .f32⟩ : BufTy).Contents (Elt F) → (⟨S16x4096, .f32⟩ : BufTy).Contents (Elt F)),
    StableHlo.unary main_v28 main_v29 (broadcastInDim S16x4096x1 ![0, 1] bcast_S16x4096_S16x4096x1_0_1 : (⟨S16x4096, .f32⟩ : BufTy).Contents (Elt F) → (⟨S16x4096x1, .f32⟩ : BufTy).Contents (Elt F)),
    StableHlo.nullary main_cst_1 (constant S_ .f32 0x41000000#32),
    StableHlo.unary main_cst_1 main_v30 (broadcastInDim S16x4096x1 ![] bcast_S_S16x4096x1 : (⟨S_, .f32⟩ : BufTy).Contents (Elt F) → (⟨S16x4096x1, .f32⟩ : BufTy).Contents (Elt F)),
    StableHlo.binary main_v29 main_v30 main_v31 (subf : (⟨S16x4096x1, .f32⟩ : BufTy).Contents (Elt F) → (⟨S16x4096x1, .f32⟩ : BufTy).Contents (Elt F) → (⟨S16x4096x1, .f32⟩ : BufTy).Contents (Elt F)),
    StableHlo.unary main_v31 main_v32 (Host.sqrt : (⟨S16x4096x1, .f32⟩ : BufTy).Contents (Elt F) → (⟨S16x4096x1, .f32⟩ : BufTy).Contents (Elt F)),
    StableHlo.unary main_v22 main_v33 ((extractStridedSlice S16x4096x576 ![0, 0, 9] · slices_S16x4096x585_S16x4096x576_0_0_9) : (⟨S16x4096x585, .f32⟩ : BufTy).Contents (Elt F) → (⟨S16x4096x576, .f32⟩ : BufTy).Contents (Elt F)),
    StableHlo.reshape main_v33 main_v34 rfl shapeCasts_S16x4096x576_S16x4096x64x9,
    StableHlo.unary main_v34 main_v35 ((transpose S16x4096x9x64 [0, 1, 3, 2] · transposes_S16x4096x64x9_S16x4096x9x64_0_1_3_2) : (⟨S16x4096x64x9, .f32⟩ : BufTy).Contents (Elt F) → (⟨S16x4096x9x64, .f32⟩ : BufTy).Contents (Elt F)),
    StableHlo.reshape main_v35 main_v36 rfl shapeCasts_S16x4096x9x64_S16x4096x576,
    StableHlo.binary main_v32 main_v36 main_v37 ((fun a b => concatenate S16x4096x577 2 [⟨S16x4096x1, a⟩, ⟨S16x4096x576, b⟩] concatenates_S16x4096x1_S16x4096x576_S16x4096x577_d2) : (⟨S16x4096x1, .f32⟩ : BufTy).Contents (Elt F) → (⟨S16x4096x576, .f32⟩ : BufTy).Contents (Elt F) → (⟨S16x4096x577, .f32⟩ : BufTy).Contents (Elt F)) ]

/-- All of them, in order. -/
abbrev opsPre' : List (HloOp τ sig (Elt F)) :=
  [ StableHlo.unary main_arg0 main_v0 ((transpose S16x65x64x64 [0, 3, 1, 2] · transposes_S16x64x64x65_S16x65x64x64_0_3_1_2) : (⟨S16x64x64x65, .f32⟩ : BufTy).Contents (Elt F) → (⟨S16x65x64x64, .f32⟩ : BufTy).Contents (Elt F)),
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_v0 : StableHlo.TRef sig ⟨S16x65x64x64, .f32⟩) (.of main_call0_v0 : StableHlo.TRef sig ⟨S_, .f32⟩) (.of main_v1 : StableHlo.TRef sig ⟨S16x65x66x66, .f32⟩) (fun x v => pad S16x65x66x66 ![0, 0, 1, 1] ![0, 0, 1, 1] ![0, 0, 0, 0] x v pads_S16x65x64x64_S16x65x66x66_000_000_110_110 h_S_),
    StableHlo.unary main_v1 main_v2 ((extractStridedSlice S16x65x64x64 ![0, 0, 0, 0] · slices_S16x65x66x66_S16x65x64x64_0_0_0_0) : (⟨S16x65x66x66, .f32⟩ : BufTy).Contents (Elt F) → (⟨S16x65x64x64, .f32⟩ : BufTy).Contents (Elt F)),
    StableHlo.unary main_v1 main_v3 ((extractStridedSlice S16x65x64x64 ![0, 0, 0, 1] · slices_S16x65x66x66_S16x65x64x64_0_0_0_1) : (⟨S16x65x66x66, .f32⟩ : BufTy).Contents (Elt F) → (⟨S16x65x64x64, .f32⟩ : BufTy).Contents (Elt F)),
    StableHlo.unary main_v1 main_v4 ((extractStridedSlice S16x65x64x64 ![0, 0, 0, 2] · slices_S16x65x66x66_S16x65x64x64_0_0_0_2) : (⟨S16x65x66x66, .f32⟩ : BufTy).Contents (Elt F) → (⟨S16x65x64x64, .f32⟩ : BufTy).Contents (Elt F)),
    StableHlo.unary main_v1 main_v5 ((extractStridedSlice S16x65x64x64 ![0, 0, 1, 0] · slices_S16x65x66x66_S16x65x64x64_0_0_1_0) : (⟨S16x65x66x66, .f32⟩ : BufTy).Contents (Elt F) → (⟨S16x65x64x64, .f32⟩ : BufTy).Contents (Elt F)),
    StableHlo.unary main_v1 main_v6 ((extractStridedSlice S16x65x64x64 ![0, 0, 1, 1] · slices_S16x65x66x66_S16x65x64x64_0_0_1_1) : (⟨S16x65x66x66, .f32⟩ : BufTy).Contents (Elt F) → (⟨S16x65x64x64, .f32⟩ : BufTy).Contents (Elt F)),
    StableHlo.unary main_v1 main_v7 ((extractStridedSlice S16x65x64x64 ![0, 0, 1, 2] · slices_S16x65x66x66_S16x65x64x64_0_0_1_2) : (⟨S16x65x66x66, .f32⟩ : BufTy).Contents (Elt F) → (⟨S16x65x64x64, .f32⟩ : BufTy).Contents (Elt F)),
    StableHlo.unary main_v1 main_v8 ((extractStridedSlice S16x65x64x64 ![0, 0, 2, 0] · slices_S16x65x66x66_S16x65x64x64_0_0_2_0) : (⟨S16x65x66x66, .f32⟩ : BufTy).Contents (Elt F) → (⟨S16x65x64x64, .f32⟩ : BufTy).Contents (Elt F)),
    StableHlo.unary main_v1 main_v9 ((extractStridedSlice S16x65x64x64 ![0, 0, 2, 1] · slices_S16x65x66x66_S16x65x64x64_0_0_2_1) : (⟨S16x65x66x66, .f32⟩ : BufTy).Contents (Elt F) → (⟨S16x65x64x64, .f32⟩ : BufTy).Contents (Elt F)),
    StableHlo.unary main_v1 main_v10 ((extractStridedSlice S16x65x64x64 ![0, 0, 2, 2] · slices_S16x65x66x66_S16x65x64x64_0_0_2_2) : (⟨S16x65x66x66, .f32⟩ : BufTy).Contents (Elt F) → (⟨S16x65x64x64, .f32⟩ : BufTy).Contents (Elt F)),
    StableHlo.unary main_v2 main_v11 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v3 main_v12 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v4 main_v13 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v5 main_v14 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v6 main_v15 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v7 main_v16 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v8 main_v17 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v9 main_v18 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.unary main_v10 main_v19 (broadcastInDim S16x65x1x64x64 ![0, 1, 3, 4] bcast_S16x65x64x64_S16x65x1x64x64_0_1_3_4 : (⟨S16x65x64x64, .f32⟩ : BufTy).Contents (Elt F) → (⟨S16x65x1x64x64, .f32⟩ : BufTy).Contents (Elt F)),
    StableHlo.nary ![main_v11, main_v12, main_v13, main_v14, main_v15, main_v16, main_v17, main_v18, main_v19] main_v20 (fun u => concatenate S16x65x9x64x64 2 [⟨S16x65x1x64x64, u 0⟩, ⟨S16x65x1x64x64, u 1⟩, ⟨S16x65x1x64x64, u 2⟩, ⟨S16x65x1x64x64, u 3⟩, ⟨S16x65x1x64x64, u 4⟩, ⟨S16x65x1x64x64, u 5⟩, ⟨S16x65x1x64x64, u 6⟩, ⟨S16x65x1x64x64, u 7⟩, ⟨S16x65x1x64x64, u 8⟩] concatenates_S16x65x1x64x64_S16x65x1x64x64_S16x65x1x64x64_S16x65x1x64x64_S16x65x1x64x64_S16x65x1x64x64_S16x65x1x64x64_S16x65x1x64x64_S16x65x1x64x64_S16x65x9x64x64_d2),
    StableHlo.reshape main_v20 main_v21 rfl shapeCasts_S16x65x9x64x64_S16x585x4096,
    StableHlo.unary main_v21 main_v22 ((transpose S16x4096x585 [0, 2, 1] · transposes_S16x585x4096_S16x4096x585_0_2_1) : (⟨S16x585x4096, .f32⟩ : BufTy).Contents (Elt F) → (⟨S16x4096x585, .f32⟩ : BufTy).Contents (Elt F)),
    StableHlo.unary main_v22 main_v23 ((extractStridedSlice S16x4096x9 ![0, 0, 0] · slices_S16x4096x585_S16x4096x9_0_0_0) : (⟨S16x4096x585, .f32⟩ : BufTy).Contents (Elt F) → (⟨S16x4096x9, .f32⟩ : BufTy).Contents (Elt F)),
    StableHlo.nullary main_cst (constant S_ .f32 0x3F800000#32),
    StableHlo.unary main_cst main_v24 (Host.sqrt : (⟨S_, .f32⟩ : BufTy).Contents (Elt F) → (⟨S_, .f32⟩ : BufTy).Contents (Elt F)),
    StableHlo.unary main_v24 main_v25 (broadcastInDim S16x4096x9 ![] bcast_S_S16x4096x9 : (⟨S_, .f32⟩ : BufTy).Contents (Elt F) → (⟨S16x4096x9, .f32⟩ : BufTy).Contents (Elt F)),
    StableHlo.binary main_v23 main_v25 main_v26 (maximumf : (⟨S16x4096x9, .f32⟩ : BufTy).Contents (Elt F) → (⟨S16x4096x9, .f32⟩ : BufTy).Contents (Elt F) → (⟨S16x4096x9, .f32⟩ : BufTy).Contents (Elt F)),
    StableHlo.binary main_v26 main_v26 main_v27 (mulf : (⟨S16x4096x9, .f32⟩ : BufTy).Contents (Elt F) → (⟨S16x4096x9, .f32⟩ : BufTy).Contents (Elt F) → (⟨S16x4096x9, .f32⟩ : BufTy).Contents (Elt F)),
    StableHlo.nullary main_cst_0 (constant S_ .f32 0x00000000#32),
    StableHlo.binary main_v27 main_cst_0 main_v28 ((fun x v => Host.reduceAdd x v reducesTo_S16x4096x9_S16x4096_d2 h_S_) : (⟨S16x4096x9, .f32⟩ : BufTy).Contents (Elt F) → (⟨S_, .f32⟩ : BufTy).Contents (Elt F) → (⟨S16x4096, .f32⟩ : BufTy).Contents (Elt F)),
    StableHlo.unary main_v28 main_v29 (broadcastInDim S16x4096x1 ![0, 1] bcast_S16x4096_S16x4096x1_0_1 : (⟨S16x4096, .f32⟩ : BufTy).Contents (Elt F) → (⟨S16x4096x1, .f32⟩ : BufTy).Contents (Elt F)),
    StableHlo.nullary main_cst_1 (constant S_ .f32 0x41000000#32),
    StableHlo.unary main_cst_1 main_v30 (broadcastInDim S16x4096x1 ![] bcast_S_S16x4096x1 : (⟨S_, .f32⟩ : BufTy).Contents (Elt F) → (⟨S16x4096x1, .f32⟩ : BufTy).Contents (Elt F)),
    StableHlo.binary main_v29 main_v30 main_v31 (subf : (⟨S16x4096x1, .f32⟩ : BufTy).Contents (Elt F) → (⟨S16x4096x1, .f32⟩ : BufTy).Contents (Elt F) → (⟨S16x4096x1, .f32⟩ : BufTy).Contents (Elt F)),
    StableHlo.unary main_v31 main_v32 (Host.sqrt : (⟨S16x4096x1, .f32⟩ : BufTy).Contents (Elt F) → (⟨S16x4096x1, .f32⟩ : BufTy).Contents (Elt F)),
    StableHlo.unary main_v22 main_v33 ((extractStridedSlice S16x4096x576 ![0, 0, 9] · slices_S16x4096x585_S16x4096x576_0_0_9) : (⟨S16x4096x585, .f32⟩ : BufTy).Contents (Elt F) → (⟨S16x4096x576, .f32⟩ : BufTy).Contents (Elt F)),
    StableHlo.reshape main_v33 main_v34 rfl shapeCasts_S16x4096x576_S16x4096x64x9,
    StableHlo.unary main_v34 main_v35 ((transpose S16x4096x9x64 [0, 1, 3, 2] · transposes_S16x4096x64x9_S16x4096x9x64_0_1_3_2) : (⟨S16x4096x64x9, .f32⟩ : BufTy).Contents (Elt F) → (⟨S16x4096x9x64, .f32⟩ : BufTy).Contents (Elt F)),
    StableHlo.reshape main_v35 main_v36 rfl shapeCasts_S16x4096x9x64_S16x4096x576,
    StableHlo.binary main_v32 main_v36 main_v37 ((fun a b => concatenate S16x4096x577 2 [⟨S16x4096x1, a⟩, ⟨S16x4096x576, b⟩] concatenates_S16x4096x1_S16x4096x576_S16x4096x577_d2) : (⟨S16x4096x1, .f32⟩ : BufTy).Contents (Elt F) → (⟨S16x4096x576, .f32⟩ : BufTy).Contents (Elt F) → (⟨S16x4096x577, .f32⟩ : BufTy).Contents (Elt F)) ]

theorem opsPre'_eq : (opsPre' : List (HloOp τ sig (Elt F))) = opsA ++ opN :: opsC := rfl

/-- Running two lists one after the other is running their concatenation. -/
theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

/-! ## What each stretch computes -/

/-- The image with channels first, surrounded by one ring of the converted zero word. -/
def padded (x : (⟨S16x64x64x65, .f32⟩ : BufTy).Contents (Elt F)) : (⟨S16x65x66x66, .f32⟩ : BufTy).Contents (Elt F) :=
  pad S16x65x66x66 ![0, 0, 1, 1] ![0, 0, 1, 1] ![0, 0, 0, 0]
    (transpose S16x65x64x64 [0, 3, 1, 2] x transposes_S16x64x64x65_S16x65x64x64_0_3_1_2)
    (sitofp .f32 (constantI S_ 32 0#32)) pads_S16x65x64x64_S16x65x66x66_000_000_110_110 h_S_

/-- The 64 x 64 window of a padded image at the offsets `off`, with a unit axis after the channel axis. -/
def win (off : Fin 4 → Nat) (h : S16x65x66x66.Slices off S16x65x64x64) (p : (⟨S16x65x66x66, .f32⟩ : BufTy).Contents (Elt F)) : (⟨S16x65x1x64x64, .f32⟩ : BufTy).Contents (Elt F) :=
  broadcastInDim S16x65x1x64x64 ![0, 1, 3, 4] bcast_S16x65x64x64_S16x65x1x64x64_0_1_3_4 (extractStridedSlice S16x65x64x64 off p h)

theorem A_v11 (W : Valuation τ sig (Elt F)) :
    StableHlo.after (opsA (F := F)) W main_v11 = win ![0, 0, 0, 0] slices_S16x65x66x66_S16x65x64x64_0_0_0_0 (padded (W main_arg0)) := by
  after_results_simp; rfl
theorem A_v12 (W : Valuation τ sig (Elt F)) :
    StableHlo.after (opsA (F := F)) W main_v12 = win ![0, 0, 0, 1] slices_S16x65x66x66_S16x65x64x64_0_0_0_1 (padded (W main_arg0)) := by
  after_results_simp; rfl
theorem A_v13 (W : Valuation τ sig (Elt F)) :
    StableHlo.after (opsA (F := F)) W main_v13 = win ![0, 0, 0, 2] slices_S16x65x66x66_S16x65x64x64_0_0_0_2 (padded (W main_arg0)) := by
  after_results_simp; rfl
theorem A_v14 (W : Valuation τ sig (Elt F)) :
    StableHlo.after (opsA (F := F)) W main_v14 = win ![0, 0, 1, 0] slices_S16x65x66x66_S16x65x64x64_0_0_1_0 (padded (W main_arg0)) := by
  after_results_simp; rfl
theorem A_v15 (W : Valuation τ sig (Elt F)) :
    StableHlo.after (opsA (F := F)) W main_v15 = win ![0, 0, 1, 1] slices_S16x65x66x66_S16x65x64x64_0_0_1_1 (padded (W main_arg0)) := by
  after_results_simp; rfl
theorem A_v16 (W : Valuation τ sig (Elt F)) :
    StableHlo.after (opsA (F := F)) W main_v16 = win ![0, 0, 1, 2] slices_S16x65x66x66_S16x65x64x64_0_0_1_2 (padded (W main_arg0)) := by
  after_results_simp; rfl
theorem A_v17 (W : Valuation τ sig (Elt F)) :
    StableHlo.after (opsA (F := F)) W main_v17 = win ![0, 0, 2, 0] slices_S16x65x66x66_S16x65x64x64_0_0_2_0 (padded (W main_arg0)) := by
  after_results_simp; rfl
theorem A_v18 (W : Valuation τ sig (Elt F)) :
    StableHlo.after (opsA (F := F)) W main_v18 = win ![0, 0, 2, 1] slices_S16x65x66x66_S16x65x64x64_0_0_2_1 (padded (W main_arg0)) := by
  after_results_simp; rfl
theorem A_v19 (W : Valuation τ sig (Elt F)) :
    StableHlo.after (opsA (F := F)) W main_v19 = win ![0, 0, 2, 2] slices_S16x65x66x66_S16x65x64x64_0_0_2_2 (padded (W main_arg0)) := by
  after_results_simp; rfl

/-- The nine windows joined along the unit axis. -/
def joined (u0 u1 u2 u3 u4 u5 u6 u7 u8 : (⟨S16x65x1x64x64, .f32⟩ : BufTy).Contents (Elt F)) : (⟨S16x65x9x64x64, .f32⟩ : BufTy).Contents (Elt F) :=
  concatenate S16x65x9x64x64 2 [⟨S16x65x1x64x64, u0⟩, ⟨S16x65x1x64x64, u1⟩, ⟨S16x65x1x64x64, u2⟩, ⟨S16x65x1x64x64, u3⟩, ⟨S16x65x1x64x64, u4⟩, ⟨S16x65x1x64x64, u5⟩, ⟨S16x65x1x64x64, u6⟩, ⟨S16x65x1x64x64, u7⟩, ⟨S16x65x1x64x64, u8⟩]
    concatenates_S16x65x1x64x64_S16x65x1x64x64_S16x65x1x64x64_S16x65x1x64x64_S16x65x1x64x64_S16x65x1x64x64_S16x65x1x64x64_S16x65x1x64x64_S16x65x1x64x64_S16x65x9x64x64_d2

theorem N_v20 (V : Valuation τ sig (Elt F)) :
    StableHlo.after [opN (F := F)] V main_v20
      = joined (V main_v11) (V main_v12) (V main_v13) (V main_v14) (V main_v15) (V main_v16) (V main_v17) (V main_v18) (V main_v19) := by
  simp only [StableHlo.after_cons, StableHlo.after_nil]
  rw [StableHlo.nary_result]
  rfl

/-- The joined array regrouped into rows: entry (b, l, c) is the joined array at (b, c / 9, c % 9, l / 64, l % 64). -/
def rowsOf (v : (⟨S16x65x9x64x64, .f32⟩ : BufTy).Contents (Elt F)) : (⟨S16x4096x585, .f32⟩ : BufTy).Contents (Elt F) :=
  transpose S16x4096x585 [0, 2, 1] (shapeCast S16x585x4096 v shapeCasts_S16x65x9x64x64_S16x585x4096) transposes_S16x585x4096_S16x4096x585_0_2_1

/-- The nine time coordinates of a row, each raised to at least the square root of the word 1.0. -/
def clampOf (r : (⟨S16x4096x585, .f32⟩ : BufTy).Contents (Elt F)) : (⟨S16x4096x9, .f32⟩ : BufTy).Contents (Elt F) :=
  maximumf (extractStridedSlice S16x4096x9 ![0, 0, 0] r slices_S16x4096x585_S16x4096x9_0_0_0)
    (broadcastInDim S16x4096x9 ![] bcast_S_S16x4096x9 (Host.sqrt (constant S_ .f32 0x3F800000#32)))

/-- The time entry of a row: the square root of the sum of the nine squares less the word 8.0. -/
def timeOf (r : (⟨S16x4096x585, .f32⟩ : BufTy).Contents (Elt F)) : (⟨S16x4096x1, .f32⟩ : BufTy).Contents (Elt F) :=
  Host.sqrt (subf
    (broadcastInDim S16x4096x1 ![0, 1] bcast_S16x4096_S16x4096x1_0_1
      (Host.reduceAdd (mulf (clampOf r) (clampOf r)) (constant S_ .f32 0x00000000#32) reducesTo_S16x4096x9_S16x4096_d2 h_S_))
    (broadcastInDim S16x4096x1 ![] bcast_S_S16x4096x1 (constant S_ .f32 0x41000000#32)))

/-- The space entries of a row, position-major. -/
def spaceOf (r : (⟨S16x4096x585, .f32⟩ : BufTy).Contents (Elt F)) : (⟨S16x4096x576, .f32⟩ : BufTy).Contents (Elt F) :=
  shapeCast S16x4096x576
    (transpose S16x4096x9x64 [0, 1, 3, 2]
      (shapeCast S16x4096x64x9 (extractStridedSlice S16x4096x576 ![0, 0, 9] r slices_S16x4096x585_S16x4096x576_0_0_9)
        shapeCasts_S16x4096x576_S16x4096x64x9)
      transposes_S16x4096x64x9_S16x4096x9x64_0_1_3_2)
    shapeCasts_S16x4096x9x64_S16x4096x576

/-- A row of the patch matrix: the time entry, then the space entries. -/
def rowOf (r : (⟨S16x4096x585, .f32⟩ : BufTy).Contents (Elt F)) : (⟨S16x4096x577, .f32⟩ : BufTy).Contents (Elt F) :=
  concatenate S16x4096x577 2 [⟨S16x4096x1, timeOf r⟩, ⟨S16x4096x576, spaceOf r⟩] concatenates_S16x4096x1_S16x4096x576_S16x4096x577_d2

theorem C_v37 (V : Valuation τ sig (Elt F)) :
    StableHlo.after (opsC (F := F)) V main_v37 = rowOf (rowsOf (V main_v20)) := by
  after_results_simp; rfl

/-- The whole patch matrix as a function of the image. -/
def preOf (x : (⟨S16x64x64x65, .f32⟩ : BufTy).Contents (Elt F)) : (⟨S16x4096x577, .f32⟩ : BufTy).Contents (Elt F) :=
  rowOf (rowsOf (joined
    (win ![0, 0, 0, 0] slices_S16x65x66x66_S16x65x64x64_0_0_0_0 (padded x))
    (win ![0, 0, 0, 1] slices_S16x65x66x66_S16x65x64x64_0_0_0_1 (padded x))
    (win ![0, 0, 0, 2] slices_S16x65x66x66_S16x65x64x64_0_0_0_2 (padded x))
    (win ![0, 0, 1, 0] slices_S16x65x66x66_S16x65x64x64_0_0_1_0 (padded x))
    (win ![0, 0, 1, 1] slices_S16x65x66x66_S16x65x64x64_0_0_1_1 (padded x))
    (win ![0, 0, 1, 2] slices_S16x65x66x66_S16x65x64x64_0_0_1_2 (padded x))
    (win ![0, 0, 2, 0] slices_S16x65x66x66_S16x65x64x64_0_0_2_0 (padded x))
    (win ![0, 0, 2, 1] slices_S16x65x66x66_S16x65x64x64_0_0_2_1 (padded x))
    (win ![0, 0, 2, 2] slices_S16x65x66x66_S16x65x64x64_0_0_2_2 (padded x))))

theorem run_pre' (W : Valuation τ sig (Elt F)) :
    StableHlo.after (opsPre' (F := F)) W main_v37 = preOf (W main_arg0) := by
  rw [opsPre'_eq, after_append, show (opN (F := F)) :: opsC = [opN] ++ opsC from rfl, after_append, C_v37, N_v20,
    A_v11, A_v12, A_v13, A_v14, A_v15, A_v16, A_v17, A_v18, A_v19]
  rfl

end Cert.ReferenceIdeal.PreR

end
-- ==== Proof.RefPre2.lean ====
/-
  The reference program's patch matrix, second part: the layout operations before the rows are formed, read at an
  index — the image with channels first and a ring of zeros around it; a 64 x 64 window of it at given offsets, with a
  unit axis; the nine windows joined along that axis; and the joined array regrouped into rows. Each statement is about
  the printed operations applied to an arbitrary array, with the shape facts as hypotheses.
-/
import proofs.«127918_j12824772346234_1_alg».proof.ReferenceIdeal
import proofs.«127918_j12824772346234_1_alg».proof.Proof.Spec
import Idealize.ShloMosaic.Lib.KernelVsHost
import Idealize.ShloMosaic.Lib.IdealHost

noncomputable section

namespace Cert.ReferenceIdeal.PreR

open Cert.ReferenceIdeal Idealize.ShloMosaic Idealize.ShloMosaic.ValueIdx

/-! ## The padded image at an index -/

/-- The image with channels first and one ring of the converted zero word around it, at (b, ch, r, s): the image at
    (b, r - 1, s - 1, ch) inside the ring, zero on it. -/
theorem padded_apply (x : S16x64x64x65.Idx → EReal) (ht : S16x64x64x65.Transposes [0, 3, 1, 2] S16x65x64x64)
    (hp : S16x65x64x64.Pads (![0, 0, 1, 1] : Fin 4 → Nat) ![0, 0, 1, 1] ![0, 0, 0, 0] S16x65x66x66) (hu : 0 < S_.numel)
    (b : Fin 16) (ch : Fin 65) (r s : Fin 66) :
    pad S16x65x66x66 ![0, 0, 1, 1] ![0, 0, 1, 1] ![0, 0, 0, 0] (transpose S16x65x64x64 [0, 3, 1, 2] x ht)
        (sitofp (F := Ideal) .f32 (constantI S_ 32 0#32)) hp hu (ix4 b ch r s)
      = Cert.Spec.xpad x b r.val s.val ch := by
  unfold Cert.Spec.xpad
  have hz : (sitofp (F := Ideal) .f32 (constantI S_ 32 0#32)) (Shape.Idx.first hu) = 0 := by
    show ((((0#32 : BitVec 32).toInt : ℤ) : ℝ) : EReal) = 0
    simp
  by_cases hin : (1 ≤ r.val ∧ r.val ≤ 64) ∧ (1 ≤ s.val ∧ s.val ≤ 64)
  · rw [dif_pos hin]
    refine (pad_apply_of_inside _ _ _ _ _ hp hu _
      (ix4 b ch (⟨r.val - 1, by omega⟩ : Fin 64) (⟨s.val - 1, by omega⟩ : Fin 64)) (fun a => match a with
      | ⟨0, _⟩ => by show b.val = 0 + b.val * (0 + 1); omega
      | ⟨1, _⟩ => by show ch.val = 0 + ch.val * (0 + 1); omega
      | ⟨2, _⟩ => by show r.val = 1 + (r.val - 1) * (0 + 1); omega
      | ⟨3, _⟩ => by show s.val = 1 + (s.val - 1) * (0 + 1); omega
      | ⟨_ + 4, h⟩ => absurd h (Nat.not_lt.2 (Nat.le_add_left _ _)))).trans ?_
    exact transpose_apply _ x ht _ (ix4 b (⟨r.val - 1, by omega⟩ : Fin 64) (⟨s.val - 1, by omega⟩ : Fin 64) ch) (fun a => match a with
      | ⟨0, _⟩ => rfl
      | ⟨1, _⟩ => rfl
      | ⟨2, _⟩ => rfl
      | ⟨3, _⟩ => rfl
      | ⟨_ + 4, h⟩ => absurd h (Nat.not_lt.2 (Nat.le_add_left _ _)))
  · rw [dif_neg hin]
    by_cases hr : 1 ≤ r.val ∧ r.val ≤ 64
    · refine (pad_apply_of_not_inside _ _ _ _ _ hp hu _ (3 : Fin 4) ?_).trans hz
      show ¬ (1 ≤ s.val ∧ (s.val - 1) % (0 + 1) = 0 ∧ (s.val - 1) / (0 + 1) < 64)
      omega
    · refine (pad_apply_of_not_inside _ _ _ _ _ hp hu _ (2 : Fin 4) ?_).trans hz
      show ¬ (1 ≤ r.val ∧ (r.val - 1) % (0 + 1) = 0 ∧ (r.val - 1) / (0 + 1) < 64)
      omega

/-! ## A window at an index -/

/-- The 64 x 64 window at offsets (i, j) of a padded image, with its unit axis, at (b, ch, 0, h, w): the padded image at
    (b, ch, h + i, w + j). -/
theorem win_apply (p : S16x65x66x66.Idx → EReal) (i j : Nat) (hi : i ≤ 2) (hj : j ≤ 2)
    (hs : S16x65x66x66.Slices ![0, 0, i, j] S16x65x64x64)
    (hb : S16x65x64x64.BroadcastsInDim S16x65x1x64x64 (![0, 1, 3, 4] : Fin 4 → Fin S16x65x1x64x64.rank))
    (b : Fin 16) (ch : Fin 65) (z : Fin 1) (h w : Fin 64) :
    broadcastInDim S16x65x1x64x64 ![0, 1, 3, 4] hb (extractStridedSlice S16x65x64x64 ![0, 0, i, j] p hs) (ix5 b ch z h w)
      = p (ix4 b ch (⟨h.val + i, by omega⟩ : Fin 66) (⟨w.val + j, by omega⟩ : Fin 66)) := by
  refine (broadcastInDim_apply _ hb _ _ (ix4 b ch h w) (fun a => match a with
      | ⟨0, _⟩ => rfl
      | ⟨1, _⟩ => rfl
      | ⟨2, _⟩ => rfl
      | ⟨3, _⟩ => rfl
      | ⟨_ + 4, h⟩ => absurd h (Nat.not_lt.2 (Nat.le_add_left _ _)))).trans ?_
  exact extractStridedSlice_apply _ p hs _ _ (fun a => match a with
      | ⟨0, _⟩ => by show b.val = 0 + b.val; omega
      | ⟨1, _⟩ => by show ch.val = 0 + ch.val; omega
      | ⟨2, _⟩ => by show h.val + i = i + h.val; omega
      | ⟨3, _⟩ => by show w.val + j = j + w.val; omega
      | ⟨_ + 4, h⟩ => absurd h (Nat.not_lt.2 (Nat.le_add_left _ _)))

/-! ## The nine windows joined, at an index -/

/-- The nine windows of a padded image joined along the unit axis, at (b, ch, k, h, w): window k, that is the padded
    image at (b, ch, h + k / 3, w + k % 3). -/
theorem joined_win_apply (p : S16x65x66x66.Idx → EReal)
    (s00 : S16x65x66x66.Slices ![0, 0, 0, 0] S16x65x64x64)
    (s01 : S16x65x66x66.Slices ![0, 0, 0, 1] S16x65x64x64)
    (s02 : S16x65x66x66.Slices ![0, 0, 0, 2] S16x65x64x64)
    (s10 : S16x65x66x66.Slices ![0, 0, 1, 0] S16x65x64x64)
    (s11 : S16x65x66x66.Slices ![0, 0, 1, 1] S16x65x64x64)
    (s12 : S16x65x66x66.Slices ![0, 0, 1, 2] S16x65x64x64)
    (s20 : S16x65x66x66.Slices ![0, 0, 2, 0] S16x65x64x64)
    (s21 : S16x65x66x66.Slices ![0, 0, 2, 1] S16x65x64x64)
    (s22 : S16x65x66x66.Slices ![0, 0, 2, 2] S16x65x64x64)
    (hb : S16x65x64x64.BroadcastsInDim S16x65x1x64x64 (![0, 1, 3, 4] : Fin 4 → Fin S16x65x1x64x64.rank))
    (hc : Shape.Concatenates [S16x65x1x64x64, S16x65x1x64x64, S16x65x1x64x64, S16x65x1x64x64, S16x65x1x64x64, S16x65x1x64x64, S16x65x1x64x64, S16x65x1x64x64, S16x65x1x64x64] S16x65x9x64x64 2)
    (b : Fin 16) (ch : Fin 65) (k : Fin 9) (h w : Fin 64) :
    concatenate S16x65x9x64x64 2
        [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩] hc (ix5 b ch k h w)
      = p (ix4 b ch (⟨h.val + k.val / 3, by omega⟩ : Fin 66) (⟨w.val + k.val % 3, by omega⟩ : Fin 66)) := by
  have key : ∀ (K i j : Nat) (hK : K < 9) (hi : i ≤ 2) (hj : j ≤ 2) (hs : S16x65x66x66.Slices ![0, 0, i, j] S16x65x64x64)
      (xs : List ((s : Shape) × (s.Idx → EReal))) (hc' : Shape.Concatenates (xs.map (·.1)) S16x65x9x64x64 2) (hlen : K < xs.length)
      (hxk : xs[K] = ⟨S16x65x1x64x64, broadcastInDim S16x65x1x64x64 ![0, 1, 3, 4] hb (extractStridedSlice S16x65x64x64 ![0, 0, i, j] p hs)⟩)
      (hpre : (((xs.take K).map (·.1)).map fun s => if h : s.rank = S16x65x9x64x64.rank then s.size ((2 : Fin S16x65x9x64x64.rank).cast h.symm) else 0).sum = K),
      concatenate S16x65x9x64x64 2 xs hc' (ix5 b ch (⟨K, hK⟩ : Fin 9) h w)
        = p (ix4 b ch (⟨h.val + i, by omega⟩ : Fin 66) (⟨w.val + j, by omega⟩ : Fin 66)) := by
    intro K i j hK hi hj hs xs hc' hlen hxk hpre
    refine (concatenate_apply_piece (2 : Fin 5) xs hc' (ix5 b ch (⟨K, hK⟩ : Fin 9) h w) K hlen S16x65x1x64x64 _ hxk rfl K hpre (ix5 b ch (0 : Fin 1) h w)
      (fun a => match a with
      | ⟨0, _⟩ => fun _ => rfl
      | ⟨1, _⟩ => fun _ => rfl
      | ⟨2, _⟩ => fun hne => absurd rfl hne
      | ⟨3, _⟩ => fun _ => rfl
      | ⟨4, _⟩ => fun _ => rfl
      | ⟨_ + 5, h⟩ => absurd h (Nat.not_lt.2 (Nat.le_add_left _ _))) rfl).trans ?_
    exact win_apply p i j hi hj hs hb b ch 0 h w
  have hfin : ∀ (r r' s s' : Fin 66), r = r' → s = s' → p (ix4 b ch r s) = p (ix4 b ch r' s') := by
    intro r r' s s' hr hs; subst hr hs; rfl
  match k with
  | ⟨0, hK⟩ => refine (key 0 0 0 hK (by decide) (by decide) s00 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 0 < 9 from by decide) rfl rfl).trans ?_; exact (hfin _ _ _ _ (Fin.ext (by show h.val + 0 = h.val + 0 / 3; omega)) (Fin.ext (by show w.val + 0 = w.val + 0 % 3; omega)))
  | ⟨1, hK⟩ => refine (key 1 0 1 hK (by decide) (by decide) s01 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 1 < 9 from by decide) rfl rfl).trans ?_; exact (hfin _ _ _ _ (Fin.ext (by show h.val + 0 = h.val + 1 / 3; omega)) (Fin.ext (by show w.val + 1 = w.val + 1 % 3; omega)))
  | ⟨2, hK⟩ => refine (key 2 0 2 hK (by decide) (by decide) s02 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 2 < 9 from by decide) rfl rfl).trans ?_; exact (hfin _ _ _ _ (Fin.ext (by show h.val + 0 = h.val + 2 / 3; omega)) (Fin.ext (by show w.val + 2 = w.val + 2 % 3; omega)))
  | ⟨3, hK⟩ => refine (key 3 1 0 hK (by decide) (by decide) s10 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 3 < 9 from by decide) rfl rfl).trans ?_; exact (hfin _ _ _ _ (Fin.ext (by show h.val + 1 = h.val + 3 / 3; omega)) (Fin.ext (by show w.val + 0 = w.val + 3 % 3; omega)))
  | ⟨4, hK⟩ => refine (key 4 1 1 hK (by decide) (by decide) s11 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 4 < 9 from by decide) rfl rfl).trans ?_; exact (hfin _ _ _ _ (Fin.ext (by show h.val + 1 = h.val + 4 / 3; omega)) (Fin.ext (by show w.val + 1 = w.val + 4 % 3; omega)))
  | ⟨5, hK⟩ => refine (key 5 1 2 hK (by decide) (by decide) s12 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 5 < 9 from by decide) rfl rfl).trans ?_; exact (hfin _ _ _ _ (Fin.ext (by show h.val + 1 = h.val + 5 / 3; omega)) (Fin.ext (by show w.val + 2 = w.val + 5 % 3; omega)))
  | ⟨6, hK⟩ => refine (key 6 2 0 hK (by decide) (by decide) s20 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 6 < 9 from by decide) rfl rfl).trans ?_; exact (hfin _ _ _ _ (Fin.ext (by show h.val + 2 = h.val + 6 / 3; omega)) (Fin.ext (by show w.val + 0 = w.val + 6 % 3; omega)))
  | ⟨7, hK⟩ => refine (key 7 2 1 hK (by decide) (by decide) s21 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 7 < 9 from by decide) rfl rfl).trans ?_; exact (hfin _ _ _ _ (Fin.ext (by show h.val + 2 = h.val + 7 / 3; omega)) (Fin.ext (by show w.val + 1 = w.val + 7 % 3; omega)))
  | ⟨8, hK⟩ => refine (key 8 2 2 hK (by decide) (by decide) s22 (xs := [⟨S16x65x1x64x64, broadcastInDim S16x65x1x64x64 ![0, 1, 3, 4] hb (extractStridedSlice S16x65x64x64 ![0, 0, 0, 0] p s00)⟩,
         ⟨S16x65x1x64x64, broadcastInDim S16x65x1x64x64 ![0, 1, 3, 4] hb (extractStridedSlice S16x65x64x64 ![0, 0, 0, 1] p s01)⟩,
         ⟨S16x65x1x64x64, broadcastInDim S16x65x1x64x64 ![0, 1, 3, 4] hb (extractStridedSlice S16x65x64x64 ![0, 0, 0, 2] p s02)⟩,
         ⟨S16x65x1x64x64, broadcastInDim S16x65x1x64x64 ![0, 1, 3, 4] hb (extractStridedSlice S16x65x64x64 ![0, 0, 1, 0] p s10)⟩,
         ⟨S16x65x1x64x64, broadcastInDim S16x65x1x64x64 ![0, 1, 3, 4] hb (extractStridedSlice S16x65x64x64 ![0, 0, 1, 1] p s11)⟩,
         ⟨S16x65x1x64x64, broadcastInDim S16x65x1x64x64 ![0, 1, 3, 4] hb (extractStridedSlice S16x65x64x64 ![0, 0, 1, 2] p s12)⟩,
         ⟨S16x65x1x64x64, broadcastInDim S16x65x1x64x64 ![0, 1, 3, 4] hb (extractStridedSlice S16x65x64x64 ![0, 0, 2, 0] p s20)⟩,
         ⟨S16x65x1x64x64, broadcastInDim S16x65x1x64x64 ![0, 1, 3, 4] hb (extractStridedSlice S16x65x64x64 ![0, 0, 2, 1] p s21)⟩,
         ⟨S16x65x1x64x64, broadcastInDim S16x65x1x64x64 ![0, 1, 3, 4] hb (extractStridedSlice S16x65x64x64 ![0, 0, 2, 2] p s22)⟩]) hc (show 8 < 9 from by decide) rfl rfl).trans ?_; exact (hfin _ _ _ _ (Fin.ext (by show h.val + 2 = h.val + 8 / 3; omega)) (Fin.ext (by show w.val + 2 = w.val + 8 % 3; omega)))
  | ⟨_ + 9, h⟩ => exact absurd h (Nat.not_lt.2 (Nat.le_add_left _ _))

/-! ## The rows at an index -/

/-- The joined array regrouped into rows, at (b, l, c): the joined array at (b, c / 9, c % 9, l / 64, l % 64). -/
theorem rows_apply (v : S16x65x9x64x64.Idx → EReal) (hsc : S16x65x9x64x64.ShapeCasts S16x585x4096)
    (ht : S16x585x4096.Transposes [0, 2, 1] S16x4096x585) (b : Fin 16) (l : Fin 4096) (c : Fin 585) :
    transpose S16x4096x585 [0, 2, 1] (shapeCast S16x585x4096 v hsc) ht (ix3 b l c)
      = v (ix5 b (⟨c.val / 9, by omega⟩ : Fin 65) (⟨c.val % 9, by omega⟩ : Fin 9) (⟨l.val / 64, by omega⟩ : Fin 64) (⟨l.val % 64, by omega⟩ : Fin 64)) := by
  refine (transpose_apply _ _ ht _ (ix3 b c l) (fun a => match a with
      | ⟨0, _⟩ => rfl
      | ⟨1, _⟩ => rfl
      | ⟨2, _⟩ => rfl
      | ⟨_ + 3, h⟩ => absurd h (Nat.not_lt.2 (Nat.le_add_left _ _)))).trans ?_
  refine shapeCast_apply v hsc _ _ ?_
  rw [Shape.rowMajor_val_five, Shape.rowMajor_val_three]
  show (((b.val * 65 + c.val / 9) * 9 + c.val % 9) * 64 + l.val / 64) * 64 + l.val % 64 = (b.val * 585 + c.val) * 4096 + l.val
  omega

end Cert.ReferenceIdeal.PreR

end
-- ==== Proof.RefPre3.lean ====
/-
  The reference program's patch matrix, third part: the operations after the rows are formed, read at an index — the
  nine clamped time coordinates of a row, its time entry (a square root of a sum of nine squares less a constant),
  its space entries (a regrouping of the row's remaining entries, position-major), and the row as their joining.
-/
import proofs.«127918_j12824772346234_1_alg».proof.Proof.RefPre1
import proofs.«127918_j12824772346234_1_alg».proof.Proof.Spec
import Idealize.ShloMosaic.Lib.KernelVsHost
import Idealize.ShloMosaic.Lib.IdealHost

noncomputable section

namespace Cert.ReferenceIdeal.PreR

open Cert.ReferenceIdeal Cert.ReferenceIdeal.Gen Idealize.ShloMosaic Idealize.ShloMosaic.ValueIdx

/-! ## The clamped time coordinates, the time entry, the space entries and a whole row, at an index -/

/-- The square root of the word 1.0 is the word 1.0. -/
theorem sqrt_one_word : Ideal.sqrt (Ideal.ofBits .f32 0x3F800000#32) = Ideal.ofBits .f32 0x3F800000#32 := by
  rw [Ideal.ofBits_one_f32, show (1 : EReal) = ((1 : ℝ) : EReal) from rfl, Ideal.sqrt_coe]
  simp

/-- The nine clamped time coordinates of row (b, l): position k is the larger of the row's entry k and the word 1.0. -/
theorem clamp_apply (r : S16x4096x585.Idx → EReal) (b : Fin 16) (l : Fin 4096) (k : Fin 9) :
    clampOf (F := Ideal) r (ix3 b l k) = max (r (ix3 b l (⟨k.val, by omega⟩ : Fin 585))) Cert.Spec.one := by
  unfold clampOf
  show max (extractStridedSlice S16x4096x9 ![0, 0, 0] r slices_S16x4096x585_S16x4096x9_0_0_0 (ix3 b l k))
      (broadcastInDim S16x4096x9 ![] bcast_S_S16x4096x9 (Host.sqrt (F := Ideal) (constant S_ .f32 0x3F800000#32)) (ix3 b l k)) = _
  refine congrArg₂ max ?_ ?_
  · exact extractStridedSlice_apply _ r slices_S16x4096x585_S16x4096x9_0_0_0 _ (ix3 b l (⟨k.val, by omega⟩ : Fin 585)) (fun a => match a with
      | ⟨0, _⟩ => by show b.val = 0 + b.val; omega
      | ⟨1, _⟩ => by show l.val = 0 + l.val; omega
      | ⟨2, _⟩ => by show k.val = 0 + k.val; omega
      | ⟨_ + 3, h⟩ => absurd h (Nat.not_lt.2 (Nat.le_add_left _ _)))
  · exact (broadcastInDim_scalar_apply _ _ _).trans sqrt_one_word

/-- The time entry of row (b, l): the square root of the sum of the nine squared clamped time coordinates less the word 8.0. -/
theorem time_apply (r : S16x4096x585.Idx → EReal) (b : Fin 16) (l : Fin 4096) (z : Fin 1) :
    timeOf (F := Ideal) r (ix3 b l z)
      = Ideal.sqrt ((∑ k : Fin 9, max (r (ix3 b l (⟨k.val, by omega⟩ : Fin 585))) Cert.Spec.one
                                  * max (r (ix3 b l (⟨k.val, by omega⟩ : Fin 585))) Cert.Spec.one) - Cert.Spec.eight) := by
  have hR : S16x4096x9.Reduces [2] S16x4096 := by decide
  unfold timeOf
  show Ideal.sqrt (_ - _) = Ideal.sqrt (_ - _)
  refine congrArg Ideal.sqrt (congrArg₂ (· - ·) ?_ ?_)
  · refine (broadcastInDim_apply _ bcast_S16x4096_S16x4096x1_0_1 _ _ (ix2 b l) (fun a => match a with
      | ⟨0, _⟩ => rfl
      | ⟨1, _⟩ => rfl
      | ⟨_ + 2, h⟩ => absurd h (Nat.not_lt.2 (Nat.le_add_left _ _)))).trans ?_
    refine (Ideal.hostReduceAdd_single reducesTo_S16x4096x9_S16x4096_d2 hR _ _ _).trans ?_
    show Ideal.ofBits .f32 0x00000000#32 + ∑ k : Fin 9, (clampOf (F := Ideal) r (hR.lift (ix2 b l) k) * clampOf (F := Ideal) r (hR.lift (ix2 b l) k)) = _
    rw [Ideal.ofBits_zero_f32, zero_add]
    refine Finset.sum_congr rfl fun k _ => ?_
    have hl : hR.lift (ix2 b l) k = ix3 b l k := funext (fun a => match a with
      | ⟨0, _⟩ => Fin.ext rfl
      | ⟨1, _⟩ => Fin.ext rfl
      | ⟨2, _⟩ => Fin.ext rfl
      | ⟨_ + 3, h⟩ => absurd h (Nat.not_lt.2 (Nat.le_add_left _ _)))
    rw [hl, clamp_apply]
  · exact (broadcastInDim_scalar_apply _ _ _).trans rfl

/-- The space entries of row (b, l): entry e = 64 k + c is the row's entry 9 + 9 c + k. -/
theorem space_apply (r : S16x4096x585.Idx → EReal) (b : Fin 16) (l : Fin 4096) (e : Fin 576) :
    spaceOf (F := Ideal) r (ix3 b l e) = r (ix3 b l (⟨(e.val % 64) * 9 + e.val / 64 + 9, by omega⟩ : Fin 585)) := by
  unfold spaceOf
  refine (shapeCast_apply _ shapeCasts_S16x4096x9x64_S16x4096x576 _
    (ix4 b l (⟨e.val / 64, by omega⟩ : Fin 9) (⟨e.val % 64, by omega⟩ : Fin 64)) ?_).trans ?_
  · rw [Shape.rowMajor_val_four, Shape.rowMajor_val_three]
    show ((b.val * 4096 + l.val) * 9 + e.val / 64) * 64 + e.val % 64 = (b.val * 4096 + l.val) * 576 + e.val
    omega
  refine (transpose_apply _ _ transposes_S16x4096x64x9_S16x4096x9x64_0_1_3_2 _
    (ix4 b l (⟨e.val % 64, by omega⟩ : Fin 64) (⟨e.val / 64, by omega⟩ : Fin 9)) (fun a => match a with
      | ⟨0, _⟩ => rfl
      | ⟨1, _⟩ => rfl
      | ⟨2, _⟩ => rfl
      | ⟨3, _⟩ => rfl
      | ⟨_ + 4, h⟩ => absurd h (Nat.not_lt.2 (Nat.le_add_left _ _)))).trans ?_
  refine (shapeCast_apply _ shapeCasts_S16x4096x576_S16x4096x64x9 _
    (ix3 b l (⟨(e.val % 64) * 9 + e.val / 64, by omega⟩ : Fin 576)) ?_).trans ?_
  · rw [Shape.rowMajor_val_three, Shape.rowMajor_val_four]
    show (b.val * 4096 + l.val) * 576 + (e.val % 64 * 9 + e.val / 64) = ((b.val * 4096 + l.val) * 64 + e.val % 64) * 9 + e.val / 64
    omega
  exact extractStridedSlice_apply _ r slices_S16x4096x585_S16x4096x576_0_0_9 _ _ (fun a => match a with
      | ⟨0, _⟩ => by show b.val = 0 + b.val; omega
      | ⟨1, _⟩ => by show l.val = 0 + l.val; omega
      | ⟨2, _⟩ => by show e.val % 64 * 9 + e.val / 64 + 9 = 9 + (e.val % 64 * 9 + e.val / 64); omega
      | ⟨_ + 3, h⟩ => absurd h (Nat.not_lt.2 (Nat.le_add_left _ _)))

/-- Entry 0 of a row is its time entry. -/
theorem row_apply_zero (r : S16x4096x585.Idx → EReal) (b : Fin 16) (l : Fin 4096) (d : Fin 577) (hd : d.val = 0) :
    rowOf (F := Ideal) r (ix3 b l d) = timeOf (F := Ideal) r (ix3 b l (0 : Fin 1)) := by
  unfold rowOf
  exact concatenate_pair_apply_left (t := S16x4096x577) (s₁ := S16x4096x1) (s₂ := S16x4096x576) (2 : Fin 3) _ _ concatenates_S16x4096x1_S16x4096x576_S16x4096x577_d2 (ix3 b l d) rfl (ix3 b l (0 : Fin 1))
    (fun a => match a with
      | ⟨0, _⟩ => rfl
      | ⟨1, _⟩ => rfl
      | ⟨2, _⟩ => hd.symm
      | ⟨_ + 3, h⟩ => absurd h (Nat.not_lt.2 (Nat.le_add_left _ _)))

/-- Entry d ≥ 1 of a row is its space entry d - 1. -/
theorem row_apply_succ (r : S16x4096x585.Idx → EReal) (b : Fin 16) (l : Fin 4096) (d : Fin 577) (hd : d.val ≠ 0) :
    rowOf (F := Ideal) r (ix3 b l d) = spaceOf (F := Ideal) r (ix3 b l (⟨d.val - 1, by omega⟩ : Fin 576)) := by
  unfold rowOf
  exact concatenate_pair_apply_right (t := S16x4096x577) (s₁ := S16x4096x1) (s₂ := S16x4096x576) (2 : Fin 3) _ _ concatenates_S16x4096x1_S16x4096x576_S16x4096x577_d2 (ix3 b l d) rfl rfl
    (ix3 b l (⟨d.val - 1, by omega⟩ : Fin 576))
    (fun a => match a with
      | ⟨0, _⟩ => fun _ => rfl
      | ⟨1, _⟩ => fun _ => rfl
      | ⟨2, _⟩ => fun hne => absurd rfl hne
      | ⟨_ + 3, h⟩ => absurd h (Nat.not_lt.2 (Nat.le_add_left _ _)))
    (by show d.val - 1 + 1 = d.val; omega)

end Cert.ReferenceIdeal.PreR

end
-- ==== Proof.RefPre.lean ====
/-
  The reference program's patch matrix: the operations that build it, run from any contents of the buffers, leave in
  its buffer the specified patch matrix of the image. The run of the operations (first part) gives the matrix as a
  composition of layout operations, a clamped sum of squares and a joining; read at an index (second and third parts)
  that composition is the padded image at a window position of a pixel for the space entries, and the square root of
  the sum over the nine positions of the squared clamped time coordinate less the constant for the time entry.
-/
import proofs.«127918_j12824772346234_1_alg».proof.Proof.RefPre1
import proofs.«127918_j12824772346234_1_alg».proof.Proof.RefPre2
import proofs.«127918_j12824772346234_1_alg».proof.Proof.RefPre3
import proofs.«127918_j12824772346234_1_alg».proof.Proof.RefRun
import proofs.«127918_j12824772346234_1_alg».proof.Proof.Spec

noncomputable section

namespace Cert.ReferenceIdeal.PreR

open Cert.ReferenceIdeal Cert.ReferenceIdeal.Gen Idealize.ShloMosaic Idealize.ShloMosaic.ValueIdx Idealize.ShloMosaic.TcCoe Idealize.ShloMosaic.StableHlo

/-! ## The patch matrix at an index -/

/-- The padded image does not depend on how its row, column and channel are written. -/
theorem xpad_congr (x : S16x64x64x65.Idx → EReal) (b : Fin 16) {r r' s s' : Nat} {ch ch' : Fin 65}
    (hr : r = r') (hs : s = s') (hc : ch = ch') : Cert.Spec.xpad x b r s ch = Cert.Spec.xpad x b r' s' ch' := by
  subst hr hs hc; rfl

/-- The rows before the time entry is taken: entry c of row (b, l) is the padded image at window position c % 9 of
    pixel l, channel c / 9. -/
theorem rows_pre_apply (x : S16x64x64x65.Idx → EReal) (b : Fin 16) (l : Fin 4096) (c : Fin 585) :
    rowsOf (F := Ideal) (joined
        (win ![0, 0, 0, 0] slices_S16x65x66x66_S16x65x64x64_0_0_0_0 (padded x))
        (win ![0, 0, 0, 1] slices_S16x65x66x66_S16x65x64x64_0_0_0_1 (padded x))
        (win ![0, 0, 0, 2] slices_S16x65x66x66_S16x65x64x64_0_0_0_2 (padded x))
        (win ![0, 0, 1, 0] slices_S16x65x66x66_S16x65x64x64_0_0_1_0 (padded x))
        (win ![0, 0, 1, 1] slices_S16x65x66x66_S16x65x64x64_0_0_1_1 (padded x))
        (win ![0, 0, 1, 2] slices_S16x65x66x66_S16x65x64x64_0_0_1_2 (padded x))
        (win ![0, 0, 2, 0] slices_S16x65x66x66_S16x65x64x64_0_0_2_0 (padded x))
        (win ![0, 0, 2, 1] slices_S16x65x66x66_S16x65x64x64_0_0_2_1 (padded x))
        (win ![0, 0, 2, 2] slices_S16x65x66x66_S16x65x64x64_0_0_2_2 (padded x))) (ix3 b l c)
      = Cert.Spec.xpad x b (l.val / 64 + c.val % 9 / 3) (l.val % 64 + c.val % 9 % 3) (⟨c.val / 9, by omega⟩ : Fin 65) := by
  unfold rowsOf
  refine (rows_apply _ _ _ b l c).trans ?_
  unfold joined win
  refine (joined_win_apply (padded (F := Ideal) x) slices_S16x65x66x66_S16x65x64x64_0_0_0_0 slices_S16x65x66x66_S16x65x64x64_0_0_0_1 slices_S16x65x66x66_S16x65x64x64_0_0_0_2 slices_S16x65x66x66_S16x65x64x64_0_0_1_0 slices_S16x65x66x66_S16x65x64x64_0_0_1_1 slices_S16x65x66x66_S16x65x64x64_0_0_1_2 slices_S16x65x66x66_S16x65x64x64_0_0_2_0 slices_S16x65x66x66_S16x65x64x64_0_0_2_1 slices_S16x65x66x66_S16x65x64x64_0_0_2_2
    bcast_S16x65x64x64_S16x65x1x64x64_0_1_3_4 _ b (⟨c.val / 9, by omega⟩ : Fin 65) (⟨c.val % 9, by omega⟩ : Fin 9)
    (⟨l.val / 64, by omega⟩ : Fin 64) (⟨l.val % 64, by omega⟩ : Fin 64)).trans ?_
  unfold padded
  exact padded_apply x _ _ _ b (⟨c.val / 9, by omega⟩ : Fin 65) (⟨l.val / 64 + c.val % 9 / 3, by omega⟩ : Fin 66)
    (⟨l.val % 64 + c.val % 9 % 3, by omega⟩ : Fin 66)

/-- The patch matrix computed from the image, at (b, l, d), is the specified entry. -/
theorem preOf_apply (x : S16x64x64x65.Idx → EReal) (b : Fin 16) (l : Fin 4096) (d : Fin 577) :
    preOf (F := Ideal) x (ix3 b l d) = Cert.Spec.PreAt x b l d := by
  unfold preOf Cert.Spec.PreAt
  by_cases hd : d.val = 0
  · rw [if_pos hd, row_apply_zero _ b l d hd, time_apply]
    refine congrArg Ideal.sqrt (congrArg₂ (· - ·) (Finset.sum_congr rfl fun k _ => ?_) rfl)
    unfold Cert.Spec.tsq
    rw [rows_pre_apply x b l (⟨k.val, by omega⟩ : Fin 585)]
    have hx : Cert.Spec.xpad x b (l.val / 64 + k.val % 9 / 3) (l.val % 64 + k.val % 9 % 3) (⟨k.val / 9, by omega⟩ : Fin 65)
        = Cert.Spec.xpad x b (l.val / 64 + k.val / 3) (l.val % 64 + k.val % 3) 0 :=
      xpad_congr x b (by omega) (by omega) (Fin.ext (by show k.val / 9 = 0; omega))
    exact congrArg₂ (· * ·) (congrArg (max · Cert.Spec.one) hx) (congrArg (max · Cert.Spec.one) hx)
  · rw [if_neg hd, row_apply_succ _ b l d hd, space_apply, rows_pre_apply]
    exact xpad_congr x b (by show l.val / 64 + ((d.val - 1) % 64 * 9 + (d.val - 1) / 64 + 9) % 9 / 3 = l.val / 64 + (d.val - 1) / 64 / 3; omega)
      (by show l.val % 64 + ((d.val - 1) % 64 * 9 + (d.val - 1) / 64 + 9) % 9 % 3 = l.val % 64 + (d.val - 1) / 64 % 3; omega)
      (Fin.ext (by show ((d.val - 1) % 64 * 9 + (d.val - 1) / 64 + 9) / 9 = (d.val - 1) % 64 + 1; omega))

/-- The reference program's operations up to the patch matrix leave, in the patch matrix's buffer, the specified patch
    matrix of the image they found. -/
theorem pre_R (W : Valuation τ sig (Elt Ideal)) :
    StableHlo.after (Cert.ReferenceIdeal.RefRun.opsPre (F := Ideal)) W main_v37 = Cert.Spec.PreArr (W main_arg0) := by
  have hops : (Cert.ReferenceIdeal.RefRun.opsPre (F := Ideal)) = opsPre' := rfl
  rw [hops, run_pre']
  funext j
  obtain ⟨b, l, d, rfl⟩ : ∃ (b : Fin 16) (l : Fin 4096) (d : Fin 577), j = ix3 b l d := ⟨j 0, j 1, j 2, eq_ix3 j⟩
  exact preOf_apply _ b l d

end Cert.ReferenceIdeal.PreR

end
-- ==== Proof.RefTail1.lean ====
/-
  The reference program's last stretch: the product of the weights with the patch matrix, the
  time channel recomputed from the space channels, and the final layout — first as a list of
  tensor operations, then as one pure function of the two operands, and the run of the list
  read back as that function.
-/
import proofs.«127918_j12824772346234_1_alg».proof.Proof.Gen.ReferenceIdeal
import proofs.«127918_j12824772346234_1_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.TailR

open Cert.ReferenceIdeal Cert.ReferenceIdeal.Gen Idealize.ShloMosaic Idealize.ShloMosaic.TcCoe Idealize.ShloMosaic.StableHlo
open Idealize.ShloMosaic.ValueIdx

variable {F : FTy → Type} [FloatOps F]

/-- The fourteen operations of the stretch, in order. -/
abbrev opsTail' : List (HloOp τ sig (Elt F)) :=
  [ StableHlo.binary main_v72 main_v37 main_v73 ((fun l r => Host.dotGeneral dot_S4x65x577_S16x4096x577_S4x65x16x4096_2_2_01_01_n_n none l r) : (⟨S4x65x577, .f32⟩ : BufTy).Contents (Elt F) → (⟨S16x4096x577, .f32⟩ : BufTy).Contents (Elt F) → (⟨S4x65x16x4096, .f32⟩ : BufTy).Contents (Elt F)),
    StableHlo.unary main_v73 main_v74 ((transpose S4x16x4096x65 [0, 2, 3, 1] · transposes_S4x65x16x4096_S4x16x4096x65_0_2_3_1) : (⟨S4x65x16x4096, .f32⟩ : BufTy).Contents (Elt F) → (⟨S4x16x4096x65, .f32⟩ : BufTy).Contents (Elt F)),
    StableHlo.unary main_v74 main_v75 ((extractStridedSlice S4x16x4096x64 ![0, 0, 0, 1] · slices_S4x16x4096x65_S4x16x4096x64_0_0_0_1) : (⟨S4x16x4096x65, .f32⟩ : BufTy).Contents (Elt F) → (⟨S4x16x4096x64, .f32⟩ : BufTy).Contents (Elt F)),
    StableHlo.binary main_v75 main_v75 main_v76 (mulf : (⟨S4x16x4096x64, .f32⟩ : BufTy).Contents (Elt F) → (⟨S4x16x4096x64, .f32⟩ : BufTy).Contents (Elt F) → (⟨S4x16x4096x64, .f32⟩ : BufTy).Contents (Elt F)),
    StableHlo.nullary main_cst_2 (constant S_ .f32 0x00000000#32),
    StableHlo.binary main_v76 main_cst_2 main_v77 ((fun x v => Host.reduceAdd x v reducesTo_S4x16x4096x64_S4x16x4096_d3 h_S_) : (⟨S4x16x4096x64, .f32⟩ : BufTy).Contents (Elt F) → (⟨S_, .f32⟩ : BufTy).Contents (Elt F) → (⟨S4x16x4096, .f32⟩ : BufTy).Contents (Elt F)),
    StableHlo.unary main_v77 main_v78 (broadcastInDim S4x16x4096x1 ![0, 1, 2] bcast_S4x16x4096_S4x16x4096x1_0_1_2 : (⟨S4x16x4096, .f32⟩ : BufTy).Contents (Elt F) → (⟨S4x16x4096x1, .f32⟩ : BufTy).Contents (Elt F)),
    StableHlo.nullary main_cst_3 (constant S_ .f32 0x3F800000#32),
    StableHlo.unary main_cst_3 main_v79 (broadcastInDim S4x16x4096x1 ![] bcast_S_S4x16x4096x1 : (⟨S_, .f32⟩ : BufTy).Contents (Elt F) → (⟨S4x16x4096x1, .f32⟩ : BufTy).Contents (Elt F)),
    StableHlo.binary main_v79 main_v78 main_v80 (addf : (⟨S4x16x4096x1, .f32⟩ : BufTy).Contents (Elt F) → (⟨S4x16x4096x1, .f32⟩ : BufTy).Contents (Elt F) → (⟨S4x16x4096x1, .f32⟩ : BufTy).Contents (Elt F)),
    StableHlo.unary main_v80 main_v81 (Host.sqrt : (⟨S4x16x4096x1, .f32⟩ : BufTy).Contents (Elt F) → (⟨S4x16x4096x1, .f32⟩ : BufTy).Contents (Elt F)),
    StableHlo.binary main_v81 main_v75 main_v82 ((fun a b => concatenate S4x16x4096x65 3 [⟨S4x16x4096x1, a⟩, ⟨S4x16x4096x64, b⟩] concatenates_S4x16x4096x1_S4x16x4096x64_S4x16x4096x65_d3) : (⟨S4x16x4096x1, .f32⟩ : BufTy).Contents (Elt F) → (⟨S4x16x4096x64, .f32⟩ : BufTy).Contents (Elt F) → (⟨S4x16x4096x65, .f32⟩ : BufTy).Contents (Elt F)),
    StableHlo.unary main_v82 main_v83 ((transpose S16x4x4096x65 [1, 0, 2, 3] · transposes_S4x16x4096x65_S16x4x4096x65_1_0_2_3) : (⟨S4x16x4096x65, .f32⟩ : BufTy).Contents (Elt F) → (⟨S16x4x4096x65, .f32⟩ : BufTy).Contents (Elt F)),
    StableHlo.reshape main_v83 main_v84 rfl shapeCasts_S16x4x4096x65_S16x4x64x64x65 ]

/-! ## The last stretch as pure functions of the weights `Wt` and the patch matrix `P` -/

/-- The product: entry (g, o, b, l) is the sum over d of Wt[g, o, d] * P[b, l, d]. -/
def prod (Wt : FVec Ideal S4x65x577 .f32) (P : FVec Ideal S16x4096x577 .f32) : FVec Ideal S4x65x16x4096 .f32 :=
  Host.dotGeneral dot_S4x65x577_S16x4096x577_S4x65x16x4096_2_2_01_01_n_n none Wt P

/-- The product with the output channel moved last: entry (g, b, l, o). -/
def prodT (Wt : FVec Ideal S4x65x577 .f32) (P : FVec Ideal S16x4096x577 .f32) : FVec Ideal S4x16x4096x65 .f32 :=
  transpose S4x16x4096x65 [0, 2, 3, 1] (prod Wt P) transposes_S4x65x16x4096_S4x16x4096x65_0_2_3_1

/-- Its 64 space channels (output channels 1 … 64). -/
def space (Wt : FVec Ideal S4x65x577 .f32) (P : FVec Ideal S16x4096x577 .f32) : FVec Ideal S4x16x4096x64 .f32 :=
  extractStridedSlice S4x16x4096x64 ![0, 0, 0, 1] (prodT Wt P) slices_S4x16x4096x65_S4x16x4096x64_0_0_0_1

/-- The sum over the space channels of their squares, from the initial value zero. -/
def sumsq (Wt : FVec Ideal S4x65x577 .f32) (P : FVec Ideal S16x4096x577 .f32) : FVec Ideal S4x16x4096 .f32 :=
  Host.reduceAdd (mulf (space Wt P) (space Wt P)) (constant (F := Ideal) S_ .f32 0x00000000#32) reducesTo_S4x16x4096x64_S4x16x4096_d3 h_S_

/-- The time channel: the square root of one plus that sum. -/
def time (Wt : FVec Ideal S4x65x577 .f32) (P : FVec Ideal S16x4096x577 .f32) : FVec Ideal S4x16x4096x1 .f32 :=
  Host.sqrt (addf (broadcastInDim S4x16x4096x1 ![] bcast_S_S4x16x4096x1 (constant (F := Ideal) S_ .f32 0x3F800000#32))
    (broadcastInDim S4x16x4096x1 ![0, 1, 2] bcast_S4x16x4096_S4x16x4096x1_0_1_2 (sumsq Wt P)))

/-- The time channel followed by the space channels. -/
def cat (Wt : FVec Ideal S4x65x577 .f32) (P : FVec Ideal S16x4096x577 .f32) : FVec Ideal S4x16x4096x65 .f32 :=
  concatenate S4x16x4096x65 3 [⟨S4x16x4096x1, time Wt P⟩, ⟨S4x16x4096x64, space Wt P⟩] concatenates_S4x16x4096x1_S4x16x4096x64_S4x16x4096x65_d3

/-- The result: batch first, then group, and the 4096 pixels as 64 rows of 64. -/
def out (Wt : FVec Ideal S4x65x577 .f32) (P : FVec Ideal S16x4096x577 .f32) : FVec Ideal S16x4x64x64x65 .f32 :=
  shapeCast S16x4x64x64x65 (transpose S16x4x4096x65 [1, 0, 2, 3] (cat Wt P) transposes_S4x16x4096x65_S16x4x4096x65_1_0_2_3)
    shapeCasts_S16x4x4096x65_S16x4x64x64x65

/-- Running the stretch from any contents leaves the result buffer at `out` of the two operands' contents. -/
theorem run_out (W : Valuation τ sig (Elt Ideal)) :
    StableHlo.after (opsTail' (F := Ideal)) W main_v84 = out (W main_v72) (W main_v37) := by
  after_results
  rfl

end Cert.ReferenceIdeal.TailR

end
-- ==== Proof.RefTail2.lean ====
/-
  The last stretch's pure functions read at an index, down to the specification: the product at
  (g, o, b, l) is the sum over the patch entries, the layout operations move coordinates, the time
  channel is the square root of one plus the sum of the squared space channels, and the result at
  (b, g, h, w, o) is the specified one.
-/
import proofs.«127918_j12824772346234_1_alg».proof.Proof.Gen.ReferenceIdeal
import proofs.«127918_j12824772346234_1_alg».proof.Proof.Spec
import proofs.«127918_j12824772346234_1_alg».proof.Proof.RefTail1
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.TailR

open Cert.ReferenceIdeal Cert.ReferenceIdeal.Gen Idealize.ShloMosaic Idealize.ShloMosaic.TcCoe Idealize.ShloMosaic.StableHlo
open Idealize.ShloMosaic.ValueIdx

variable (Wt : FVec Ideal S4x65x577 .f32) (P : FVec Ideal S16x4096x577 .f32)

/-- The product at (g, o, b, l): the sum over the 577 patch entries. -/
theorem prod_apply (g : Fin 4) (o : Fin 65) (b : Fin 16) (l : Fin 4096) :
    prod Wt P (ix4 g o b l) = ∑ d : Fin 577, Wt (ix3 g o d) * P (ix3 b l d) := by
  unfold prod
  show FloatOps.dotGeneral _ none .single Wt P (ix4 g o b l) = _
  rw [Ideal.dotGeneral_apply]
  rw [← Equiv.sum_comp (contrEquiv1 dot_S4x65x577_S16x4096x577_S4x65x16x4096_2_2_01_01_n_n 577 rfl rfl).symm]
  refine Finset.sum_congr rfl fun d _ => ?_
  have hl : dot_S4x65x577_S16x4096x577_S4x65x16x4096_2_2_01_01_n_n.lhsIdx (ix4 g o b l)
      ((contrEquiv1 dot_S4x65x577_S16x4096x577_S4x65x16x4096_2_2_01_01_n_n 577 rfl rfl).symm d) = ix3 g o d := by
    funext a
    refine Fin.ext ?_
    match a with
    | ⟨0, _⟩ => rfl
    | ⟨1, _⟩ => rfl
    | ⟨2, _⟩ =>
      exact (DotDims.lhsIdx_val_of_single _ rfl _ _).trans (contrEquiv1_symm_val _ 577 rfl rfl d)
  have hr : dot_S4x65x577_S16x4096x577_S4x65x16x4096_2_2_01_01_n_n.rhsIdx (ix4 g o b l)
      ((contrEquiv1 dot_S4x65x577_S16x4096x577_S4x65x16x4096_2_2_01_01_n_n 577 rfl rfl).symm d) = ix3 b l d := by
    funext a
    refine Fin.ext ?_
    match a with
    | ⟨0, _⟩ => rfl
    | ⟨1, _⟩ => rfl
    | ⟨2, _⟩ =>
      exact (DotDims.rhsIdx_val_of_single _ rfl _ _).trans (contrEquiv1_symm_val _ 577 rfl rfl d)
  rw [hl, hr]

/-- The same sum with the factors in the order of the specification. -/
theorem prod_eq_Oat (g : Fin 4) (o : Fin 65) (b : Fin 16) (l : Fin 4096) :
    prod Wt P (ix4 g o b l) = Spec.Oat P Wt b l g o := by
  rw [prod_apply]
  unfold Spec.Oat
  exact Finset.sum_congr rfl fun d _ => mul_comm _ _

/-- The product with the output channel last, at (g, b, l, o). -/
theorem prodT_apply (g : Fin 4) (b : Fin 16) (l : Fin 4096) (o : Fin 65) :
    prodT Wt P (ix4 g b l o) = prod Wt P (ix4 g o b l) := by
  unfold prodT
  exact transpose_apply _ _ _ (ix4 g b l o) (ix4 g o b l) fun a => by
    match a with
    | ⟨0, _⟩ => rfl
    | ⟨1, _⟩ => rfl
    | ⟨2, _⟩ => rfl
    | ⟨3, _⟩ => rfl

/-- Space channel c is output channel c + 1. -/
theorem space_apply (g : Fin 4) (b : Fin 16) (l : Fin 4096) (c : Fin 64) :
    space Wt P (ix4 g b l c) = prodT Wt P (ix4 g b l ⟨c.val + 1, by omega⟩) := by
  unfold space
  exact extractStridedSlice_apply _ _ _ (ix4 g b l c) (ix4 g b l ⟨c.val + 1, by omega⟩) fun a => by
    match a with
    | ⟨0, _⟩ => show g.val = 0 + g.val; omega
    | ⟨1, _⟩ => show b.val = 0 + b.val; omega
    | ⟨2, _⟩ => show l.val = 0 + l.val; omega
    | ⟨3, _⟩ => show c.val + 1 = 1 + c.val; omega

/-- The sum of the squares of the 64 space channels at (g, b, l). -/
theorem sumsq_apply (g : Fin 4) (b : Fin 16) (l : Fin 4096) :
    sumsq Wt P (ix3 g b l) = ∑ c : Fin 64, space Wt P (ix4 g b l c) * space Wt P (ix4 g b l c) := by
  unfold sumsq Host.reduceAdd
  show Ideal.hostReduceAdd reducesTo_S4x16x4096x64_S4x16x4096_d3 _ _ (ix3 g b l) = _
  have h : S4x16x4096x64.Reduces [3] S4x16x4096 := by decide
  rw [Ideal.hostReduceAdd_single _ h, constant_apply, Ideal.ofBits_zero_f32, zero_add]
  show ∑ c : Fin 64, _ = _
  refine Finset.sum_congr rfl fun c _ => ?_
  have hc : h.lift (ix3 g b l) c = ix4 g b l c := by
    funext a
    refine Fin.ext ?_
    match a with
    | ⟨0, _⟩ => rfl
    | ⟨1, _⟩ => rfl
    | ⟨2, _⟩ => rfl
    | ⟨3, _⟩ => rfl
  rw [hc]
  rfl

/-- The time channel at (g, b, l): the square root of one plus the sum of squares. -/
theorem time_apply (g : Fin 4) (b : Fin 16) (l : Fin 4096) :
    time Wt P (ix4 g b l 0) = Ideal.sqrt (Spec.one + sumsq Wt P (ix3 g b l)) := by
  unfold time
  show Ideal.sqrt (_ + _) = _
  rw [broadcastInDim_apply _ _ _ (ix4 g b l (0 : Fin 1)) ix0 (fun a => a.elim0),
    broadcastInDim_apply _ _ _ (ix4 g b l (0 : Fin 1)) (ix3 g b l) (fun a => by
      match a with
      | ⟨0, _⟩ => rfl
      | ⟨1, _⟩ => rfl
      | ⟨2, _⟩ => rfl)]
  rfl

/-- Channel 0 of the concatenation is the time channel. -/
theorem cat_apply_zero (g : Fin 4) (b : Fin 16) (l : Fin 4096) :
    cat Wt P (ix4 g b l 0) = time Wt P (ix4 g b l 0) := by
  unfold cat
  exact concatenate_pair_apply_left (t := S4x16x4096x65) (s₁ := S4x16x4096x1) (s₂ := S4x16x4096x64) 3 _ _ _
    (ix4 g b l (0 : Fin 65)) rfl (ix4 g b l (0 : Fin 1)) fun a => by
    match a with
    | ⟨0, _⟩ => rfl
    | ⟨1, _⟩ => rfl
    | ⟨2, _⟩ => rfl
    | ⟨3, _⟩ => rfl

/-- Channel o ≥ 1 of the concatenation is space channel o - 1. -/
theorem cat_apply_pos (g : Fin 4) (b : Fin 16) (l : Fin 4096) (o : Fin 65) (ho : o.val ≠ 0) :
    cat Wt P (ix4 g b l o) = space Wt P (ix4 g b l ⟨o.val - 1, by omega⟩) := by
  unfold cat
  exact concatenate_pair_apply_right (t := S4x16x4096x65) (s₁ := S4x16x4096x1) (s₂ := S4x16x4096x64) 3 _ _ _
    (ix4 g b l o) rfl rfl (ix4 g b l ⟨o.val - 1, by omega⟩)
    (fun a ha => by
      match a with
      | ⟨0, _⟩ => rfl
      | ⟨1, _⟩ => rfl
      | ⟨2, _⟩ => rfl
      | ⟨3, _⟩ => exact absurd rfl ha)
    (by show o.val - 1 + 1 = o.val; omega)

/-- The result at (b, g, h, w, o) is the concatenation at (g, b, 64 h + w, o). -/
theorem out_apply (b : Fin 16) (g : Fin 4) (h w : Fin 64) (o : Fin 65) :
    out Wt P (ix5 b g h w o) = cat Wt P (ix4 g b ⟨h.val * 64 + w.val, by omega⟩ o) := by
  unfold out
  refine (shapeCast_apply _ _ (ix5 b g h w o) (ix4 b g ⟨h.val * 64 + w.val, by omega⟩ o) ?_).trans ?_
  · rw [Shape.rowMajor_val_four, Shape.rowMajor_val_five]
    show ((b.val * 4 + g.val) * 4096 + (h.val * 64 + w.val)) * 65 + o.val
      = (((b.val * 4 + g.val) * 64 + h.val) * 64 + w.val) * 65 + o.val
    omega
  · exact transpose_apply _ _ _ (ix4 b g ⟨h.val * 64 + w.val, by omega⟩ o) (ix4 g b ⟨h.val * 64 + w.val, by omega⟩ o) fun a => by
      match a with
      | ⟨0, _⟩ => rfl
      | ⟨1, _⟩ => rfl
      | ⟨2, _⟩ => rfl
      | ⟨3, _⟩ => rfl

/-- A space channel is the specification's product at output channel c + 1. -/
theorem space_eq_Oat (g : Fin 4) (b : Fin 16) (l : Fin 4096) (c : Fin 64) :
    space Wt P (ix4 g b l c) = Spec.Oat P Wt b l g ⟨c.val + 1, by omega⟩ := by
  rw [space_apply, prodT_apply, prod_eq_Oat]

/-- The stretch computes the specified result. -/
theorem out_eq : out Wt P = Spec.OutArr P Wt := by
  funext j
  obtain ⟨b, g, h, w, o, rfl⟩ : ∃ (b : Fin 16) (g : Fin 4) (h w : Fin 64) (o : Fin 65), j = ix5 b g h w o :=
    ⟨j 0, j 1, j 2, j 3, j 4, eq_ix5 j⟩
  rw [Spec.OutArr_ix, out_apply]
  unfold Spec.OutAt
  by_cases ho : o.val = 0
  · obtain rfl : o = 0 := Fin.ext ho
    rw [if_pos ho, cat_apply_zero, time_apply, sumsq_apply]
    refine congrArg (fun s => Ideal.sqrt (Spec.one + s)) (Finset.sum_congr rfl fun c _ => ?_)
    rw [space_eq_Oat]
  · rw [if_neg ho, cat_apply_pos Wt P g b _ o ho, space_eq_Oat]
    refine congrArg (Spec.Oat P Wt b _ g) (Fin.ext ?_)
    show o.val - 1 + 1 = o.val
    omega

end Cert.ReferenceIdeal.TailR

end
-- ==== Proof.RefTail.lean ====
/-
  The reference program's last stretch computes the specified result: run from any contents, its
  fourteen operations leave the result buffer at the specification's array of the patch matrix and
  the weights held in the two operand buffers.
-/
import proofs.«127918_j12824772346234_1_alg».proof.Proof.RefRun
import proofs.«127918_j12824772346234_1_alg».proof.Proof.RefTail2

noncomputable section

namespace Cert.ReferenceIdeal.TailR

open Cert.ReferenceIdeal Cert.ReferenceIdeal.Gen Idealize.ShloMosaic Idealize.ShloMosaic.TcCoe Idealize.ShloMosaic.StableHlo

/-- The stretch as listed with the whole line is the list `opsTail'`, operation by operation. -/
theorem opsTail_eq : (Cert.ReferenceIdeal.RefRun.opsTail (F := Ideal)) = opsTail' (F := Ideal) := rfl

/-- After the stretch, from any contents `W`, the result buffer holds the specified array of the patch
    matrix (in the buffer of statement 37) and the weights (in the buffer of statement 72). -/
theorem tail_R (W : Valuation τ sig (Elt Ideal)) :
    StableHlo.after (Cert.ReferenceIdeal.RefRun.opsTail (F := Ideal)) W main_v84 = Cert.Spec.OutArr (W main_v37) (W main_v72) := by
  rw [opsTail_eq]
  exact (run_out W).trans (out_eq (W main_v72) (W main_v37))

end Cert.ReferenceIdeal.TailR

end
-- ==== Proof.RefVal.lean ====
/-
  The reference program's result is the specification's result of its argument arrays.

  The reference first builds the patch matrix from the image, then the weight array from the three weight arrays,
  then contracts the two over the patch entries and puts the time coordinate in front.  Each stretch writes only its
  own arrays, so the three readings compose: the result is `OutArr (PreArr image) (WtArr filters time-weights)`.
-/
import proofs.«127918_j12824772346234_1_alg».proof.Proof.RefRun
import proofs.«127918_j12824772346234_1_alg».proof.Proof.Spec

noncomputable section

namespace Cert.ReferenceIdeal.Val

open Cert.ReferenceIdeal Cert.ReferenceIdeal.Gen Cert.ReferenceIdeal.RefRun
open Idealize.ShloMosaic Idealize.ShloMosaic.TcCoe Idealize.SL.Sem Idealize.ShloMosaic.StableHlo

variable (tw : (S64x64x1x3x3.Idx → EReal) → Cert.Spec.ST.Idx → EReal)
variable (hpre : ∀ W : Valuation τ sig (Elt Ideal), after (opsPre (F := Ideal)) W main_v37 = Cert.Spec.PreArr (W main_arg0))
variable (hwt : ∀ W : Valuation τ sig (Elt Ideal),
    after (opsWt (F := Ideal)) W main_v72 = Cert.Spec.WtArr (tw (W main_arg1)) (W main_arg2) (W main_arg3))
variable (htail : ∀ W : Valuation τ sig (Elt Ideal),
    after (opsTail (F := Ideal)) W main_v84 = Cert.Spec.OutArr (W main_v37) (W main_v72))

include hpre hwt htail in
/-- The three stretches composed. -/
theorem res_eq (W : Valuation τ sig (Elt Ideal)) :
    after (ops (F := Ideal)) W main_v84
      = Cert.Spec.OutArr (Cert.Spec.PreArr (W main_arg0)) (Cert.Spec.WtArr (tw (W main_arg1)) (W main_arg2) (W main_arg3)) := by
  rw [after_ops, htail, opsWt_keeps_v37, hpre, hwt, opsPre_keeps_arg1, opsPre_keeps_arg2, opsPre_keeps_arg3]

include hpre hwt htail in
/-- The reference's run: the result array at the specification's result, the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
        = Cert.Spec.OutArr (Cert.Spec.PreArr (m ((c.tc : Thread nD τ).loc main_arg0)))
            (Cert.Spec.WtArr (tw (m ((c.tc : Thread nD τ).loc main_arg1))) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_eq tw hpre hwt htail _), (h c).2⟩) (RefRun.run m ρ)

end Cert.ReferenceIdeal.Val

end
-- ==== Proof.lean ====
/-
  A group-equivariant Lorentz convolution: one matrix product and a time coordinate, two ways.

  Both programs take a batch of 16 images of 64 x 64 points of a hyperboloid (65 channels: time, then 64 space
  coordinates), a bank of 64 x 64 spatial 3 x 3 filters and two arrays of time weights.  Around every pixel they take
  the 3 x 3 window of the zero-padded image and form a patch row of 577 entries: the patch's time coordinate
  sqrt (sum over the nine positions of max(time, 1)^2 - 8) followed by the 9 x 64 space coordinates.  From the
  filters rotated by 0, 90, 180 and 270 degrees and the time weights they form a weight W[g, o, d] for each of the 4
  rotations g, 65 output channels o and 577 patch entries d.  The result at (b, g, h, w, o) is, for a space channel
  o >= 1, the product sum_d patch[(b, h, w), d] * W[g, o, d], and for o = 0 the time coordinate
  sqrt (1 + sum of the squares of the 64 space channels).

  The kernel program builds the patch matrix and the weight matrix with host operations (padding in the image's own
  layout, nine shifted slices accumulated one after the other, the weights transposed to a [577, 260] matrix), rounds
  both to a narrower float format, and computes the product and the time coordinate in a kernel run once per batch
  element on that element's 4096 patch rows.  The reference moves the channels first, extracts the windows through a
  stacked array, sums the nine squares in one reduction, routes the output-time weights through a rotation along an
  axis of length one, and contracts with the weights on the left.  On the extended reals a change of float format is the
  identity, a rotation along an axis of length one is the identity, the square root of the float 1.0 is 1.0, sums may
  be taken in any order and products commute; with these the two programs compute the same function entry by entry
  (`Cert.Spec`), and no finiteness of the inputs is used.

  The modules: `Spec` states that function.  For the kernel program: `KIHost`, `KIRun`, `KIFrame` run it (the host
  prefix, the kernel body once on any staging buffers, the sixteen grid points) and `KHost`, `KRun`, `KFrame` are
  the same for its word-level reading; `KIPre` reads the host prefix's patch matrix and `WtK` its weight matrix
  entry by entry, `KIPay`, `KIOut`, `KIBlk` the kernel body's stores, `KIKeeps` and `KIFinal` put the sixteen
  blocks together.  For the reference: `RefRun` runs it, `RefPre`, `WtR`, `RefTail` read its three stretches and
  `RefVal` composes them.  `WtTW` is the filter bank's transformation, the same term in both programs.
-/
import proofs.«127918_j12824772346234_1_alg».proof.Defs
import proofs.«127918_j12824772346234_1_alg».proof.Proof.Gen.Kernel
import proofs.«127918_j12824772346234_1_alg».proof.Proof.Gen.KernelIdeal
import proofs.«127918_j12824772346234_1_alg».proof.Proof.Gen.ReferenceIdeal
import proofs.«127918_j12824772346234_1_alg».proof.Proof.Gen.Pre_finite_inputs
import proofs.«127918_j12824772346234_1_alg».proof.Proof.KFrame
import proofs.«127918_j12824772346234_1_alg».proof.Proof.KIFinal
import proofs.«127918_j12824772346234_1_alg».proof.Proof.KIPre
import proofs.«127918_j12824772346234_1_alg».proof.Proof.WtK
import proofs.«127918_j12824772346234_1_alg».proof.Proof.WtR
import proofs.«127918_j12824772346234_1_alg».proof.Proof.RefPre
import proofs.«127918_j12824772346234_1_alg».proof.Proof.RefTail
import proofs.«127918_j12824772346234_1_alg».proof.Proof.RefVal
import Idealize.ShloMosaic.Adequacy
import Idealize.ShloMosaic.Init

noncomputable section

namespace Cert.Proof

open Idealize.ShloMosaic Idealize.SL.Sem

/-- The word-level kernel program runs to the end, faults nowhere and leaves its argument arrays as they were. -/
theorem frame_k : Cert.frame_Kernel := fun m ρ _ => Cert.Kernel.Fr.frame m ρ

/-- So does its reading on the extended reals. -/
theorem frame_ki : Cert.frame_KernelIdeal := fun m ρ _ => Cert.KernelIdeal.Fr.frame m ρ

/-- And the reference. -/
theorem frame_ri : Cert.frame_ReferenceIdeal := fun m ρ _ => Cert.ReferenceIdeal.RefRun.frame m ρ

/-- The idealization rewrote no operation. -/
theorem preserves : Cert.preserves_Kernel_KernelIdeal := trivial

/-- From memories that agree on the four argument arrays both programs end with the result array at the
    specification's result of those arrays. -/
theorem algebraic : Cert.algebraic_KernelIdeal_ReferenceIdeal := by
  intro m ρ m' ρ' _ hagree
  refine ⟨fun c => Cert.KernelIdeal.Val.G Cert.Wt.TW m c,
    Cert.KernelIdeal.Val.run Cert.Wt.TW Cert.KernelIdeal.PreK.pre_K Cert.KernelIdeal.WtK.wt_K m ρ, ?_⟩
  refine (θ_run Cert.ReferenceIdeal.defs _ _).mono (fun _ h c => ⟨(h c).1.trans ?_, (h c).2⟩)
    (Cert.ReferenceIdeal.Val.run Cert.Wt.TW Cert.ReferenceIdeal.PreR.pre_R Cert.ReferenceIdeal.WtR.wt_R
      Cert.ReferenceIdeal.TailR.tail_R m' ρ')
  rw [(hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
